-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v105)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v105) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v125) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x3200000 : Shape := ⟨2, ![2, 3200000]⟩
abbrev S256x16 : Shape := ⟨2, ![256, 16]⟩
abbrev S16 : Shape := ⟨1, ![16]⟩
abbrev S16x16 : Shape := ⟨2, ![16, 16]⟩
abbrev S16x32 : Shape := ⟨2, ![16, 32]⟩
abbrev S32 : Shape := ⟨1, ![32]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x16 : S_.BroadcastsInDim S256x16 (![] : Fin 0 → Fin S256x16.rank)
  reducesTo_S256x16_S_d0_1 : S256x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S16x32 : S_.BroadcastsInDim S16x32 (![] : Fin 0 → Fin S16x32.rank)
  reducesTo_S16x32_S_d0_1 : S16x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S16 .f32) (main_arg6 : FVec F S16x32 .f32) (main_arg7 : FVec F S32 .f32) (main_v13 : IVec S_ 1) (main_v16 : IVec S16x16 1) : IVec S_ 1 :=
  let main_c_5 : IVec S_ 1 := constantI S_ 1 1#1
  let main_v17 : IVec S_ 1 := (fun x v => Host.reduce IntOp.andi x v reducesTo_S16x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x32 .f32 := Host.absf main_arg6
  let main_cst_8 : FVec F S_ .f32 := constant S_ .f32 0x7F800000#32
  let main_v25 : FVec F S16x32 .f32 := broadcastInDim S16x32 ![] bcast_S_S16x32 main_cst_8
  let main_v26 : IVec S16x32 1 := cmpf .olt main_v24 main_v25
  let main_c_9 : IVec S_ 1 := constantI S_ 1 1#1
  let main_v27 : IVec S_ 1 := (fun x v => Host.reduce IntOp.andi x v reducesTo_S16x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  main_v33

def fn {F : FTy → Type} [FloatOps F] (main_arg0 : FVec F S100000x256 .f32) (main_arg1 : IVec S2x3200000 32) (main_arg2 : FVec F S256x16 .f32) (main_arg3 : FVec F S16 .f32) (main_arg4 : FVec F S16x16 .f32) (main_arg5 : FVec F S16 .f32) (main_arg6 : FVec F S16x32 .f32) (main_arg7 : FVec F S32 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x16 .f32 := Host.absf main_arg2
  let main_cst_0 : FVec F S_ .f32 := constant S_ .f32 0x7F800000#32
  let main_v5 : FVec F S256x16 .f32 := broadcastInDim S256x16 ![] bcast_S_S256x16 main_cst_0
  let main_v6 : IVec S256x16 1 := cmpf .olt main_v4 main_v5
  let main_c_1 : IVec S_ 1 := constantI S_ 1 1#1
  let main_v7 : IVec S_ 1 := (fun x v => Host.reduce IntOp.andi x v reducesTo_S256x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x16 .f32 := Host.absf main_arg4
  let main_cst_4 : FVec F S_ .f32 := constant S_ .f32 0x7F800000#32
  let main_v15 : FVec F S16x16 .f32 := broadcastInDim S16x16 ![] bcast_S_S16x16 main_cst_4
  let main_v16 : IVec S16x16 1 := cmpf .olt main_v14 main_v15
  fn_part1 (F := F) main_arg5 main_arg6 main_arg7 main_v13 main_v16
-- ==== Kernel.lean ====
abbrev S100000x256 : Shape := ⟨2, ![100000, 256]⟩
abbrev S2x3200000 : Shape := ⟨2, ![2, 3200000]⟩
abbrev S256x16 : Shape := ⟨2, ![256, 16]⟩
abbrev S16 : Shape := ⟨1, ![16]⟩
abbrev S16x16 : Shape := ⟨2, ![16, 16]⟩
abbrev S16x32 : Shape := ⟨2, ![16, 32]⟩
abbrev S32 : Shape := ⟨1, ![32]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S100000x1 : Shape := ⟨2, ![100000, 1]⟩
abbrev S100000x16 : Shape := ⟨2, ![100000, 16]⟩
abbrev S5000x256 : Shape := ⟨2, ![5000, 256]⟩
abbrev S5000x16 : Shape := ⟨2, ![5000, 16]⟩
abbrev S3200000x16 : Shape := ⟨2, ![3200000, 16]⟩
abbrev S1x16 : Shape := ⟨2, ![1, 16]⟩
abbrev S5000x1 : Shape := ⟨2, ![5000, 1]⟩
abbrev S100000x32 : Shape := ⟨2, ![100000, 32]⟩
abbrev S5000x32 : Shape := ⟨2, ![5000, 32]⟩
abbrev S3200000x32 : Shape := ⟨2, ![3200000, 32]⟩
abbrev S1x32 : Shape := ⟨2, ![1, 32]⟩
abbrev S5000 : Shape := ⟨1, ![5000]⟩

abbrev nBuf : Space → Nat
  | .hbm => 138
  | .vmem => 42
  | .smem => 0
  | _ => 0

abbrev hbmTy0_0 (i : Nat) : BufTy := match i % 128 with
  | 0 => ⟨S100000x256, .f32⟩
  | 1 => ⟨S2x3200000, .i32⟩
  | 2 => ⟨S256x16, .f32⟩
  | 3 => ⟨S16, .f32⟩
  | 4 => ⟨S16x16, .f32⟩
  | 5 => ⟨S16, .f32⟩
  | 6 => ⟨S16x32, .f32⟩
  | 7 => ⟨S32, .f32⟩
  | 8 => ⟨S1x3200000, .i32⟩
  | 9 => ⟨S3200000, .i32⟩
  | 10 => ⟨S1x3200000, .i32⟩
  | 11 => ⟨S3200000, .i32⟩
  | 12 => ⟨S_, .f32⟩
  | 13 => ⟨S3200000, .f32⟩
  | 14 => ⟨S_, .f32⟩
  | 15 => ⟨S100000, .f32⟩
  | 16 => ⟨S3200000x1, .i32⟩
  | 17 => ⟨S100000, .f32⟩
  | 18 => ⟨S_, .f32⟩
  | 19 => ⟨S100000, .f32⟩
  | 20 => ⟨S100000, .f32⟩
  | 21 => ⟨S100000, .f32⟩
  | 22 => ⟨S100000, .f32⟩
  | 23 => ⟨S100000x1, .f32⟩
  | 24 => ⟨S100000x16, .f32⟩
  | 25 => ⟨S_, .i32⟩
  | 26 => ⟨S3200000, .i32⟩
  | 27 => ⟨S3200000, .i1⟩
  | 28 => ⟨S_, .i32⟩
  | 29 => ⟨S3200000, .i32⟩
  | 30 => ⟨S3200000, .i32⟩
  | 31 => ⟨S3200000, .i32⟩
  | 32 => ⟨S3200000x1, .i32⟩
  | 33 => ⟨S3200000, .f32⟩
  | 34 => ⟨S_, .i32⟩
  | 35 => ⟨S3200000, .i32⟩
  | 36 => ⟨S3200000, .i1⟩
  | 37 => ⟨S_, .i32⟩
  | 38 => ⟨S3200000, .i32⟩
  | 39 => ⟨S3200000, .i32⟩
  | 40 => ⟨S3200000, .i32⟩
  | 41 => ⟨S3200000x1, .i32⟩
  | 42 => ⟨S3200000, .f32⟩
  | 43 => ⟨S3200000, .f32⟩
  | 44 => ⟨S_, .i32⟩
  | 45 => ⟨S3200000, .i32⟩
  | 46 => ⟨S3200000, .i1⟩
  | 47 => ⟨S_, .i32⟩
  | 48 => ⟨S3200000, .i32⟩
  | 49 => ⟨S3200000, .i32⟩
  | 50 => ⟨S3200000, .i32⟩
  | 51 => ⟨S3200000x1, .i32⟩
  | 52 => ⟨S3200000x16, .f32⟩
  | 53 => ⟨S3200000x1, .f32⟩
  | 54 => ⟨S3200000x16, .f32⟩
  | 55 => ⟨S3200000x16, .f32⟩
  | 56 => ⟨S_, .f32⟩
  | 57 => ⟨S100000x16, .f32⟩
  | 58 => ⟨S3200000x1, .i32⟩
  | 59 => ⟨S100000x16, .f32⟩
  | 60 => ⟨S1x16, .f32⟩
  | 61 => ⟨S100000x16, .f32⟩
  | 62 => ⟨S100000x16, .f32⟩
  | 63 => ⟨S_, .i32⟩
  | 64 => ⟨S3200000, .i32⟩
  | 65 => ⟨S3200000, .i1⟩
  | 66 => ⟨S_, .i32⟩
  | 67 => ⟨S3200000, .i32⟩
  | 68 => ⟨S3200000, .i32⟩
  | 69 => ⟨S3200000, .i32⟩
  | 70 => ⟨S3200000x1, .i32⟩
  | 71 => ⟨S3200000, .f32⟩
  | 72 => ⟨S_, .i32⟩
  | 73 => ⟨S3200000, .i32⟩
  | 74 => ⟨S3200000, .i1⟩
  | 75 => ⟨S_, .i32⟩
  | 76 => ⟨S3200000, .i32⟩
  | 77 => ⟨S3200000, .i32⟩
  | 78 => ⟨S3200000, .i32⟩
  | 79 => ⟨S3200000x1, .i32⟩
  | 80 => ⟨S3200000, .f32⟩
  | 81 => ⟨S3200000, .f32⟩
  | 82 => ⟨S_, .i32⟩
  | 83 => ⟨S3200000, .i32⟩
  | 84 => ⟨S3200000, .i1⟩
  | 85 => ⟨S_, .i32⟩
  | 86 => ⟨S3200000, .i32⟩
  | 87 => ⟨S3200000, .i32⟩
  | 88 => ⟨S3200000, .i32⟩
  | 89 => ⟨S3200000x1, .i32⟩
  | 90 => ⟨S3200000x16, .f32⟩
  | 91 => ⟨S3200000x1, .f32⟩
  | 92 => ⟨S3200000x16, .f32⟩
  | 93 => ⟨S3200000x16, .f32⟩
  | 94 => ⟨S_, .f32⟩
  | 95 => ⟨S100000x16, .f32⟩
  | 96 => ⟨S3200000x1, .i32⟩
  | 97 => ⟨S100000x16, .f32⟩
  | 98 => ⟨S1x16, .f32⟩
  | 99 => ⟨S100000x16, .f32⟩
  | 100 => ⟨S100000x32, .f32⟩
  | 101 => ⟨S_, .i32⟩
  | 102 => ⟨S3200000, .i32⟩
  | 103 => ⟨S3200000, .i1⟩
  | 104 => ⟨S_, .i32⟩
  | 105 => ⟨S3200000, .i32⟩
  | 106 => ⟨S3200000, .i32⟩
  | 107 => ⟨S3200000, .i32⟩
  | 108 => ⟨S3200000x1, .i32⟩
  | 109 => ⟨S3200000, .f32⟩
  | 110 => ⟨S_, .i32⟩
  | 111 => ⟨S3200000, .i32⟩
  | 112 => ⟨S3200000, .i1⟩
  | 113 => ⟨S_, .i32⟩
  | 114 => ⟨S3200000, .i32⟩
  | 115 => ⟨S3200000, .i32⟩
  | 116 => ⟨S3200000, .i32⟩
  | 117 => ⟨S3200000x1, .i32⟩
  | 118 => ⟨S3200000, .f32⟩
  | 119 => ⟨S3200000, .f32⟩
  | 120 => ⟨S_, .i32⟩
  | 121 => ⟨S3200000, .i32⟩
  | 122 => ⟨S3200000, .i1⟩
  | 123 => ⟨S_, .i32⟩
  | 124 => ⟨S3200000, .i32⟩
  | 125 => ⟨S3200000, .i32⟩
  | 126 => ⟨S3200000, .i32⟩
  | 127 => ⟨S3200000x1, .i32⟩
  | _ => ⟨S100000x256, .f32⟩

abbrev hbmTy0_1 (i : Nat) : BufTy := match i % 128 with
  | 0 => ⟨S3200000x32, .f32⟩
  | 1 => ⟨S3200000x1, .f32⟩
  | 2 => ⟨S3200000x32, .f32⟩
  | 3 => ⟨S3200000x32, .f32⟩
  | 4 => ⟨S_, .f32⟩
  | 5 => ⟨S100000x32, .f32⟩
  | 6 => ⟨S3200000x1, .i32⟩
  | 7 => ⟨S100000x32, .f32⟩
  | 8 => ⟨S1x32, .f32⟩
  | 9 => ⟨S100000x32, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | .local _ .vmem, ⟨0, _⟩ => ⟨S5000x256, .f32⟩
  | .local _ .vmem, ⟨1, _⟩ => ⟨S5000x256, .f32⟩
  | .local _ .vmem, ⟨2, _⟩ => ⟨S256x16, .f32⟩
  | .local _ .vmem, ⟨3, _⟩ => ⟨S5000x16, .f32⟩
  | .local _ .vmem, ⟨4, _⟩ => ⟨S5000x16, .f32⟩
  | .local _ .vmem, ⟨5, _⟩ => ⟨S5000x16, .f32⟩
  | .local _ .vmem, ⟨6, _⟩ => ⟨S5000x16, .f32⟩
  | .local _ .vmem, ⟨7, _⟩ => ⟨S5000x16, .f32⟩
  | .local _ .vmem, ⟨8, _⟩ => ⟨S5000x16, .f32⟩
  | .local _ .vmem, ⟨9, _⟩ => ⟨S5000x1, .f32⟩
  | .local _ .vmem, ⟨10, _⟩ => ⟨S5000x1, .f32⟩
  | .local _ .vmem, ⟨11, _⟩ => ⟨S1x16, .f32⟩
  | .local _ .vmem, ⟨12, _⟩ => ⟨S5000x16, .f32⟩
  | .local _ .vmem, ⟨13, _⟩ => ⟨S5000x16, .f32⟩
  | .local _ .vmem, ⟨14, _⟩ => ⟨S5000x16, .f32⟩
  | .local _ .vmem, ⟨15, _⟩ => ⟨S5000x16, .f32⟩
  | .local _ .vmem, ⟨16, _⟩ => ⟨S16x16, .f32⟩
  | .local _ .vmem, ⟨17, _⟩ => ⟨S5000x16, .f32⟩
  | .local _ .vmem, ⟨18, _⟩ => ⟨S5000x16, .f32⟩
  | .local _ .vmem, ⟨19, _⟩ => ⟨S5000x16, .f32⟩
  | .local _ .vmem, ⟨20, _⟩ => ⟨S5000x16, .f32⟩
  | .local _ .vmem, ⟨21, _⟩ => ⟨S5000x16, .f32⟩
  | .local _ .vmem, ⟨22, _⟩ => ⟨S5000x16, .f32⟩
  | .local _ .vmem, ⟨23, _⟩ => ⟨S5000x1, .f32⟩
  | .local _ .vmem, ⟨24, _⟩ => ⟨S5000x1, .f32⟩
  | .local _ .vmem, ⟨25, _⟩ => ⟨S1x16, .f32⟩
  | .local _ .vmem, ⟨26, _⟩ => ⟨S5000x16, .f32⟩
  | .local _ .vmem, ⟨27, _⟩ => ⟨S5000x16, .f32⟩
  | .local _ .vmem, ⟨28, _⟩ => ⟨S5000x16, .f32⟩
  | .local _ .vmem, ⟨29, _⟩ => ⟨S5000x16, .f32⟩
  | .local _ .vmem, ⟨30, _⟩ => ⟨S16x32, .f32⟩
  | .local _ .vmem, ⟨31, _⟩ => ⟨S5000x32, .f32⟩
  | .local _ .vmem, ⟨32, _⟩ => ⟨S5000x32, .f32⟩
  | .local _ .vmem, ⟨33, _⟩ => ⟨S5000x32, .f32⟩
  | .local _ .vmem, ⟨34, _⟩ => ⟨S5000x32, .f32⟩
  | .local _ .vmem, ⟨35, _⟩ => ⟨S5000x32, .f32⟩
  | .local _ .vmem, ⟨36, _⟩ => ⟨S5000x32, .f32⟩
  | .local _ .vmem, ⟨37, _⟩ => ⟨S5000x1, .f32⟩
  | .local _ .vmem, ⟨38, _⟩ => ⟨S5000x1, .f32⟩
  | .local _ .vmem, ⟨39, _⟩ => ⟨S1x32, .f32⟩
  | .local _ .vmem, ⟨40, _⟩ => ⟨S5000x32, .f32⟩
  | .local _ .vmem, ⟨41, _⟩ => ⟨S5000x32, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c : Ref sig .tc := ⟨.hbm, 25, rfl⟩
abbrev main_v14 : Ref sig .tc := ⟨.hbm, 26, rfl⟩
abbrev main_v15 : Ref sig .tc := ⟨.hbm, 27, rfl⟩
abbrev main_c_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_c_8 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_c_10 : Ref sig .tc := ⟨.hbm, 72, rfl⟩
abbrev main_v52 : Ref sig .tc := ⟨.hbm, 73, rfl⟩
abbrev main_v53 : Ref sig .tc := ⟨.hbm, 74, rfl⟩
abbrev main_c_11 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_c_12 : Ref sig .tc := ⟨.hbm, 82, rfl⟩
abbrev main_v60 : Ref sig .tc := ⟨.hbm, 83, rfl⟩
abbrev main_v61 : Ref sig .tc := ⟨.hbm, 84, rfl⟩
abbrev main_c_13 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_14 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_c_15 : Ref sig .tc := ⟨.hbm, 101, rfl⟩
abbrev main_v76 : Ref sig .tc := ⟨.hbm, 102, rfl⟩
abbrev main_v77 : Ref sig .tc := ⟨.hbm, 103, rfl⟩
abbrev main_c_16 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_c_17 : Ref sig .tc := ⟨.hbm, 110, rfl⟩
abbrev main_v83 : Ref sig .tc := ⟨.hbm, 111, rfl⟩
abbrev main_v84 : Ref sig .tc := ⟨.hbm, 112, rfl⟩
abbrev main_c_18 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_c_19 : Ref sig .tc := ⟨.hbm, 120, rfl⟩
abbrev main_v91 : Ref sig .tc := ⟨.hbm, 121, rfl⟩
abbrev main_v92 : Ref sig .tc := ⟨.hbm, 122, rfl⟩
abbrev main_c_20 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_cst_21 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc5_sem3_0 : DmaSem sig := 39
abbrev cc5_sem4_0 : DmaSem sig := 40
abbrev cc5_sem4_1 : DmaSem sig := 41

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x16 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x16 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x16 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x16 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x16 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S16x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x32 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x32 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x32 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x32 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  shapeCasts_S100000_S100000x1 : S100000.ShapeCasts S100000x1
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x16_S256x16_0_0 : ∀ a, (![0, 0] : Fin 2 → Nat) a + S256x16.size a ≤ S256x16.size a
  h_S256x16 : 0 < S256x16.numel
  inb_S5000x16_S5000x16_0_0 : ∀ a, (![0, 0] : Fin 2 → Nat) a + S5000x16.size a ≤ S5000x16.size a
  h_S5000x16 : 0 < S5000x16.numel
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  shapeCasts_S16_S1x16 : S16.ShapeCasts S1x16
  shapeCasts_S5000x16_S5000x16 : S5000x16.ShapeCasts S5000x16
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S5000x1_S5000x16 : S5000x1.Broadcasts S5000x16
  broadcasts_S1x16_S5000x16 : S1x16.Broadcasts S5000x16
  inb_S16x16_S16x16_0_0 : ∀ a, (![0, 0] : Fin 2 → Nat) a + S16x16.size a ≤ S16x16.size a
  h_S16x16 : 0 < S16x16.numel
  inb_S16x32_S16x32_0_0 : ∀ a, (![0, 0] : Fin 2 → Nat) a + S16x32.size a ≤ S16x32.size a
  h_S16x32 : 0 < S16x32.numel
  inb_S5000x32_S5000x32_0_0 : ∀ a, (![0, 0] : Fin 2 → Nat) a + S5000x32.size a ≤ S5000x32.size a
  h_S5000x32 : 0 < S5000x32.numel
  bcast_S3200000x1_S3200000x32_0_1 : S3200000x1.BroadcastsInDim S3200000x32 (![0, 1] : Fin 2 → Fin S3200000x32.rank)
  bcast_S_S100000x32 : S_.BroadcastsInDim S100000x32 (![] : Fin 0 → Fin S100000x32.rank)
  shapeCasts_S32_S1x32 : S32.ShapeCasts S1x32
  shapeCasts_S5000x32_S5000x32 : S5000x32.ShapeCasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S5000x1_S5000x32 : S5000x1.Broadcasts S5000x32
  broadcasts_S1x32_S5000x32 : S1x32.Broadcasts S5000x32
  reduces_S5000x32_S5000 : S5000x32.Reduces [1] S5000
  shapeCasts_S5000_S5000x1 : S5000.ShapeCasts S5000x1
  scatter_S100000_S3200000x1_S3200000_n_0_0_1_wf : ScatterDims.WF S100000 S3200000x1 S3200000 [] [0] [0] 1
  dot_S5000x256_S256x16_S5000x16_1_0_0_1_n_n_wf : DotDims.WF S5000x256 S256x16 S5000x16 [1] [0] [0] [1] [] []
  gather_S100000_S3200000x1_S3200000_n_0_n_n_0_1_1_wf : GatherDims.WF S100000 S3200000x1 S3200000 [] [0] [] [0] [] 1 ![1]
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S5000x16_S16x16_S5000x16_1_0_0_1_n_n_wf : DotDims.WF S5000x16 S16x16 S5000x16 [1] [0] [0] [1] [] []
  dot_S5000x16_S16x32_S5000x32_1_0_0_1_n_n_wf : DotDims.WF S5000x16 S16x32 S5000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x16.size a ≤ S256x16.size a
  hwx0_1 : ∀ i : grid0.Coords, EltTy.bits .f32 = 32 ∨ (Rect.block (s := S256x16) S256x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S100000x16.size a
  hwx0_2 : ∀ i : grid0.Coords, EltTy.bits .f32 = 32 ∨ (Rect.block (s := S100000x16) S5000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x16.size a ≤ S100000x16.size a
  hwx1_1 : ∀ i : grid1.Coords, EltTy.bits .f32 = 32 ∨ (Rect.block (s := S100000x16) S5000x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x16.size a ≤ S1x16.size a
  hwx1_3 : ∀ i : grid1.Coords, EltTy.bits .f32 = 32 ∨ (Rect.block (s := S1x16) S1x16.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x16.size a ≤ S100000x16.size a
  hwx1_4 : ∀ i : grid1.Coords, EltTy.bits .f32 = 32 ∨ (Rect.block (s := S100000x16) S5000x16.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x16.size a ≤ S100000x16.size a
  hwx2_0 : ∀ i : grid2.Coords, EltTy.bits .f32 = 32 ∨ (Rect.block (s := S100000x16) S5000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x16.size a ≤ S16x16.size a
  hwx2_1 : ∀ i : grid2.Coords, EltTy.bits .f32 = 32 ∨ (Rect.block (s := S16x16) S16x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x16.size a ≤ S100000x16.size a
  hwx2_2 : ∀ i : grid2.Coords, EltTy.bits .f32 = 32 ∨ (Rect.block (s := S100000x16) S5000x16.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x16.size a ≤ S100000x16.size a
  hwx3_0 : ∀ i : grid3.Coords, EltTy.bits .f32 = 32 ∨ (Rect.block (s := S100000x16) S5000x16.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x16.size a ≤ S100000x16.size a
  hwx3_1 : ∀ i : grid3.Coords, EltTy.bits .f32 = 32 ∨ (Rect.block (s := S100000x16) S5000x16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x16.size a ≤ S1x16.size a
  hwx3_3 : ∀ i : grid3.Coords, EltTy.bits .f32 = 32 ∨ (Rect.block (s := S1x16) S1x16.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x16.size a ≤ S100000x16.size a
  hwx3_4 : ∀ i : grid3.Coords, EltTy.bits .f32 = 32 ∨ (Rect.block (s := S100000x16) S5000x16.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x16.size a ≤ S100000x16.size a
  hwx4_0 : ∀ i : grid4.Coords, EltTy.bits .f32 = 32 ∨ (Rect.block (s := S100000x16) S5000x16.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S16x32.size a ≤ S16x32.size a
  hwx4_1 : ∀ i : grid4.Coords, EltTy.bits .f32 = 32 ∨ (Rect.block (s := S16x32) S16x32.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x32.size a ≤ S100000x32.size a
  hwx4_2 : ∀ i : grid4.Coords, EltTy.bits .f32 = 32 ∨ (Rect.block (s := S100000x32) S5000x32.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x32.size a ≤ S100000x32.size a
  hwx5_0 : ∀ i : grid5.Coords, EltTy.bits .f32 = 32 ∨ (Rect.block (s := S100000x32) S5000x32.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x32.size a ≤ S100000x32.size a
  hwx5_1 : ∀ i : grid5.Coords, EltTy.bits .f32 = 32 ∨ (Rect.block (s := S100000x32) S5000x32.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S100000x1.size a
  hwx5_2 : ∀ i : grid5.Coords, EltTy.bits .f32 = 32 ∨ (Rect.block (s := S100000x1) S5000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x32.size a ≤ S1x32.size a
  hwx5_3 : ∀ i : grid5.Coords, EltTy.bits .f32 = 32 ∨ (Rect.block (s := S1x32) S1x32.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x32.size a ≤ S100000x32.size a
  hwx5_4 : ∀ i : grid5.Coords, EltTy.bits .f32 = 32 ∨ (Rect.block (s := S100000x32) S5000x32.size (cc5_transform_4 i) (hinb5_4 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S5000x256_S256x16_S5000x16_1_0_0_1_n_n : DotDims S5000x256 S256x16 S5000x16 where
  lhsContracting := [1]
  rhsContracting := [0]
  lhsNonContracting := [0]
  rhsNonContracting := [1]
  lhsBatch := []
  rhsBatch := []
  wf := dot_S5000x256_S256x16_S5000x16_1_0_0_1_n_n_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S5000x16_S16x16_S5000x16_1_0_0_1_n_n : DotDims S5000x16 S16x16 S5000x16 where
  lhsContracting := [1]
  rhsContracting := [0]
  lhsNonContracting := [0]
  rhsNonContracting := [1]
  lhsBatch := []
  rhsBatch := []
  wf := dot_S5000x16_S16x16_S5000x16_1_0_0_1_n_n_wf
def dot_S5000x16_S16x32_S5000x32_1_0_0_1_n_n : DotDims S5000x16 S16x32 S5000x32 where
  lhsContracting := [1]
  rhsContracting := [0]
  lhsNonContracting := [0]
  rhsNonContracting := [1]
  lhsBatch := []
  rhsBatch := []
  wf := dot_S5000x16_S16x32_S5000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S5000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S5000x16.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S5000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S16x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S5000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v44) S5000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v72) S5000x16.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v12) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v73) S1x16.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v74) S5000x16.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v74) S5000x16.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S16x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v75) S5000x32.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v75) S5000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v103) S5000x32.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v12) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v104) S1x32.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v105) S5000x32.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S100000x256 : Shape := ⟨2, ![100000, 256]⟩
abbrev S2x3200000 : Shape := ⟨2, ![2, 3200000]⟩
abbrev S256x16 : Shape := ⟨2, ![256, 16]⟩
abbrev S16 : Shape := ⟨1, ![16]⟩
abbrev S16x16 : Shape := ⟨2, ![16, 16]⟩
abbrev S16x32 : Shape := ⟨2, ![16, 32]⟩
abbrev S32 : Shape := ⟨1, ![32]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S100000x16 : Shape := ⟨2, ![100000, 16]⟩
abbrev S3200000x16 : Shape := ⟨2, ![3200000, 16]⟩
abbrev S100000x1 : Shape := ⟨2, ![100000, 1]⟩
abbrev S1x16 : Shape := ⟨2, ![1, 16]⟩
abbrev S100000x32 : Shape := ⟨2, ![100000, 32]⟩
abbrev S3200000x32 : Shape := ⟨2, ![3200000, 32]⟩
abbrev S1x32 : Shape := ⟨2, ![1, 32]⟩

abbrev nBuf : Space → Nat
  | .hbm => 214
  | .vmem => 0
  | .smem => 0
  | _ => 0

abbrev hbmTy0_0 (i : Nat) : BufTy := match i % 128 with
  | 0 => ⟨S100000x256, .f32⟩
  | 1 => ⟨S2x3200000, .i32⟩
  | 2 => ⟨S256x16, .f32⟩
  | 3 => ⟨S16, .f32⟩
  | 4 => ⟨S16x16, .f32⟩
  | 5 => ⟨S16, .f32⟩
  | 6 => ⟨S16x32, .f32⟩
  | 7 => ⟨S32, .f32⟩
  | 8 => ⟨S1x3200000, .i32⟩
  | 9 => ⟨S3200000, .i32⟩
  | 10 => ⟨S1x3200000, .i32⟩
  | 11 => ⟨S3200000, .i32⟩
  | 12 => ⟨S_, .f32⟩
  | 13 => ⟨S3200000, .f32⟩
  | 14 => ⟨S_, .f32⟩
  | 15 => ⟨S100000, .f32⟩
  | 16 => ⟨S3200000x1, .i32⟩
  | 17 => ⟨S100000, .f32⟩
  | 18 => ⟨S_, .f32⟩
  | 19 => ⟨S100000, .f32⟩
  | 20 => ⟨S100000, .f32⟩
  | 21 => ⟨S100000, .f32⟩
  | 22 => ⟨S100000x16, .f32⟩
  | 23 => ⟨S_, .i32⟩
  | 24 => ⟨S3200000, .i32⟩
  | 25 => ⟨S3200000, .i1⟩
  | 26 => ⟨S_, .i32⟩
  | 27 => ⟨S3200000, .i32⟩
  | 28 => ⟨S3200000, .i32⟩
  | 29 => ⟨S3200000, .i32⟩
  | 30 => ⟨S3200000x1, .i32⟩
  | 31 => ⟨S3200000, .f32⟩
  | 32 => ⟨S_, .i32⟩
  | 33 => ⟨S3200000, .i32⟩
  | 34 => ⟨S3200000, .i1⟩
  | 35 => ⟨S_, .i32⟩
  | 36 => ⟨S3200000, .i32⟩
  | 37 => ⟨S3200000, .i32⟩
  | 38 => ⟨S3200000, .i32⟩
  | 39 => ⟨S3200000x1, .i32⟩
  | 40 => ⟨S3200000, .f32⟩
  | 41 => ⟨S3200000, .f32⟩
  | 42 => ⟨S_, .i32⟩
  | 43 => ⟨S3200000, .i32⟩
  | 44 => ⟨S3200000, .i1⟩
  | 45 => ⟨S_, .i32⟩
  | 46 => ⟨S3200000, .i32⟩
  | 47 => ⟨S3200000, .i32⟩
  | 48 => ⟨S3200000, .i32⟩
  | 49 => ⟨S3200000x1, .i32⟩
  | 50 => ⟨S3200000x16, .f32⟩
  | 51 => ⟨S3200000x1, .f32⟩
  | 52 => ⟨S3200000x16, .f32⟩
  | 53 => ⟨S3200000x16, .f32⟩
  | 54 => ⟨S_, .f32⟩
  | 55 => ⟨S100000x16, .f32⟩
  | 56 => ⟨S3200000x1, .i32⟩
  | 57 => ⟨S100000x16, .f32⟩
  | 58 => ⟨S100000, .f32⟩
  | 59 => ⟨S100000x1, .f32⟩
  | 60 => ⟨S100000x16, .f32⟩
  | 61 => ⟨S100000x16, .f32⟩
  | 62 => ⟨S100000x16, .f32⟩
  | 63 => ⟨S1x16, .f32⟩
  | 64 => ⟨S100000x16, .f32⟩
  | 65 => ⟨S100000x16, .f32⟩
  | 66 => ⟨S_, .f32⟩
  | 67 => ⟨S100000x16, .f32⟩
  | 68 => ⟨S100000x16, .i1⟩
  | 69 => ⟨S_, .f32⟩
  | 70 => ⟨S100000x16, .f32⟩
  | 71 => ⟨S100000x16, .i1⟩
  | 72 => ⟨S_, .f32⟩
  | 73 => ⟨S_, .f32⟩
  | 74 => ⟨S100000x16, .f32⟩
  | 75 => ⟨S100000x16, .f32⟩
  | 76 => ⟨S100000x16, .f32⟩
  | 77 => ⟨S_, .f32⟩
  | 78 => ⟨S100000x16, .f32⟩
  | 79 => ⟨S100000x16, .f32⟩
  | 80 => ⟨S100000x16, .f32⟩
  | 81 => ⟨S100000x16, .f32⟩
  | 82 => ⟨S_, .i32⟩
  | 83 => ⟨S3200000, .i32⟩
  | 84 => ⟨S3200000, .i1⟩
  | 85 => ⟨S_, .i32⟩
  | 86 => ⟨S3200000, .i32⟩
  | 87 => ⟨S3200000, .i32⟩
  | 88 => ⟨S3200000, .i32⟩
  | 89 => ⟨S3200000x1, .i32⟩
  | 90 => ⟨S3200000, .f32⟩
  | 91 => ⟨S_, .i32⟩
  | 92 => ⟨S3200000, .i32⟩
  | 93 => ⟨S3200000, .i1⟩
  | 94 => ⟨S_, .i32⟩
  | 95 => ⟨S3200000, .i32⟩
  | 96 => ⟨S3200000, .i32⟩
  | 97 => ⟨S3200000, .i32⟩
  | 98 => ⟨S3200000x1, .i32⟩
  | 99 => ⟨S3200000, .f32⟩
  | 100 => ⟨S3200000, .f32⟩
  | 101 => ⟨S_, .i32⟩
  | 102 => ⟨S3200000, .i32⟩
  | 103 => ⟨S3200000, .i1⟩
  | 104 => ⟨S_, .i32⟩
  | 105 => ⟨S3200000, .i32⟩
  | 106 => ⟨S3200000, .i32⟩
  | 107 => ⟨S3200000, .i32⟩
  | 108 => ⟨S3200000x1, .i32⟩
  | 109 => ⟨S3200000x16, .f32⟩
  | 110 => ⟨S3200000x1, .f32⟩
  | 111 => ⟨S3200000x16, .f32⟩
  | 112 => ⟨S3200000x16, .f32⟩
  | 113 => ⟨S_, .f32⟩
  | 114 => ⟨S100000x16, .f32⟩
  | 115 => ⟨S3200000x1, .i32⟩
  | 116 => ⟨S100000x16, .f32⟩
  | 117 => ⟨S100000, .f32⟩
  | 118 => ⟨S100000x1, .f32⟩
  | 119 => ⟨S100000x16, .f32⟩
  | 120 => ⟨S100000x16, .f32⟩
  | 121 => ⟨S100000x16, .f32⟩
  | 122 => ⟨S1x16, .f32⟩
  | 123 => ⟨S100000x16, .f32⟩
  | 124 => ⟨S100000x16, .f32⟩
  | 125 => ⟨S_, .f32⟩
  | 126 => ⟨S100000x16, .f32⟩
  | 127 => ⟨S100000x16, .i1⟩
  | _ => ⟨S100000x256, .f32⟩

abbrev hbmTy0_1 (i : Nat) : BufTy := match i % 128 with
  | 0 => ⟨S_, .f32⟩
  | 1 => ⟨S100000x16, .f32⟩
  | 2 => ⟨S100000x16, .i1⟩
  | 3 => ⟨S_, .f32⟩
  | 4 => ⟨S_, .f32⟩
  | 5 => ⟨S100000x16, .f32⟩
  | 6 => ⟨S100000x16, .f32⟩
  | 7 => ⟨S100000x16, .f32⟩
  | 8 => ⟨S_, .f32⟩
  | 9 => ⟨S100000x16, .f32⟩
  | 10 => ⟨S100000x16, .f32⟩
  | 11 => ⟨S100000x16, .f32⟩
  | 12 => ⟨S100000x32, .f32⟩
  | 13 => ⟨S_, .i32⟩
  | 14 => ⟨S3200000, .i32⟩
  | 15 => ⟨S3200000, .i1⟩
  | 16 => ⟨S_, .i32⟩
  | 17 => ⟨S3200000, .i32⟩
  | 18 => ⟨S3200000, .i32⟩
  | 19 => ⟨S3200000, .i32⟩
  | 20 => ⟨S3200000x1, .i32⟩
  | 21 => ⟨S3200000, .f32⟩
  | 22 => ⟨S_, .i32⟩
  | 23 => ⟨S3200000, .i32⟩
  | 24 => ⟨S3200000, .i1⟩
  | 25 => ⟨S_, .i32⟩
  | 26 => ⟨S3200000, .i32⟩
  | 27 => ⟨S3200000, .i32⟩
  | 28 => ⟨S3200000, .i32⟩
  | 29 => ⟨S3200000x1, .i32⟩
  | 30 => ⟨S3200000, .f32⟩
  | 31 => ⟨S3200000, .f32⟩
  | 32 => ⟨S_, .i32⟩
  | 33 => ⟨S3200000, .i32⟩
  | 34 => ⟨S3200000, .i1⟩
  | 35 => ⟨S_, .i32⟩
  | 36 => ⟨S3200000, .i32⟩
  | 37 => ⟨S3200000, .i32⟩
  | 38 => ⟨S3200000, .i32⟩
  | 39 => ⟨S3200000x1, .i32⟩
  | 40 => ⟨S3200000x32, .f32⟩
  | 41 => ⟨S3200000x1, .f32⟩
  | 42 => ⟨S3200000x32, .f32⟩
  | 43 => ⟨S3200000x32, .f32⟩
  | 44 => ⟨S_, .f32⟩
  | 45 => ⟨S100000x32, .f32⟩
  | 46 => ⟨S3200000x1, .i32⟩
  | 47 => ⟨S100000x32, .f32⟩
  | 48 => ⟨S100000, .f32⟩
  | 49 => ⟨S100000x1, .f32⟩
  | 50 => ⟨S100000x32, .f32⟩
  | 51 => ⟨S100000x32, .f32⟩
  | 52 => ⟨S100000x32, .f32⟩
  | 53 => ⟨S1x32, .f32⟩
  | 54 => ⟨S100000x32, .f32⟩
  | 55 => ⟨S100000x32, .f32⟩
  | 56 => ⟨S_, .f32⟩
  | 57 => ⟨S100000x32, .f32⟩
  | 58 => ⟨S100000x32, .i1⟩
  | 59 => ⟨S_, .f32⟩
  | 60 => ⟨S100000x32, .f32⟩
  | 61 => ⟨S100000x32, .i1⟩
  | 62 => ⟨S_, .f32⟩
  | 63 => ⟨S_, .f32⟩
  | 64 => ⟨S100000x32, .f32⟩
  | 65 => ⟨S100000x32, .f32⟩
  | 66 => ⟨S100000x32, .f32⟩
  | 67 => ⟨S_, .f32⟩
  | 68 => ⟨S100000x32, .f32⟩
  | 69 => ⟨S100000x32, .f32⟩
  | 70 => ⟨S100000x32, .f32⟩
  | 71 => ⟨S_, .f32⟩
  | 72 => ⟨S100000, .f32⟩
  | 73 => ⟨S_, .f32⟩
  | 74 => ⟨S100000, .f32⟩
  | 75 => ⟨S100000, .f32⟩
  | 76 => ⟨S100000x1, .f32⟩
  | 77 => ⟨S100000x32, .f32⟩
  | 78 => ⟨S100000x32, .f32⟩
  | 79 => ⟨S100000x32, .f32⟩
  | 80 => ⟨S_, .f32⟩
  | 81 => ⟨S100000, .f32⟩
  | 82 => ⟨S100000x1, .f32⟩
  | 83 => ⟨S100000x1, .f32⟩
  | 84 => ⟨S100000x32, .f32⟩
  | 85 => ⟨S100000x32, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_call0_cst : Ref sig .tc := ⟨.hbm, 66, rfl⟩
abbrev main_call0_v0 : Ref sig .tc := ⟨.hbm, 67, rfl⟩
abbrev main_call0_v1 : Ref sig .tc := ⟨.hbm, 68, rfl⟩
abbrev main_call0_cst_0 : Ref sig .tc := ⟨.hbm, 69, rfl⟩
abbrev main_call0_v2 : Ref sig .tc := ⟨.hbm, 70, rfl⟩
abbrev main_call0_v3 : Ref sig .tc := ⟨.hbm, 71, rfl⟩
abbrev main_call0_cst_1 : Ref sig .tc := ⟨.hbm, 72, rfl⟩
abbrev main_call0_call0_v0 : Ref sig .tc := ⟨.hbm, 73, rfl⟩
abbrev main_call0_call0_v1 : Ref sig .tc := ⟨.hbm, 74, rfl⟩
abbrev main_call0_v4 : Ref sig .tc := ⟨.hbm, 75, rfl⟩
abbrev main_call0_v5 : Ref sig .tc := ⟨.hbm, 76, rfl⟩
abbrev main_call0_cst_2 : Ref sig .tc := ⟨.hbm, 77, rfl⟩
abbrev main_call0_v6 : Ref sig .tc := ⟨.hbm, 78, rfl⟩
abbrev main_call0_v7 : Ref sig .tc := ⟨.hbm, 79, rfl⟩
abbrev main_v48 : Ref sig .tc := ⟨.hbm, 80, rfl⟩
abbrev main_v49 : Ref sig .tc := ⟨.hbm, 81, rfl⟩
abbrev main_c_8 : Ref sig .tc := ⟨.hbm, 82, rfl⟩
abbrev main_v50 : Ref sig .tc := ⟨.hbm, 83, rfl⟩
abbrev main_v51 : Ref sig .tc := ⟨.hbm, 84, rfl⟩
abbrev main_c_9 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_c_10 : Ref sig .tc := ⟨.hbm, 91, rfl⟩
abbrev main_v57 : Ref sig .tc := ⟨.hbm, 92, rfl⟩
abbrev main_v58 : Ref sig .tc := ⟨.hbm, 93, rfl⟩
abbrev main_c_11 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_c_12 : Ref sig .tc := ⟨.hbm, 101, rfl⟩
abbrev main_v65 : Ref sig .tc := ⟨.hbm, 102, rfl⟩
abbrev main_v66 : Ref sig .tc := ⟨.hbm, 103, rfl⟩
abbrev main_c_13 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_cst_14 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_call1_cst : Ref sig .tc := ⟨.hbm, 125, rfl⟩
abbrev main_call1_v0 : Ref sig .tc := ⟨.hbm, 126, rfl⟩
abbrev main_call1_v1 : Ref sig .tc := ⟨.hbm, 127, rfl⟩
abbrev main_call1_cst_0 : Ref sig .tc := ⟨.hbm, 128, rfl⟩
abbrev main_call1_v2 : Ref sig .tc := ⟨.hbm, 129, rfl⟩
abbrev main_call1_v3 : Ref sig .tc := ⟨.hbm, 130, rfl⟩
abbrev main_call1_cst_1 : Ref sig .tc := ⟨.hbm, 131, rfl⟩
abbrev main_call1_call0_v0 : Ref sig .tc := ⟨.hbm, 132, rfl⟩
abbrev main_call1_call0_v1 : Ref sig .tc := ⟨.hbm, 133, rfl⟩
abbrev main_call1_v4 : Ref sig .tc := ⟨.hbm, 134, rfl⟩
abbrev main_call1_v5 : Ref sig .tc := ⟨.hbm, 135, rfl⟩
abbrev main_call1_cst_2 : Ref sig .tc := ⟨.hbm, 136, rfl⟩
abbrev main_call1_v6 : Ref sig .tc := ⟨.hbm, 137, rfl⟩
abbrev main_call1_v7 : Ref sig .tc := ⟨.hbm, 138, rfl⟩
abbrev main_v86 : Ref sig .tc := ⟨.hbm, 139, rfl⟩
abbrev main_v87 : Ref sig .tc := ⟨.hbm, 140, rfl⟩
abbrev main_c_15 : Ref sig .tc := ⟨.hbm, 141, rfl⟩
abbrev main_v88 : Ref sig .tc := ⟨.hbm, 142, rfl⟩
abbrev main_v89 : Ref sig .tc := ⟨.hbm, 143, rfl⟩
abbrev main_c_16 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_c_17 : Ref sig .tc := ⟨.hbm, 150, rfl⟩
abbrev main_v95 : Ref sig .tc := ⟨.hbm, 151, rfl⟩
abbrev main_v96 : Ref sig .tc := ⟨.hbm, 152, rfl⟩
abbrev main_c_18 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_c_19 : Ref sig .tc := ⟨.hbm, 160, rfl⟩
abbrev main_v103 : Ref sig .tc := ⟨.hbm, 161, rfl⟩
abbrev main_v104 : Ref sig .tc := ⟨.hbm, 162, rfl⟩
abbrev main_c_20 : Ref sig .tc := ⟨.hbm, 163, rfl⟩
abbrev main_v105 : Ref sig .tc := ⟨.hbm, 164, rfl⟩
abbrev main_v106 : Ref sig .tc := ⟨.hbm, 165, rfl⟩
abbrev main_v107 : Ref sig .tc := ⟨.hbm, 166, rfl⟩
abbrev main_v108 : Ref sig .tc := ⟨.hbm, 167, rfl⟩
abbrev main_v109 : Ref sig .tc := ⟨.hbm, 168, rfl⟩
abbrev main_v110 : Ref sig .tc := ⟨.hbm, 169, rfl⟩
abbrev main_v111 : Ref sig .tc := ⟨.hbm, 170, rfl⟩
abbrev main_v112 : Ref sig .tc := ⟨.hbm, 171, rfl⟩
abbrev main_cst_21 : Ref sig .tc := ⟨.hbm, 172, rfl⟩
abbrev main_v113 : Ref sig .tc := ⟨.hbm, 173, rfl⟩
abbrev main_v114 : Ref sig .tc := ⟨.hbm, 174, rfl⟩
abbrev main_v115 : Ref sig .tc := ⟨.hbm, 175, rfl⟩
abbrev main_v116 : Ref sig .tc := ⟨.hbm, 176, rfl⟩
abbrev main_v117 : Ref sig .tc := ⟨.hbm, 177, rfl⟩
abbrev main_v118 : Ref sig .tc := ⟨.hbm, 178, rfl⟩
abbrev main_v119 : Ref sig .tc := ⟨.hbm, 179, rfl⟩
abbrev main_v120 : Ref sig .tc := ⟨.hbm, 180, rfl⟩
abbrev main_v121 : Ref sig .tc := ⟨.hbm, 181, rfl⟩
abbrev main_v122 : Ref sig .tc := ⟨.hbm, 182, rfl⟩
abbrev main_v123 : Ref sig .tc := ⟨.hbm, 183, rfl⟩
abbrev main_call2_cst : Ref sig .tc := ⟨.hbm, 184, rfl⟩
abbrev main_call2_v0 : Ref sig .tc := ⟨.hbm, 185, rfl⟩
abbrev main_call2_v1 : Ref sig .tc := ⟨.hbm, 186, rfl⟩
abbrev main_call2_cst_0 : Ref sig .tc := ⟨.hbm, 187, rfl⟩
abbrev main_call2_v2 : Ref sig .tc := ⟨.hbm, 188, rfl⟩
abbrev main_call2_v3 : Ref sig .tc := ⟨.hbm, 189, rfl⟩
abbrev main_call2_cst_1 : Ref sig .tc := ⟨.hbm, 190, rfl⟩
abbrev main_call2_call0_v0 : Ref sig .tc := ⟨.hbm, 191, rfl⟩
abbrev main_call2_call0_v1 : Ref sig .tc := ⟨.hbm, 192, rfl⟩
abbrev main_call2_v4 : Ref sig .tc := ⟨.hbm, 193, rfl⟩
abbrev main_call2_v5 : Ref sig .tc := ⟨.hbm, 194, rfl⟩
abbrev main_call2_cst_2 : Ref sig .tc := ⟨.hbm, 195, rfl⟩
abbrev main_call2_v6 : Ref sig .tc := ⟨.hbm, 196, rfl⟩
abbrev main_call2_v7 : Ref sig .tc := ⟨.hbm, 197, rfl⟩
abbrev main_v124 : Ref sig .tc := ⟨.hbm, 198, rfl⟩
abbrev main_call3_cst : Ref sig .tc := ⟨.hbm, 199, rfl⟩
abbrev main_call3_v0 : Ref sig .tc := ⟨.hbm, 200, rfl⟩
abbrev main_call3_cst_0 : Ref sig .tc := ⟨.hbm, 201, rfl⟩
abbrev main_call3_v1 : Ref sig .tc := ⟨.hbm, 202, rfl⟩
abbrev main_call3_v2 : Ref sig .tc := ⟨.hbm, 203, rfl⟩
abbrev main_call3_v3 : Ref sig .tc := ⟨.hbm, 204, rfl⟩
abbrev main_call3_v4 : Ref sig .tc := ⟨.hbm, 205, rfl⟩
abbrev main_call3_v5 : Ref sig .tc := ⟨.hbm, 206, rfl⟩
abbrev main_call3_v6 : Ref sig .tc := ⟨.hbm, 207, rfl⟩
abbrev main_call3_cst_1 : Ref sig .tc := ⟨.hbm, 208, rfl⟩
abbrev main_call3_v7 : Ref sig .tc := ⟨.hbm, 209, rfl⟩
abbrev main_call3_v8 : Ref sig .tc := ⟨.hbm, 210, rfl⟩
abbrev main_call3_v9 : Ref sig .tc := ⟨.hbm, 211, rfl⟩
abbrev main_call3_v10 : Ref sig .tc := ⟨.hbm, 212, rfl⟩
abbrev main_v125 : Ref sig .tc := ⟨.hbm, 213, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3200000x1_S3200000x32_0_1 : S3200000x1.BroadcastsInDim S3200000x32 (![0, 1] : Fin 2 → Fin S3200000x32.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  reducesTo_S100000x32_S100000_d1 : S100000x32.ReducesTo [1] S100000
  h_S_ : 0 < S_.numel
  scatter_S100000_S3200000x1_S3200000_n_0_0_1_wf : ScatterDims.WF S100000 S3200000x1 S3200000 [] [0] [0] 1
  dot_S100000x256_S256x16_S100000x16_1_0_0_1_n_n_wf : DotDims.WF S100000x256 S256x16 S100000x16 [1] [0] [0] [1] [] []
  gather_S100000_S3200000x1_S3200000_n_0_n_n_0_1_1_wf : GatherDims.WF S100000 S3200000x1 S3200000 [] [0] [] [0] [] 1 ![1]
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S100000x16_S16x16_S100000x16_1_0_0_1_n_n_wf : DotDims.WF S100000x16 S16x16 S100000x16 [1] [0] [0] [1] [] []
  dot_S100000x16_S16x32_S100000x32_1_0_0_1_n_n_wf : DotDims.WF S100000x16 S16x32 S100000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S100000x256_S256x16_S100000x16_1_0_0_1_n_n : DotDims S100000x256 S256x16 S100000x16 where
  lhsContracting := [1]
  rhsContracting := [0]
  lhsNonContracting := [0]
  rhsNonContracting := [1]
  lhsBatch := []
  rhsBatch := []
  wf := dot_S100000x256_S256x16_S100000x16_1_0_0_1_n_n_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S100000x16_S16x16_S100000x16_1_0_0_1_n_n : DotDims S100000x16 S16x16 S100000x16 where
  lhsContracting := [1]
  rhsContracting := [0]
  lhsNonContracting := [0]
  rhsNonContracting := [1]
  lhsBatch := []
  rhsBatch := []
  wf := dot_S100000x16_S16x16_S100000x16_1_0_0_1_n_n_wf
def dot_S100000x16_S16x32_S100000x32_1_0_0_1_n_n : DotDims S100000x16 S16x32 S100000x32 where
  lhsContracting := [1]
  rhsContracting := [0]
  lhsNonContracting := [0]
  rhsNonContracting := [1]
  lhsBatch := []
  rhsBatch := []
  wf := dot_S100000x16_S16x32_S100000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf

class Facts : Prop extends Facts₀ where

variable [Facts]
-- ==== Proof.Spec.lean ====
/-
  The graph-convolution network as whole-array functions, stage by stage, in the host program's own operations.

  With src, dst the two rows of the edge list, deg(v) = 1 + #{e : dst e = v} and dis = deg^(-1/2), one layer maps the
  node features h (already multiplied by the layer's weight matrix) to
      elu( Σ_{e : dst e = v} dis(src e) · dis(dst e) · h(src e)  +  dis(v)² · h(v)  +  b ),
  and the last layer is followed by a row-wise log-softmax. Each stage below is one such piece as a function of the
  arrays it reads; the network is their composition.
-/
import proofs.«137336_j25134148616642_1_alg».proof.ReferenceIdeal
import Idealize.ShloMosaic.PureOps.Ideal

noncomputable section

namespace Cert.Gcn

open Idealize.ShloMosaic Cert.ReferenceIdeal Cert.ReferenceIdeal.Facts₀ Cert.ReferenceIdeal.Facts

variable {F : FTy → Type} [FloatOps F] [Cert.ReferenceIdeal.Facts]

/-- The edges' source nodes: row 0 of the edge list. -/
def src (ei : IVec S2x3200000 32) : IVec S3200000 32 :=
  (shapeCast S3200000 ((extractStridedSlice S1x3200000 ![0, 0] · slices_S2x3200000_S1x3200000_0_0) ei) shapeCasts_S1x3200000_S3200000)

/-- The edges' destination nodes: row 1 of the edge list. -/
def dst (ei : IVec S2x3200000 32) : IVec S3200000 32 :=
  (shapeCast S3200000 ((extractStridedSlice S1x3200000 ![1, 0] · slices_S2x3200000_S1x3200000_1_0) ei) shapeCasts_S1x3200000_S3200000)

/-- deg^(-1/2), where deg(v) is one (the self-loop) plus the number of edges into v. -/
def dis (d : IVec S3200000 32) : FVec F S100000 .f32 :=
  ((Host.rsqrt) (addf ((fun x i u => Host.scatterAdd scatter_S100000_S3200000x1_S3200000_n_0_0_1 x i u) ((broadcastInDim S100000 ![] bcast_S_S100000) (constant S_ .f32 0x00000000#32)) ((broadcastInDim S3200000x1 ![0] bcast_S3200000_S3200000x1_0) d) ((broadcastInDim S3200000 ![] bcast_S_S3200000) (constant S_ .f32 0x3F800000#32))) ((broadcastInDim S100000 ![] bcast_S_S100000) (constant S_ .f32 0x3F800000#32))))

/-- The neighbour sum at width 16: every edge sends dis(src)·dis(dst)·h(src) to its destination. -/
def agg16 (s : IVec S3200000 32) (d : IVec S3200000 32) (r : FVec F S100000 .f32) (h : FVec F S100000x16 .f32) : FVec F S100000x16 .f32 :=
  ((fun x i u => Host.scatterAdd scatter_S100000x16_S3200000x1_S3200000x16_1_0_0_1 x i u) ((broadcastInDim S100000x16 ![] bcast_S_S100000x16) (constant S_ .f32 0x00000000#32)) ((broadcastInDim S3200000x1 ![0] bcast_S3200000_S3200000x1_0) d) (mulf ((fun x i => Host.gather gather_S100000x16_S3200000x1_S3200000x16_1_0_n_n_0_1_116 x i) h ((broadcastInDim S3200000x1 ![0] bcast_S3200000_S3200000x1_0) (select ((cmpi .slt) s ((broadcastInDim S3200000 ![] bcast_S_S3200000) (constantI S_ 32 0#32))) (addi s ((broadcastInDim S3200000 ![] bcast_S_S3200000) (constantI S_ 32 100000#32))) s))) ((broadcastInDim S3200000x16 ![0, 1] bcast_S3200000x1_S3200000x16_0_1) ((broadcastInDim S3200000x1 ![0] bcast_S3200000_S3200000x1_0) (mulf ((fun x i => Host.gather gather_S100000_S3200000x1_S3200000_n_0_n_n_0_1_1 x i) r ((broadcastInDim S3200000x1 ![0] bcast_S3200000_S3200000x1_0) (select ((cmpi .slt) s ((broadcastInDim S3200000 ![] bcast_S_S3200000) (constantI S_ 32 0#32))) (addi s ((broadcastInDim S3200000 ![] bcast_S_S3200000) (constantI S_ 32 100000#32))) s))) ((fun x i => Host.gather gather_S100000_S3200000x1_S3200000_n_0_n_n_0_1_1 x i) r ((broadcastInDim S3200000x1 ![0] bcast_S3200000_S3200000x1_0) (select ((cmpi .slt) d ((broadcastInDim S3200000 ![] bcast_S_S3200000) (constantI S_ 32 0#32))) (addi d ((broadcastInDim S3200000 ![] bcast_S_S3200000) (constantI S_ 32 100000#32))) d))))))))

/-- Neighbour sum plus self-loop term dd(v)·h(v) plus bias, at width 16 (dd = dis²). -/
def pre16 (agg : FVec F S100000x16 .f32) (dd : FVec F S100000 .f32) (h : FVec F S100000x16 .f32) (b : FVec F S16 .f32) : FVec F S100000x16 .f32 :=
  (addf (addf agg (mulf ((broadcastInDim S100000x16 ![0, 1] bcast_S100000x1_S100000x16_0_1) ((broadcastInDim S100000x1 ![0] bcast_S100000_S100000x1_0) dd)) h)) ((broadcastInDim S100000x16 ![0, 1] bcast_S1x16_S100000x16_0_1) ((broadcastInDim S1x16 ![1] bcast_S16_S1x16_1) b)))

/-- elu at width 16 in the host's spelling: z where z > 0, else 1·expm1(z). -/
def elu16 (z : FVec F S100000x16 .f32) : FVec F S100000x16 .f32 :=
  (select ((cmpf .ogt) z ((broadcastInDim S100000x16 ![] bcast_S_S100000x16) (constant S_ .f32 0x00000000#32))) z (mulf ((broadcastInDim S100000x16 ![] bcast_S_S100000x16) (constant S_ .f32 0x3F800000#32)) (Host.expm1 (select ((cmpf .ogt) z ((broadcastInDim S100000x16 ![] bcast_S_S100000x16) (constant S_ .f32 0x00000000#32))) ((broadcastInDim S100000x16 ![] bcast_S_S100000x16) (id (constant S_ .f32 0x00000000#32))) z))))

/-- The neighbour sum at width 32. -/
def agg32 (s : IVec S3200000 32) (d : IVec S3200000 32) (r : FVec F S100000 .f32) (h : FVec F S100000x32 .f32) : FVec F S100000x32 .f32 :=
  ((fun x i u => Host.scatterAdd scatter_S100000x32_S3200000x1_S3200000x32_1_0_0_1 x i u) ((broadcastInDim S100000x32 ![] bcast_S_S100000x32) (constant S_ .f32 0x00000000#32)) ((broadcastInDim S3200000x1 ![0] bcast_S3200000_S3200000x1_0) d) (mulf ((fun x i => Host.gather gather_S100000x32_S3200000x1_S3200000x32_1_0_n_n_0_1_132 x i) h ((broadcastInDim S3200000x1 ![0] bcast_S3200000_S3200000x1_0) (select ((cmpi .slt) s ((broadcastInDim S3200000 ![] bcast_S_S3200000) (constantI S_ 32 0#32))) (addi s ((broadcastInDim S3200000 ![] bcast_S_S3200000) (constantI S_ 32 100000#32))) s))) ((broadcastInDim S3200000x32 ![0, 1] bcast_S3200000x1_S3200000x32_0_1) ((broadcastInDim S3200000x1 ![0] bcast_S3200000_S3200000x1_0) (mulf ((fun x i => Host.gather gather_S100000_S3200000x1_S3200000_n_0_n_n_0_1_1 x i) r ((broadcastInDim S3200000x1 ![0] bcast_S3200000_S3200000x1_0) (select ((cmpi .slt) s ((broadcastInDim S3200000 ![] bcast_S_S3200000) (constantI S_ 32 0#32))) (addi s ((broadcastInDim S3200000 ![] bcast_S_S3200000) (constantI S_ 32 100000#32))) s))) ((fun x i => Host.gather gather_S100000_S3200000x1_S3200000_n_0_n_n_0_1_1 x i) r ((broadcastInDim S3200000x1 ![0] bcast_S3200000_S3200000x1_0) (select ((cmpi .slt) d ((broadcastInDim S3200000 ![] bcast_S_S3200000) (constantI S_ 32 0#32))) (addi d ((broadcastInDim S3200000 ![] bcast_S_S3200000) (constantI S_ 32 100000#32))) d))))))))

/-- Neighbour sum plus self-loop term plus bias, at width 32. -/
def pre32 (agg : FVec F S100000x32 .f32) (dd : FVec F S100000 .f32) (h : FVec F S100000x32 .f32) (b : FVec F S32 .f32) : FVec F S100000x32 .f32 :=
  (addf (addf agg (mulf ((broadcastInDim S100000x32 ![0, 1] bcast_S100000x1_S100000x32_0_1) ((broadcastInDim S100000x1 ![0] bcast_S100000_S100000x1_0) dd)) h)) ((broadcastInDim S100000x32 ![0, 1] bcast_S1x32_S100000x32_0_1) ((broadcastInDim S1x32 ![1] bcast_S32_S1x32_1) b)))

/-- elu at width 32. -/
def elu32 (z : FVec F S100000x32 .f32) : FVec F S100000x32 .f32 :=
  (select ((cmpf .ogt) z ((broadcastInDim S100000x32 ![] bcast_S_S100000x32) (constant S_ .f32 0x00000000#32))) z (mulf ((broadcastInDim S100000x32 ![] bcast_S_S100000x32) (constant S_ .f32 0x3F800000#32)) (Host.expm1 (select ((cmpf .ogt) z ((broadcastInDim S100000x32 ![] bcast_S_S100000x32) (constant S_ .f32 0x00000000#32))) ((broadcastInDim S100000x32 ![] bcast_S_S100000x32) (id (constant S_ .f32 0x00000000#32))) z))))

/-- Row-wise log-softmax: z - max - log Σ exp (z - max). -/
def lsm (z : FVec F S100000x32 .f32) : FVec F S100000x32 .f32 :=
  (subf (subf z ((broadcastInDim S100000x32 ![0, 1] bcast_S100000x1_S100000x32_0_1) ((broadcastInDim S100000x1 ![0] bcast_S100000_S100000x1_0) (maximumf ((broadcastInDim S100000 ![] bcast_S_S100000) (constant S_ .f32 0xFF800000#32)) ((fun x v => Host.reduce FloatOps.maximumf x v reducesTo_S100000x32_S100000_d1 h_S_) z (constant S_ .f32 0xFF800000#32)))))) ((broadcastInDim S100000x32 ![0, 1] bcast_S100000x1_S100000x32_0_1) (Host.log ((broadcastInDim S100000x1 ![0] bcast_S100000_S100000x1_0) ((fun x v => Host.reduceAdd x v reducesTo_S100000x32_S100000_d1 h_S_) (Host.exp (subf z ((broadcastInDim S100000x32 ![0, 1] bcast_S100000x1_S100000x32_0_1) ((broadcastInDim S100000x1 ![0] bcast_S100000_S100000x1_0) (maximumf ((broadcastInDim S100000 ![] bcast_S_S100000) (constant S_ .f32 0xFF800000#32)) ((fun x v => Host.reduce FloatOps.maximumf x v reducesTo_S100000x32_S100000_d1 h_S_) z (constant S_ .f32 0xFF800000#32))))))) (constant S_ .f32 0x00000000#32))))))

/-- The three products with the weight matrices. -/
def mm1 (x : FVec F S100000x256 .f32) (w : FVec F S256x16 .f32) : FVec F S100000x16 .f32 := ((fun l r => Host.dotGeneral dot_S100000x256_S256x16_S100000x16_1_0_0_1_n_n none l r) x w)
def mm2 (x : FVec F S100000x16 .f32) (w : FVec F S16x16 .f32) : FVec F S100000x16 .f32 := ((fun l r => Host.dotGeneral dot_S100000x16_S16x16_S100000x16_1_0_0_1_n_n none l r) x w)
def mm3 (x : FVec F S100000x16 .f32) (w : FVec F S16x32 .f32) : FVec F S100000x32 .f32 := ((fun l r => Host.dotGeneral dot_S100000x16_S16x32_S100000x32_1_0_0_1_n_n none l r) x w)

/-- One hidden layer from the product h, and the last one. -/
def layer16 (s d : IVec S3200000 32) (r : FVec F S100000 .f32) (h : FVec F S100000x16 .f32) (b : FVec F S16 .f32) : FVec F S100000x16 .f32 :=
  elu16 (pre16 (agg16 s d r h) (mulf r r) h b)
def layer32 (s d : IVec S3200000 32) (r : FVec F S100000 .f32) (h : FVec F S100000x32 .f32) (b : FVec F S32 .f32) : FVec F S100000x32 .f32 :=
  lsm (elu32 (pre32 (agg32 s d r h) (mulf r r) h b))

/-- The network. -/
def net (x : FVec F S100000x256 .f32) (ei : IVec S2x3200000 32) (w1 : FVec F S256x16 .f32) (b1 : FVec F S16 .f32) (w2 : FVec F S16x16 .f32) (b2 : FVec F S16 .f32)
    (w3 : FVec F S16x32 .f32) (b3 : FVec F S32 .f32) : FVec F S100000x32 .f32 :=
  layer32 (src ei) (dst ei) (dis (dst ei))
    (mm3 (layer16 (src ei) (dst ei) (dis (dst ei)) (mm2 (layer16 (src ei) (dst ei) (dis (dst ei)) (mm1 x w1) b1) w2) b2) w3) b3

end Cert.Gcn

end
-- ==== Proof.RefOps.lean ====
/-
  The host program's @main as the list of its operations (the outlined functions' operations written at their call
  sites), its run, and what the run leaves in the result buffer: the network of Spec.lean at the argument arrays.
  The list is cut into pieces at the layers' boundaries; each piece is read once, from arbitrary contents, at the
  buffers later pieces use.
-/
import proofs.«137336_j25134148616642_1_alg».proof.ReferenceIdeal
import proofs.«137336_j25134148616642_1_alg».proof.Proof.Spec
import Idealize.ShloMosaic.Lib.StableHlo.Run
import Idealize.ShloMosaic.Lib.Pipeline.Frame

noncomputable section

namespace Cert.ReferenceIdeal.HandRun

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F] [Cert.ReferenceIdeal.Facts]

/-- Operations 1 … 14 of 206. -/
abbrev pA : List (HloOp τ sig (Elt F)) :=
  [ StableHlo.unary main_arg1 main_v0 ((extractStridedSlice S1x3200000 ![0, 0] · slices_S2x3200000_S1x3200000_0_0) : (⟨S2x3200000, .i32⟩ : BufTy).Contents (Elt F) → (⟨S1x3200000, .i32⟩ : BufTy).Contents (Elt F)),
    StableHlo.reshape main_v0 main_v1 rfl shapeCasts_S1x3200000_S3200000,
    StableHlo.unary main_arg1 main_v2 ((extractStridedSlice S1x3200000 ![1, 0] · slices_S2x3200000_S1x3200000_1_0) : (⟨S2x3200000, .i32⟩ : BufTy).Contents (Elt F) → (⟨S1x3200000, .i32⟩ : BufTy).Contents (Elt F)),
    StableHlo.reshape main_v2 main_v3 rfl shapeCasts_S1x3200000_S3200000,
    StableHlo.nullary main_cst (constant S_ .f32 0x3F800000#32),
    StableHlo.unary main_cst main_v4 (broadcastInDim S3200000 ![] bcast_S_S3200000 : (⟨S_, .f32⟩ : BufTy).Contents (Elt F) → (⟨S3200000, .f32⟩ : BufTy).Contents (Elt F)),
    StableHlo.nullary main_cst_0 (constant S_ .f32 0x00000000#32),
    StableHlo.unary main_cst_0 main_v5 (broadcastInDim S100000 ![] bcast_S_S100000 : (⟨S_, .f32⟩ : BufTy).Contents (Elt F) → (⟨S100000, .f32⟩ : BufTy).Contents (Elt F)),
    StableHlo.unary main_v3 main_v6 (broadcastInDim S3200000x1 ![0] bcast_S3200000_S3200000x1_0 : (⟨S3200000, .i32⟩ : BufTy).Contents (Elt F) → (⟨S3200000x1, .i32⟩ : BufTy).Contents (Elt F)),
    StableHlo.ternary main_v5 main_v6 main_v4 main_v7 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    StableHlo.nullary main_cst_1 (constant S_ .f32 0x3F800000#32),
    StableHlo.unary main_cst_1 main_v8 (broadcastInDim S100000 ![] bcast_S_S100000 : (⟨S_, .f32⟩ : BufTy).Contents (Elt F) → (⟨S100000, .f32⟩ : BufTy).Contents (Elt F)),
    StableHlo.binary main_v7 main_v8 main_v9 (addf : (⟨S100000, .f32⟩ : BufTy).Contents (Elt F) → (⟨S100000, .f32⟩ : BufTy).Contents (Elt F) → (⟨S100000, .f32⟩ : BufTy).Contents (Elt F)),
    StableHlo.unary main_v9 main_v10 (Host.rsqrt : (⟨S100000, .f32⟩ : BufTy).Contents (Elt F) → (⟨S100000, .f32⟩ : BufTy).Contents (Elt F)) ]

/-- Operations 15 … 73 of 206. -/
abbrev pB : List (HloOp τ sig (Elt F)) :=
  [ StableHlo.binary main_arg0 main_arg2 main_v11 ((fun l r => Host.dotGeneral dot_S100000x256_S256x16_S100000x16_1_0_0_1_n_n none l r) : (⟨S100000x256, .f32⟩ : BufTy).Contents (Elt F) → (⟨S256x16, .f32⟩ : BufTy).Contents (Elt F) → (⟨S100000x16, .f32⟩ : BufTy).Contents (Elt F)),
    StableHlo.nullary main_c (constantI S_ 32 0#32),
    StableHlo.unary main_c main_v12 (broadcastInDim S3200000 ![] bcast_S_S3200000 : (⟨S_, .i32⟩ : BufTy).Contents (Elt F) → (⟨S3200000, .i32⟩ : BufTy).Contents (Elt F)),
    StableHlo.binary main_v1 main_v12 main_v13 (cmpi .slt : (⟨S3200000, .i32⟩ : BufTy).Contents (Elt F) → (⟨S3200000, .i32⟩ : BufTy).Contents (Elt F) → (⟨S3200000, .i1⟩ : BufTy).Contents (Elt F)),
    StableHlo.nullary main_c_2 (constantI S_ 32 100000#32),
    StableHlo.unary main_c_2 main_v14 (broadcastInDim S3200000 ![] bcast_S_S3200000 : (⟨S_, .i32⟩ : BufTy).Contents (Elt F) → (⟨S3200000, .i32⟩ : BufTy).Contents (Elt F)),
    StableHlo.binary main_v1 main_v14 main_v15 (addi : (⟨S3200000, .i32⟩ : BufTy).Contents (Elt F) → (⟨S3200000, .i32⟩ : BufTy).Contents (Elt F) → (⟨S3200000, .i32⟩ : BufTy).Contents (Elt F)),
    StableHlo.ternary main_v13 main_v15 main_v1 main_v16 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v16 main_v17 (broadcastInDim S3200000x1 ![0] bcast_S3200000_S3200000x1_0 : (⟨S3200000, .i32⟩ : BufTy).Contents (Elt F) → (⟨S3200000x1, .i32⟩ : BufTy).Contents (Elt F)),
    StableHlo.binary main_v10 main_v17 main_v18 ((fun x i => Host.gather gather_S100000_S3200000x1_S3200000_n_0_n_n_0_1_1 x i) : (⟨S100000, .f32⟩ : BufTy).Contents (Elt F) → (⟨S3200000x1, .i32⟩ : BufTy).Contents (Elt F) → (⟨S3200000, .f32⟩ : BufTy).Contents (Elt F)),
    StableHlo.nullary main_c_3 (constantI S_ 32 0#32),
    StableHlo.unary main_c_3 main_v19 (broadcastInDim S3200000 ![] bcast_S_S3200000 : (⟨S_, .i32⟩ : BufTy).Contents (Elt F) → (⟨S3200000, .i32⟩ : BufTy).Contents (Elt F)),
    StableHlo.binary main_v3 main_v19 main_v20 (cmpi .slt : (⟨S3200000, .i32⟩ : BufTy).Contents (Elt F) → (⟨S3200000, .i32⟩ : BufTy).Contents (Elt F) → (⟨S3200000, .i1⟩ : BufTy).Contents (Elt F)),
    StableHlo.nullary main_c_4 (constantI S_ 32 100000#32),
    StableHlo.unary main_c_4 main_v21 (broadcastInDim S3200000 ![] bcast_S_S3200000 : (⟨S_, .i32⟩ : BufTy).Contents (Elt F) → (⟨S3200000, .i32⟩ : BufTy).Contents (Elt F)),
    StableHlo.binary main_v3 main_v21 main_v22 (addi : (⟨S3200000, .i32⟩ : BufTy).Contents (Elt F) → (⟨S3200000, .i32⟩ : BufTy).Contents (Elt F) → (⟨S3200000, .i32⟩ : BufTy).Contents (Elt F)),
    StableHlo.ternary main_v20 main_v22 main_v3 main_v23 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v23 main_v24 (broadcastInDim S3200000x1 ![0] bcast_S3200000_S3200000x1_0 : (⟨S3200000, .i32⟩ : BufTy).Contents (Elt F) → (⟨S3200000x1, .i32⟩ : BufTy).Contents (Elt F)),
    StableHlo.binary main_v10 main_v24 main_v25 ((fun x i => Host.gather gather_S100000_S3200000x1_S3200000_n_0_n_n_0_1_1 x i) : (⟨S100000, .f32⟩ : BufTy).Contents (Elt F) → (⟨S3200000x1, .i32⟩ : BufTy).Contents (Elt F) → (⟨S3200000, .f32⟩ : BufTy).Contents (Elt F)),
    StableHlo.binary main_v18 main_v25 main_v26 (mulf : (⟨S3200000, .f32⟩ : BufTy).Contents (Elt F) → (⟨S3200000, .f32⟩ : BufTy).Contents (Elt F) → (⟨S3200000, .f32⟩ : BufTy).Contents (Elt F)),
    StableHlo.nullary main_c_5 (constantI S_ 32 0#32),
    StableHlo.unary main_c_5 main_v27 (broadcastInDim S3200000 ![] bcast_S_S3200000 : (⟨S_, .i32⟩ : BufTy).Contents (Elt F) → (⟨S3200000, .i32⟩ : BufTy).Contents (Elt F)),
    StableHlo.binary main_v1 main_v27 main_v28 (cmpi .slt : (⟨S3200000, .i32⟩ : BufTy).Contents (Elt F) → (⟨S3200000, .i32⟩ : BufTy).Contents (Elt F) → (⟨S3200000, .i1⟩ : BufTy).Contents (Elt F)),
    StableHlo.nullary main_c_6 (constantI S_ 32 100000#32),
    StableHlo.unary main_c_6 main_v29 (broadcastInDim S3200000 ![] bcast_S_S3200000 : (⟨S_, .i32⟩ : BufTy).Contents (Elt F) → (⟨S3200000, .i32⟩ : BufTy).Contents (Elt F)),
    StableHlo.binary main_v1 main_v29 main_v30 (addi : (⟨S3200000, .i32⟩ : BufTy).Contents (Elt F) → (⟨S3200000, .i32⟩ : BufTy).Contents (Elt F) → (⟨S3200000, .i32⟩ : BufTy).Contents (Elt F)),
    StableHlo.ternary main_v28 main_v30 main_v1 main_v31 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v31 main_v32 (broadcastInDim S3200000x1 ![0] bcast_S3200000_S3200000x1_0 : (⟨S3200000, .i32⟩ : BufTy).Contents (Elt F) → (⟨S3200000x1, .i32⟩ : BufTy).Contents (Elt F)),
    StableHlo.binary main_v11 main_v32 main_v33 ((fun x i => Host.gather gather_S100000x16_S3200000x1_S3200000x16_1_0_n_n_0_1_116 x i) : (⟨S100000x16, .f32⟩ : BufTy).Contents (Elt F) → (⟨S3200000x1, .i32⟩ : BufTy).Contents (Elt F) → (⟨S3200000x16, .f32⟩ : BufTy).Contents (Elt F)),
    StableHlo.unary main_v26 main_v34 (broadcastInDim S3200000x1 ![0] bcast_S3200000_S3200000x1_0 : (⟨S3200000, .f32⟩ : BufTy).Contents (Elt F) → (⟨S3200000x1, .f32⟩ : BufTy).Contents (Elt F)),
    StableHlo.unary main_v34 main_v35 (broadcastInDim S3200000x16 ![0, 1] bcast_S3200000x1_S3200000x16_0_1 : (⟨S3200000x1, .f32⟩ : BufTy).Contents (Elt F) → (⟨S3200000x16, .f32⟩ : BufTy).Contents (Elt F)),
    StableHlo.binary main_v33 main_v35 main_v36 (mulf : (⟨S3200000x16, .f32⟩ : BufTy).Contents (Elt F) → (⟨S3200000x16, .f32⟩ : BufTy).Contents (Elt F) → (⟨S3200000x16, .f32⟩ : BufTy).Contents (Elt F)),
    StableHlo.nullary main_cst_7 (constant S_ .f32 0x00000000#32),
    StableHlo.unary main_cst_7 main_v37 (broadcastInDim S100000x16 ![] bcast_S_S100000x16 : (⟨S_, .f32⟩ : BufTy).Contents (Elt F) → (⟨S100000x16, .f32⟩ : BufTy).Contents (Elt F)),
    StableHlo.unary main_v3 main_v38 (broadcastInDim S3200000x1 ![0] bcast_S3200000_S3200000x1_0 : (⟨S3200000, .i32⟩ : BufTy).Contents (Elt F) → (⟨S3200000x1, .i32⟩ : BufTy).Contents (Elt F)),
    StableHlo.ternary main_v37 main_v38 main_v36 main_v39 ((fun x i u => Host.scatterAdd scatter_S100000x16_S3200000x1_S3200000x16_1_0_0_1 x i u) : (⟨S100000x16, .f32⟩ : BufTy).Contents (Elt F) → (⟨S3200000x1, .i32⟩ : BufTy).Contents (Elt F) → (⟨S3200000x16, .f32⟩ : BufTy).Contents (Elt F) → (⟨S100000x16, .f32⟩ : BufTy).Contents (Elt F)),
    StableHlo.binary main_v10 main_v10 main_v40 (mulf : (⟨S100000, .f32⟩ : BufTy).Contents (Elt F) → (⟨S100000, .f32⟩ : BufTy).Contents (Elt F) → (⟨S100000, .f32⟩ : BufTy).Contents (Elt F)),
    StableHlo.unary main_v40 main_v41 (broadcastInDim S100000x1 ![0] bcast_S100000_S100000x1_0 : (⟨S100000, .f32⟩ : BufTy).Contents (Elt F) → (⟨S100000x1, .f32⟩ : BufTy).Contents (Elt F)),
    StableHlo.unary main_v41 main_v42 (broadcastInDim S100000x16 ![0, 1] bcast_S100000x1_S100000x16_0_1 : (⟨S100000x1, .f32⟩ : BufTy).Contents (Elt F) → (⟨S100000x16, .f32⟩ : BufTy).Contents (Elt F)),
    StableHlo.binary main_v42 main_v11 main_v43 (mulf : (⟨S100000x16, .f32⟩ : BufTy).Contents (Elt F) → (⟨S100000x16, .f32⟩ : BufTy).Contents (Elt F) → (⟨S100000x16, .f32⟩ : BufTy).Contents (Elt F)),
    StableHlo.binary main_v39 main_v43 main_v44 (addf : (⟨S100000x16, .f32⟩ : BufTy).Contents (Elt F) → (⟨S100000x16, .f32⟩ : BufTy).Contents (Elt F) → (⟨S100000x16, .f32⟩ : BufTy).Contents (Elt F)),
    StableHlo.unary main_arg3 main_v45 (broadcastInDim S1x16 ![1] bcast_S16_S1x16_1 : (⟨S16, .f32⟩ : BufTy).Contents (Elt F) → (⟨S1x16, .f32⟩ : BufTy).Contents (Elt F)),
    StableHlo.unary main_v45 main_v46 (broadcastInDim S100000x16 ![0, 1] bcast_S1x16_S100000x16_0_1 : (⟨S1x16, .f32⟩ : BufTy).Contents (Elt F) → (⟨S100000x16, .f32⟩ : BufTy).Contents (Elt F)),
    StableHlo.binary main_v44 main_v46 main_v47 (addf : (⟨S100000x16, .f32⟩ : BufTy).Contents (Elt F) → (⟨S100000x16, .f32⟩ : BufTy).Contents (Elt F) → (⟨S100000x16, .f32⟩ : BufTy).Contents (Elt F)),
    StableHlo.TRef.nullary main_call0.cst (constant S_ .f32 0x00000000#32),
    StableHlo.TRef.unary main_call0.cst main_call0.v0 (broadcastInDim S100000x16 ![] bcast_S_S100000x16),
    StableHlo.TRef.binary (StableHlo.TRef.of main_v47 : StableHlo.TRef sig ⟨S100000x16, .f32⟩) main_call0.v0 main_call0.v1 (cmpf .ogt),
    StableHlo.TRef.nullary main_call0.cst_0 (constant S_ .f32 0x00000000#32),
    StableHlo.TRef.unary main_call0.cst_0 main_call0.v2 (broadcastInDim S100000x16 ![] bcast_S_S100000x16),
    StableHlo.TRef.binary (StableHlo.TRef.of main_v47 : StableHlo.TRef sig ⟨S100000x16, .f32⟩) main_call0.v2 main_call0.v3 (cmpf .ogt),
    StableHlo.TRef.nullary main_call0.cst_1 (constant S_ .f32 0x00000000#32),
    StableHlo.TRef.unary main_call0.cst_1 main_call0.call0.v0 id,
    StableHlo.TRef.unary main_call0.call0.v0 main_call0.call0.v1 (broadcastInDim S100000x16 ![] bcast_S_S100000x16),
    StableHlo.TRef.ternary main_call0.v3 main_call0.call0.v1 (StableHlo.TRef.of main_v47 : StableHlo.TRef sig ⟨S100000x16, .f32⟩) main_call0.call0.v2 select,
    StableHlo.TRef.unary main_call0.call0.v2 main_call0.v5 Host.expm1,
    StableHlo.TRef.nullary main_call0.cst_2 (constant S_ .f32 0x3F800000#32),
    StableHlo.TRef.unary main_call0.cst_2 main_call0.v6 (broadcastInDim S100000x16 ![] bcast_S_S100000x16),
    StableHlo.TRef.binary main_call0.v6 main_call0.v5 main_call0.v7 mulf,
    StableHlo.TRef.ternary main_call0.v1 (StableHlo.TRef.of main_v47 : StableHlo.TRef sig ⟨S100000x16, .f32⟩) main_call0.v7 main_call0.call1.v0 select ]

/-- Operations 74 … 74 of 206. -/
abbrev pC : List (HloOp τ sig (Elt F)) :=
  [ StableHlo.binary main_v48 main_arg4 main_v49 ((fun l r => Host.dotGeneral dot_S100000x16_S16x16_S100000x16_1_0_0_1_n_n none l r) : (⟨S100000x16, .f32⟩ : BufTy).Contents (Elt F) → (⟨S16x16, .f32⟩ : BufTy).Contents (Elt F) → (⟨S100000x16, .f32⟩ : BufTy).Contents (Elt F)) ]

/-- Operations 75 … 132 of 206. -/
abbrev pD : List (HloOp τ sig (Elt F)) :=
  [ StableHlo.nullary main_c_8 (constantI S_ 32 0#32),
    StableHlo.unary main_c_8 main_v50 (broadcastInDim S3200000 ![] bcast_S_S3200000 : (⟨S_, .i32⟩ : BufTy).Contents (Elt F) → (⟨S3200000, .i32⟩ : BufTy).Contents (Elt F)),
    StableHlo.binary main_v1 main_v50 main_v51 (cmpi .slt : (⟨S3200000, .i32⟩ : BufTy).Contents (Elt F) → (⟨S3200000, .i32⟩ : BufTy).Contents (Elt F) → (⟨S3200000, .i1⟩ : BufTy).Contents (Elt F)),
    StableHlo.nullary main_c_9 (constantI S_ 32 100000#32),
    StableHlo.unary main_c_9 main_v52 (broadcastInDim S3200000 ![] bcast_S_S3200000 : (⟨S_, .i32⟩ : BufTy).Contents (Elt F) → (⟨S3200000, .i32⟩ : BufTy).Contents (Elt F)),
    StableHlo.binary main_v1 main_v52 main_v53 (addi : (⟨S3200000, .i32⟩ : BufTy).Contents (Elt F) → (⟨S3200000, .i32⟩ : BufTy).Contents (Elt F) → (⟨S3200000, .i32⟩ : BufTy).Contents (Elt F)),
    StableHlo.ternary main_v51 main_v53 main_v1 main_v54 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v54 main_v55 (broadcastInDim S3200000x1 ![0] bcast_S3200000_S3200000x1_0 : (⟨S3200000, .i32⟩ : BufTy).Contents (Elt F) → (⟨S3200000x1, .i32⟩ : BufTy).Contents (Elt F)),
    StableHlo.binary main_v10 main_v55 main_v56 ((fun x i => Host.gather gather_S100000_S3200000x1_S3200000_n_0_n_n_0_1_1 x i) : (⟨S100000, .f32⟩ : BufTy).Contents (Elt F) → (⟨S3200000x1, .i32⟩ : BufTy).Contents (Elt F) → (⟨S3200000, .f32⟩ : BufTy).Contents (Elt F)),
    StableHlo.nullary main_c_10 (constantI S_ 32 0#32),
    StableHlo.unary main_c_10 main_v57 (broadcastInDim S3200000 ![] bcast_S_S3200000 : (⟨S_, .i32⟩ : BufTy).Contents (Elt F) → (⟨S3200000, .i32⟩ : BufTy).Contents (Elt F)),
    StableHlo.binary main_v3 main_v57 main_v58 (cmpi .slt : (⟨S3200000, .i32⟩ : BufTy).Contents (Elt F) → (⟨S3200000, .i32⟩ : BufTy).Contents (Elt F) → (⟨S3200000, .i1⟩ : BufTy).Contents (Elt F)),
    StableHlo.nullary main_c_11 (constantI S_ 32 100000#32),
    StableHlo.unary main_c_11 main_v59 (broadcastInDim S3200000 ![] bcast_S_S3200000 : (⟨S_, .i32⟩ : BufTy).Contents (Elt F) → (⟨S3200000, .i32⟩ : BufTy).Contents (Elt F)),
    StableHlo.binary main_v3 main_v59 main_v60 (addi : (⟨S3200000, .i32⟩ : BufTy).Contents (Elt F) → (⟨S3200000, .i32⟩ : BufTy).Contents (Elt F) → (⟨S3200000, .i32⟩ : BufTy).Contents (Elt F)),
    StableHlo.ternary main_v58 main_v60 main_v3 main_v61 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v61 main_v62 (broadcastInDim S3200000x1 ![0] bcast_S3200000_S3200000x1_0 : (⟨S3200000, .i32⟩ : BufTy).Contents (Elt F) → (⟨S3200000x1, .i32⟩ : BufTy).Contents (Elt F)),
    StableHlo.binary main_v10 main_v62 main_v63 ((fun x i => Host.gather gather_S100000_S3200000x1_S3200000_n_0_n_n_0_1_1 x i) : (⟨S100000, .f32⟩ : BufTy).Contents (Elt F) → (⟨S3200000x1, .i32⟩ : BufTy).Contents (Elt F) → (⟨S3200000, .f32⟩ : BufTy).Contents (Elt F)),
    StableHlo.binary main_v56 main_v63 main_v64 (mulf : (⟨S3200000, .f32⟩ : BufTy).Contents (Elt F) → (⟨S3200000, .f32⟩ : BufTy).Contents (Elt F) → (⟨S3200000, .f32⟩ : BufTy).Contents (Elt F)),
    StableHlo.nullary main_c_12 (constantI S_ 32 0#32),
    StableHlo.unary main_c_12 main_v65 (broadcastInDim S3200000 ![] bcast_S_S3200000 : (⟨S_, .i32⟩ : BufTy).Contents (Elt F) → (⟨S3200000, .i32⟩ : BufTy).Contents (Elt F)),
    StableHlo.binary main_v1 main_v65 main_v66 (cmpi .slt : (⟨S3200000, .i32⟩ : BufTy).Contents (Elt F) → (⟨S3200000, .i32⟩ : BufTy).Contents (Elt F) → (⟨S3200000, .i1⟩ : BufTy).Contents (Elt F)),
    StableHlo.nullary main_c_13 (constantI S_ 32 100000#32),
    StableHlo.unary main_c_13 main_v67 (broadcastInDim S3200000 ![] bcast_S_S3200000 : (⟨S_, .i32⟩ : BufTy).Contents (Elt F) → (⟨S3200000, .i32⟩ : BufTy).Contents (Elt F)),
    StableHlo.binary main_v1 main_v67 main_v68 (addi : (⟨S3200000, .i32⟩ : BufTy).Contents (Elt F) → (⟨S3200000, .i32⟩ : BufTy).Contents (Elt F) → (⟨S3200000, .i32⟩ : BufTy).Contents (Elt F)),
    StableHlo.ternary main_v66 main_v68 main_v1 main_v69 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v69 main_v70 (broadcastInDim S3200000x1 ![0] bcast_S3200000_S3200000x1_0 : (⟨S3200000, .i32⟩ : BufTy).Contents (Elt F) → (⟨S3200000x1, .i32⟩ : BufTy).Contents (Elt F)),
    StableHlo.binary main_v49 main_v70 main_v71 ((fun x i => Host.gather gather_S100000x16_S3200000x1_S3200000x16_1_0_n_n_0_1_116 x i) : (⟨S100000x16, .f32⟩ : BufTy).Contents (Elt F) → (⟨S3200000x1, .i32⟩ : BufTy).Contents (Elt F) → (⟨S3200000x16, .f32⟩ : BufTy).Contents (Elt F)),
    StableHlo.unary main_v64 main_v72 (broadcastInDim S3200000x1 ![0] bcast_S3200000_S3200000x1_0 : (⟨S3200000, .f32⟩ : BufTy).Contents (Elt F) → (⟨S3200000x1, .f32⟩ : BufTy).Contents (Elt F)),
    StableHlo.unary main_v72 main_v73 (broadcastInDim S3200000x16 ![0, 1] bcast_S3200000x1_S3200000x16_0_1 : (⟨S3200000x1, .f32⟩ : BufTy).Contents (Elt F) → (⟨S3200000x16, .f32⟩ : BufTy).Contents (Elt F)),
    StableHlo.binary main_v71 main_v73 main_v74 (mulf : (⟨S3200000x16, .f32⟩ : BufTy).Contents (Elt F) → (⟨S3200000x16, .f32⟩ : BufTy).Contents (Elt F) → (⟨S3200000x16, .f32⟩ : BufTy).Contents (Elt F)),
    StableHlo.nullary main_cst_14 (constant S_ .f32 0x00000000#32),
    StableHlo.unary main_cst_14 main_v75 (broadcastInDim S100000x16 ![] bcast_S_S100000x16 : (⟨S_, .f32⟩ : BufTy).Contents (Elt F) → (⟨S100000x16, .f32⟩ : BufTy).Contents (Elt F)),
    StableHlo.unary main_v3 main_v76 (broadcastInDim S3200000x1 ![0] bcast_S3200000_S3200000x1_0 : (⟨S3200000, .i32⟩ : BufTy).Contents (Elt F) → (⟨S3200000x1, .i32⟩ : BufTy).Contents (Elt F)),
    StableHlo.ternary main_v75 main_v76 main_v74 main_v77 ((fun x i u => Host.scatterAdd scatter_S100000x16_S3200000x1_S3200000x16_1_0_0_1 x i u) : (⟨S100000x16, .f32⟩ : BufTy).Contents (Elt F) → (⟨S3200000x1, .i32⟩ : BufTy).Contents (Elt F) → (⟨S3200000x16, .f32⟩ : BufTy).Contents (Elt F) → (⟨S100000x16, .f32⟩ : BufTy).Contents (Elt F)),
    StableHlo.binary main_v10 main_v10 main_v78 (mulf : (⟨S100000, .f32⟩ : BufTy).Contents (Elt F) → (⟨S100000, .f32⟩ : BufTy).Contents (Elt F) → (⟨S100000, .f32⟩ : BufTy).Contents (Elt F)),
    StableHlo.unary main_v78 main_v79 (broadcastInDim S100000x1 ![0] bcast_S100000_S100000x1_0 : (⟨S100000, .f32⟩ : BufTy).Contents (Elt F) → (⟨S100000x1, .f32⟩ : BufTy).Contents (Elt F)),
    StableHlo.unary main_v79 main_v80 (broadcastInDim S100000x16 ![0, 1] bcast_S100000x1_S100000x16_0_1 : (⟨S100000x1, .f32⟩ : BufTy).Contents (Elt F) → (⟨S100000x16, .f32⟩ : BufTy).Contents (Elt F)),
    StableHlo.binary main_v80 main_v49 main_v81 (mulf : (⟨S100000x16, .f32⟩ : BufTy).Contents (Elt F) → (⟨S100000x16, .f32⟩ : BufTy).Contents (Elt F) → (⟨S100000x16, .f32⟩ : BufTy).Contents (Elt F)),
    StableHlo.binary main_v77 main_v81 main_v82 (addf : (⟨S100000x16, .f32⟩ : BufTy).Contents (Elt F) → (⟨S100000x16, .f32⟩ : BufTy).Contents (Elt F) → (⟨S100000x16, .f32⟩ : BufTy).Contents (Elt F)),
    StableHlo.unary main_arg5 main_v83 (broadcastInDim S1x16 ![1] bcast_S16_S1x16_1 : (⟨S16, .f32⟩ : BufTy).Contents (Elt F) → (⟨S1x16, .f32⟩ : BufTy).Contents (Elt F)),
    StableHlo.unary main_v83 main_v84 (broadcastInDim S100000x16 ![0, 1] bcast_S1x16_S100000x16_0_1 : (⟨S1x16, .f32⟩ : BufTy).Contents (Elt F) → (⟨S100000x16, .f32⟩ : BufTy).Contents (Elt F)),
    StableHlo.binary main_v82 main_v84 main_v85 (addf : (⟨S100000x16, .f32⟩ : BufTy).Contents (Elt F) → (⟨S100000x16, .f32⟩ : BufTy).Contents (Elt F) → (⟨S100000x16, .f32⟩ : BufTy).Contents (Elt F)),
    StableHlo.TRef.nullary main_call1.cst (constant S_ .f32 0x00000000#32),
    StableHlo.TRef.unary main_call1.cst main_call1.v0 (broadcastInDim S100000x16 ![] bcast_S_S100000x16),
    StableHlo.TRef.binary (StableHlo.TRef.of main_v85 : StableHlo.TRef sig ⟨S100000x16, .f32⟩) main_call1.v0 main_call1.v1 (cmpf .ogt),
    StableHlo.TRef.nullary main_call1.cst_0 (constant S_ .f32 0x00000000#32),
    StableHlo.TRef.unary main_call1.cst_0 main_call1.v2 (broadcastInDim S100000x16 ![] bcast_S_S100000x16),
    StableHlo.TRef.binary (StableHlo.TRef.of main_v85 : StableHlo.TRef sig ⟨S100000x16, .f32⟩) main_call1.v2 main_call1.v3 (cmpf .ogt),
    StableHlo.TRef.nullary main_call1.cst_1 (constant S_ .f32 0x00000000#32),
    StableHlo.TRef.unary main_call1.cst_1 main_call1.call0.v0 id,
    StableHlo.TRef.unary main_call1.call0.v0 main_call1.call0.v1 (broadcastInDim S100000x16 ![] bcast_S_S100000x16),
    StableHlo.TRef.ternary main_call1.v3 main_call1.call0.v1 (StableHlo.TRef.of main_v85 : StableHlo.TRef sig ⟨S100000x16, .f32⟩) main_call1.call0.v2 select,
    StableHlo.TRef.unary main_call1.call0.v2 main_call1.v5 Host.expm1,
    StableHlo.TRef.nullary main_call1.cst_2 (constant S_ .f32 0x3F800000#32),
    StableHlo.TRef.unary main_call1.cst_2 main_call1.v6 (broadcastInDim S100000x16 ![] bcast_S_S100000x16),
    StableHlo.TRef.binary main_call1.v6 main_call1.v5 main_call1.v7 mulf,
    StableHlo.TRef.ternary main_call1.v1 (StableHlo.TRef.of main_v85 : StableHlo.TRef sig ⟨S100000x16, .f32⟩) main_call1.v7 main_call1.call1.v0 select ]

/-- Operations 133 … 148 of 206. -/
abbrev pE : List (HloOp τ sig (Elt F)) :=
  [ StableHlo.binary main_v86 main_arg6 main_v87 ((fun l r => Host.dotGeneral dot_S100000x16_S16x32_S100000x32_1_0_0_1_n_n none l r) : (⟨S100000x16, .f32⟩ : BufTy).Contents (Elt F) → (⟨S16x32, .f32⟩ : BufTy).Contents (Elt F) → (⟨S100000x32, .f32⟩ : BufTy).Contents (Elt F)),
    StableHlo.nullary main_c_15 (constantI S_ 32 0#32),
    StableHlo.unary main_c_15 main_v88 (broadcastInDim S3200000 ![] bcast_S_S3200000 : (⟨S_, .i32⟩ : BufTy).Contents (Elt F) → (⟨S3200000, .i32⟩ : BufTy).Contents (Elt F)),
    StableHlo.binary main_v1 main_v88 main_v89 (cmpi .slt : (⟨S3200000, .i32⟩ : BufTy).Contents (Elt F) → (⟨S3200000, .i32⟩ : BufTy).Contents (Elt F) → (⟨S3200000, .i1⟩ : BufTy).Contents (Elt F)),
    StableHlo.nullary main_c_16 (constantI S_ 32 100000#32),
    StableHlo.unary main_c_16 main_v90 (broadcastInDim S3200000 ![] bcast_S_S3200000 : (⟨S_, .i32⟩ : BufTy).Contents (Elt F) → (⟨S3200000, .i32⟩ : BufTy).Contents (Elt F)),
    StableHlo.binary main_v1 main_v90 main_v91 (addi : (⟨S3200000, .i32⟩ : BufTy).Contents (Elt F) → (⟨S3200000, .i32⟩ : BufTy).Contents (Elt F) → (⟨S3200000, .i32⟩ : BufTy).Contents (Elt F)),
    StableHlo.ternary main_v89 main_v91 main_v1 main_v92 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v92 main_v93 (broadcastInDim S3200000x1 ![0] bcast_S3200000_S3200000x1_0 : (⟨S3200000, .i32⟩ : BufTy).Contents (Elt F) → (⟨S3200000x1, .i32⟩ : BufTy).Contents (Elt F)),
    StableHlo.binary main_v10 main_v93 main_v94 ((fun x i => Host.gather gather_S100000_S3200000x1_S3200000_n_0_n_n_0_1_1 x i) : (⟨S100000, .f32⟩ : BufTy).Contents (Elt F) → (⟨S3200000x1, .i32⟩ : BufTy).Contents (Elt F) → (⟨S3200000, .f32⟩ : BufTy).Contents (Elt F)),
    StableHlo.nullary main_c_17 (constantI S_ 32 0#32),
    StableHlo.unary main_c_17 main_v95 (broadcastInDim S3200000 ![] bcast_S_S3200000 : (⟨S_, .i32⟩ : BufTy).Contents (Elt F) → (⟨S3200000, .i32⟩ : BufTy).Contents (Elt F)),
    StableHlo.binary main_v3 main_v95 main_v96 (cmpi .slt : (⟨S3200000, .i32⟩ : BufTy).Contents (Elt F) → (⟨S3200000, .i32⟩ : BufTy).Contents (Elt F) → (⟨S3200000, .i1⟩ : BufTy).Contents (Elt F)),
    StableHlo.nullary main_c_18 (constantI S_ 32 100000#32),
    StableHlo.unary main_c_18 main_v97 (broadcastInDim S3200000 ![] bcast_S_S3200000 : (⟨S_, .i32⟩ : BufTy).Contents (Elt F) → (⟨S3200000, .i32⟩ : BufTy).Contents (Elt F)),
    StableHlo.binary main_v3 main_v97 main_v98 (addi : (⟨S3200000, .i32⟩ : BufTy).Contents (Elt F) → (⟨S3200000, .i32⟩ : BufTy).Contents (Elt F) → (⟨S3200000, .i32⟩ : BufTy).Contents (Elt F)) ]

/-- Operations 149 … 206 of 206. -/
abbrev pG : List (HloOp τ sig (Elt F)) :=
  [ StableHlo.ternary main_v96 main_v98 main_v3 main_v99 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v99 main_v100 (broadcastInDim S3200000x1 ![0] bcast_S3200000_S3200000x1_0 : (⟨S3200000, .i32⟩ : BufTy).Contents (Elt F) → (⟨S3200000x1, .i32⟩ : BufTy).Contents (Elt F)),
    StableHlo.binary main_v10 main_v100 main_v101 ((fun x i => Host.gather gather_S100000_S3200000x1_S3200000_n_0_n_n_0_1_1 x i) : (⟨S100000, .f32⟩ : BufTy).Contents (Elt F) → (⟨S3200000x1, .i32⟩ : BufTy).Contents (Elt F) → (⟨S3200000, .f32⟩ : BufTy).Contents (Elt F)),
    StableHlo.binary main_v94 main_v101 main_v102 (mulf : (⟨S3200000, .f32⟩ : BufTy).Contents (Elt F) → (⟨S3200000, .f32⟩ : BufTy).Contents (Elt F) → (⟨S3200000, .f32⟩ : BufTy).Contents (Elt F)),
    StableHlo.nullary main_c_19 (constantI S_ 32 0#32),
    StableHlo.unary main_c_19 main_v103 (broadcastInDim S3200000 ![] bcast_S_S3200000 : (⟨S_, .i32⟩ : BufTy).Contents (Elt F) → (⟨S3200000, .i32⟩ : BufTy).Contents (Elt F)),
    StableHlo.binary main_v1 main_v103 main_v104 (cmpi .slt : (⟨S3200000, .i32⟩ : BufTy).Contents (Elt F) → (⟨S3200000, .i32⟩ : BufTy).Contents (Elt F) → (⟨S3200000, .i1⟩ : BufTy).Contents (Elt F)),
    StableHlo.nullary main_c_20 (constantI S_ 32 100000#32),
    StableHlo.unary main_c_20 main_v105 (broadcastInDim S3200000 ![] bcast_S_S3200000 : (⟨S_, .i32⟩ : BufTy).Contents (Elt F) → (⟨S3200000, .i32⟩ : BufTy).Contents (Elt F)),
    StableHlo.binary main_v1 main_v105 main_v106 (addi : (⟨S3200000, .i32⟩ : BufTy).Contents (Elt F) → (⟨S3200000, .i32⟩ : BufTy).Contents (Elt F) → (⟨S3200000, .i32⟩ : BufTy).Contents (Elt F)),
    StableHlo.ternary main_v104 main_v106 main_v1 main_v107 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v107 main_v108 (broadcastInDim S3200000x1 ![0] bcast_S3200000_S3200000x1_0 : (⟨S3200000, .i32⟩ : BufTy).Contents (Elt F) → (⟨S3200000x1, .i32⟩ : BufTy).Contents (Elt F)),
    StableHlo.binary main_v87 main_v108 main_v109 ((fun x i => Host.gather gather_S100000x32_S3200000x1_S3200000x32_1_0_n_n_0_1_132 x i) : (⟨S100000x32, .f32⟩ : BufTy).Contents (Elt F) → (⟨S3200000x1, .i32⟩ : BufTy).Contents (Elt F) → (⟨S3200000x32, .f32⟩ : BufTy).Contents (Elt F)),
    StableHlo.unary main_v102 main_v110 (broadcastInDim S3200000x1 ![0] bcast_S3200000_S3200000x1_0 : (⟨S3200000, .f32⟩ : BufTy).Contents (Elt F) → (⟨S3200000x1, .f32⟩ : BufTy).Contents (Elt F)),
    StableHlo.unary main_v110 main_v111 (broadcastInDim S3200000x32 ![0, 1] bcast_S3200000x1_S3200000x32_0_1 : (⟨S3200000x1, .f32⟩ : BufTy).Contents (Elt F) → (⟨S3200000x32, .f32⟩ : BufTy).Contents (Elt F)),
    StableHlo.binary main_v109 main_v111 main_v112 (mulf : (⟨S3200000x32, .f32⟩ : BufTy).Contents (Elt F) → (⟨S3200000x32, .f32⟩ : BufTy).Contents (Elt F) → (⟨S3200000x32, .f32⟩ : BufTy).Contents (Elt F)),
    StableHlo.nullary main_cst_21 (constant S_ .f32 0x00000000#32),
    StableHlo.unary main_cst_21 main_v113 (broadcastInDim S100000x32 ![] bcast_S_S100000x32 : (⟨S_, .f32⟩ : BufTy).Contents (Elt F) → (⟨S100000x32, .f32⟩ : BufTy).Contents (Elt F)),
    StableHlo.unary main_v3 main_v114 (broadcastInDim S3200000x1 ![0] bcast_S3200000_S3200000x1_0 : (⟨S3200000, .i32⟩ : BufTy).Contents (Elt F) → (⟨S3200000x1, .i32⟩ : BufTy).Contents (Elt F)),
    StableHlo.ternary main_v113 main_v114 main_v112 main_v115 ((fun x i u => Host.scatterAdd scatter_S100000x32_S3200000x1_S3200000x32_1_0_0_1 x i u) : (⟨S100000x32, .f32⟩ : BufTy).Contents (Elt F) → (⟨S3200000x1, .i32⟩ : BufTy).Contents (Elt F) → (⟨S3200000x32, .f32⟩ : BufTy).Contents (Elt F) → (⟨S100000x32, .f32⟩ : BufTy).Contents (Elt F)),
    StableHlo.binary main_v10 main_v10 main_v116 (mulf : (⟨S100000, .f32⟩ : BufTy).Contents (Elt F) → (⟨S100000, .f32⟩ : BufTy).Contents (Elt F) → (⟨S100000, .f32⟩ : BufTy).Contents (Elt F)),
    StableHlo.unary main_v116 main_v117 (broadcastInDim S100000x1 ![0] bcast_S100000_S100000x1_0 : (⟨S100000, .f32⟩ : BufTy).Contents (Elt F) → (⟨S100000x1, .f32⟩ : BufTy).Contents (Elt F)),
    StableHlo.unary main_v117 main_v118 (broadcastInDim S100000x32 ![0, 1] bcast_S100000x1_S100000x32_0_1 : (⟨S100000x1, .f32⟩ : BufTy).Contents (Elt F) → (⟨S100000x32, .f32⟩ : BufTy).Contents (Elt F)),
    StableHlo.binary main_v118 main_v87 main_v119 (mulf : (⟨S100000x32, .f32⟩ : BufTy).Contents (Elt F) → (⟨S100000x32, .f32⟩ : BufTy).Contents (Elt F) → (⟨S100000x32, .f32⟩ : BufTy).Contents (Elt F)),
    StableHlo.binary main_v115 main_v119 main_v120 (addf : (⟨S100000x32, .f32⟩ : BufTy).Contents (Elt F) → (⟨S100000x32, .f32⟩ : BufTy).Contents (Elt F) → (⟨S100000x32, .f32⟩ : BufTy).Contents (Elt F)),
    StableHlo.unary main_arg7 main_v121 (broadcastInDim S1x32 ![1] bcast_S32_S1x32_1 : (⟨S32, .f32⟩ : BufTy).Contents (Elt F) → (⟨S1x32, .f32⟩ : BufTy).Contents (Elt F)),
    StableHlo.unary main_v121 main_v122 (broadcastInDim S100000x32 ![0, 1] bcast_S1x32_S100000x32_0_1 : (⟨S1x32, .f32⟩ : BufTy).Contents (Elt F) → (⟨S100000x32, .f32⟩ : BufTy).Contents (Elt F)),
    StableHlo.binary main_v120 main_v122 main_v123 (addf : (⟨S100000x32, .f32⟩ : BufTy).Contents (Elt F) → (⟨S100000x32, .f32⟩ : BufTy).Contents (Elt F) → (⟨S100000x32, .f32⟩ : BufTy).Contents (Elt F)),
    StableHlo.TRef.nullary main_call2.cst (constant S_ .f32 0x00000000#32),
    StableHlo.TRef.unary main_call2.cst main_call2.v0 (broadcastInDim S100000x32 ![] bcast_S_S100000x32),
    StableHlo.TRef.binary (StableHlo.TRef.of main_v123 : StableHlo.TRef sig ⟨S100000x32, .f32⟩) main_call2.v0 main_call2.v1 (cmpf .ogt),
    StableHlo.TRef.nullary main_call2.cst_0 (constant S_ .f32 0x00000000#32),
    StableHlo.TRef.unary main_call2.cst_0 main_call2.v2 (broadcastInDim S100000x32 ![] bcast_S_S100000x32),
    StableHlo.TRef.binary (StableHlo.TRef.of main_v123 : StableHlo.TRef sig ⟨S100000x32, .f32⟩) main_call2.v2 main_call2.v3 (cmpf .ogt),
    StableHlo.TRef.nullary main_call2.cst_1 (constant S_ .f32 0x00000000#32),
    StableHlo.TRef.unary main_call2.cst_1 main_call2.call0.v0 id,
    StableHlo.TRef.unary main_call2.call0.v0 main_call2.call0.v1 (broadcastInDim S100000x32 ![] bcast_S_S100000x32),
    StableHlo.TRef.ternary main_call2.v3 main_call2.call0.v1 (StableHlo.TRef.of main_v123 : StableHlo.TRef sig ⟨S100000x32, .f32⟩) main_call2.call0.v2 select,
    StableHlo.TRef.unary main_call2.call0.v2 main_call2.v5 Host.expm1,
    StableHlo.TRef.nullary main_call2.cst_2 (constant S_ .f32 0x3F800000#32),
    StableHlo.TRef.unary main_call2.cst_2 main_call2.v6 (broadcastInDim S100000x32 ![] bcast_S_S100000x32),
    StableHlo.TRef.binary main_call2.v6 main_call2.v5 main_call2.v7 mulf,
    StableHlo.TRef.ternary main_call2.v1 (StableHlo.TRef.of main_v123 : StableHlo.TRef sig ⟨S100000x32, .f32⟩) main_call2.v7 main_call2.call1.v0 select,
    StableHlo.TRef.nullary main_call3.cst (constant S_ .f32 0xFF800000#32),
    StableHlo.TRef.binary (StableHlo.TRef.of main_v124 : StableHlo.TRef sig ⟨S100000x32, .f32⟩) main_call3.cst main_call3.v0 (fun x v => Host.reduce FloatOps.maximumf x v reducesTo_S100000x32_S100000_d1 h_S_),
    StableHlo.TRef.nullary main_call3.cst_0 (constant S_ .f32 0xFF800000#32),
    StableHlo.TRef.unary main_call3.cst_0 main_call3.v1 (broadcastInDim S100000 ![] bcast_S_S100000),
    StableHlo.TRef.binary main_call3.v1 main_call3.v0 main_call3.v2 maximumf,
    StableHlo.TRef.unary main_call3.v2 main_call3.v3 (broadcastInDim S100000x1 ![0] bcast_S100000_S100000x1_0),
    StableHlo.TRef.unary main_call3.v3 main_call3.v4 (broadcastInDim S100000x32 ![0, 1] bcast_S100000x1_S100000x32_0_1),
    StableHlo.TRef.binary (StableHlo.TRef.of main_v124 : StableHlo.TRef sig ⟨S100000x32, .f32⟩) main_call3.v4 main_call3.v5 subf,
    StableHlo.TRef.unary main_call3.v5 main_call3.v6 Host.exp,
    StableHlo.TRef.nullary main_call3.cst_1 (constant S_ .f32 0x00000000#32),
    StableHlo.TRef.binary main_call3.v6 main_call3.cst_1 main_call3.v7 (fun x v => Host.reduceAdd x v reducesTo_S100000x32_S100000_d1 h_S_),
    StableHlo.TRef.unary main_call3.v7 main_call3.v8 (broadcastInDim S100000x1 ![0] bcast_S100000_S100000x1_0),
    StableHlo.TRef.unary main_call3.v8 main_call3.v9 Host.log,
    StableHlo.TRef.unary main_call3.v9 main_call3.v10 (broadcastInDim S100000x32 ![0, 1] bcast_S100000x1_S100000x32_0_1),
    StableHlo.TRef.binary main_call3.v5 main_call3.v10 main_call3.v11 subf ]

/-- All of @main's operations, in order. -/
abbrev ops : List (HloOp τ sig (Elt F)) := pA ++ (pB ++ (pC ++ (pD ++ (pE ++ pG))))

set_option maxRecDepth 8192 in
theorem part0_eq (c : Dev nD) : main_part0 (F := F) c = seq (pA ++ (pB ++ pC)) := by
  simp only [main_part0, fn_elu.body, fn_where.body, fn_where_0.body, pA, pB, pC, List.cons_append, List.nil_append, seq, bind_assoc, pure_bind]
  rfl
set_option maxRecDepth 8192 in
theorem part1_eq (c : Dev nD) : main_part1 (F := F) c = seq (pD ++ pE) := by
  simp only [main_part1, fn_elu.body, fn_where.body, fn_where_0.body, pD, pE, List.cons_append, List.nil_append, seq, bind_assoc, pure_bind]
  rfl
set_option maxRecDepth 8192 in
theorem part2_eq (c : Dev nD) : main_part2 (F := F) c = seq pG := by
  simp only [main_part2, fn_elu_1.body, fn_where_2.body, fn_where_3.body, fn_log_softmax.body, pG, seq, bind_assoc, pure_bind]

theorem main_eq (c : Dev nD) : main (F := F) c = seq ops := by
  have e : (ops : List (HloOp τ sig (Elt F))) = (pA ++ (pB ++ pC)) ++ ((pD ++ pE) ++ pG) := by
    simp only [ops, List.append_assoc]
  rw [e, seq_append (pA ++ (pB ++ pC)) _, seq_append (pD ++ pE) pG, ← part0_eq c, ← part1_eq c, ← part2_eq c]
  rfl

theorem scopedRefs_eq : (Finset.univ.filter fun b : Ref sig .tc => b.isScoped) = ∅ := by decide
theorem scopedSems_eq : (Finset.univ.filter fun sm : SemLoc sig => sm.isScoped .tc) = ∅ := by decide

theorem pA_sub : (pA : List (HloOp τ sig (Elt F))).Forall fun op => op.bufs ⊆ tcRefs τ sig :=
  ⟨unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., binary_bufs_sub .., unary_bufs_sub ..⟩
theorem pB_sub : (pB : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩
theorem pC_sub : (pC : List (HloOp τ sig (Elt F))).Forall fun op => op.bufs ⊆ tcRefs τ sig :=
  binary_bufs_sub ..
theorem pD_sub : (pD : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩
theorem pE_sub : (pE : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub ..⟩
theorem pG_sub : (pG : List (HloOp τ sig (Elt F))).Forall fun op => op.bufs ⊆ tcRefs τ sig :=
  ⟨ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

theorem ops_sub : (ops : List (HloOp τ sig (Elt F))).Forall fun op => op.bufs ⊆ tcRefs τ sig := by
  simp only [ops, List.forall_append]
  exact ⟨pA_sub, pB_sub, pC_sub, pD_sub, pE_sub, pG_sub⟩

end Cert.ReferenceIdeal.HandRun

end
-- ==== Proof.RefReadA.lean ====
/-
  The first piece of the host program's operation list, from arbitrary contents `V`: it leaves the two rows of the edge list and deg^(-1/2) in their buffers and touches no argument.
-/
import proofs.«137336_j25134148616642_1_alg».proof.Proof.RefOps

set_option maxRecDepth 16384

noncomputable section

namespace Cert.ReferenceIdeal.HandRun

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F] [Cert.ReferenceIdeal.Facts]
variable (V : Valuation τ sig (Elt F))

-- the gathers, scatters and reductions are never opened here: only which buffer each operation writes matters
attribute [local irreducible] Host.gather Host.scatterAdd Host.reduce

/-! ## The first piece: the edge rows and deg^(-1/2) -/

theorem pA_v1 : after pA V (Proc.devRef .tc main_v1) = Cert.Gcn.src (V (Proc.devRef .tc main_arg1)) := by
  simp only [after_cons, after_nil]; rfl
theorem pA_v3 : after pA V (Proc.devRef .tc main_v3) = Cert.Gcn.dst (V (Proc.devRef .tc main_arg1)) := by
  simp only [after_cons, after_nil]; rfl
theorem pA_v10 : after pA V (Proc.devRef .tc main_v10) = Cert.Gcn.dis (Cert.Gcn.dst (V (Proc.devRef .tc main_arg1))) := by
  simp only [after_cons, after_nil]; rfl
theorem pA_arg0 : after pA V (Proc.devRef .tc main_arg0) = (V (Proc.devRef .tc main_arg0)) := by
  simp only [after_cons, after_nil]; rfl
theorem pA_arg1 : after pA V (Proc.devRef .tc main_arg1) = (V (Proc.devRef .tc main_arg1)) := by
  simp only [after_cons, after_nil]; rfl
theorem pA_arg2 : after pA V (Proc.devRef .tc main_arg2) = (V (Proc.devRef .tc main_arg2)) := by
  simp only [after_cons, after_nil]; rfl
theorem pA_arg3 : after pA V (Proc.devRef .tc main_arg3) = (V (Proc.devRef .tc main_arg3)) := by
  simp only [after_cons, after_nil]; rfl
theorem pA_arg4 : after pA V (Proc.devRef .tc main_arg4) = (V (Proc.devRef .tc main_arg4)) := by
  simp only [after_cons, after_nil]; rfl
theorem pA_arg5 : after pA V (Proc.devRef .tc main_arg5) = (V (Proc.devRef .tc main_arg5)) := by
  simp only [after_cons, after_nil]; rfl
theorem pA_arg6 : after pA V (Proc.devRef .tc main_arg6) = (V (Proc.devRef .tc main_arg6)) := by
  simp only [after_cons, after_nil]; rfl
theorem pA_arg7 : after pA V (Proc.devRef .tc main_arg7) = (V (Proc.devRef .tc main_arg7)) := by
  simp only [after_cons, after_nil]; rfl

end Cert.ReferenceIdeal.HandRun

end
-- ==== Proof.RefReadB.lean ====
/-
  The second piece of the host program's operation list, from arbitrary contents `V`: it leaves the first layer's output in its buffer and touches neither the edge rows, deg^(-1/2) nor any argument.
-/
import proofs.«137336_j25134148616642_1_alg».proof.Proof.RefOps

set_option maxRecDepth 16384

noncomputable section

namespace Cert.ReferenceIdeal.HandRun

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F] [Cert.ReferenceIdeal.Facts]
variable (V : Valuation τ sig (Elt F))

-- the gathers, scatters and reductions are never opened here: only which buffer each operation writes matters
attribute [local irreducible] Host.gather Host.scatterAdd Host.reduce

/-! ## The first layer -/

set_option maxHeartbeats 1000000 in
theorem pB_v48 : after pB V (Proc.devRef .tc main_v48) = Cert.Gcn.layer16 (V (Proc.devRef .tc main_v1)) (V (Proc.devRef .tc main_v3)) (V (Proc.devRef .tc main_v10)) (Cert.Gcn.mm1 (V (Proc.devRef .tc main_arg0)) (V (Proc.devRef .tc main_arg2))) (V (Proc.devRef .tc main_arg3)) := by
  simp only [after_cons, after_nil]; rfl
theorem pB_v1 : after pB V (Proc.devRef .tc main_v1) = (V (Proc.devRef .tc main_v1)) := by
  simp only [after_cons, after_nil]; rfl
theorem pB_v3 : after pB V (Proc.devRef .tc main_v3) = (V (Proc.devRef .tc main_v3)) := by
  simp only [after_cons, after_nil]; rfl
theorem pB_v10 : after pB V (Proc.devRef .tc main_v10) = (V (Proc.devRef .tc main_v10)) := by
  simp only [after_cons, after_nil]; rfl
theorem pB_arg0 : after pB V (Proc.devRef .tc main_arg0) = (V (Proc.devRef .tc main_arg0)) := by
  simp only [after_cons, after_nil]; rfl
theorem pB_arg1 : after pB V (Proc.devRef .tc main_arg1) = (V (Proc.devRef .tc main_arg1)) := by
  simp only [after_cons, after_nil]; rfl
theorem pB_arg2 : after pB V (Proc.devRef .tc main_arg2) = (V (Proc.devRef .tc main_arg2)) := by
  simp only [after_cons, after_nil]; rfl
theorem pB_arg3 : after pB V (Proc.devRef .tc main_arg3) = (V (Proc.devRef .tc main_arg3)) := by
  simp only [after_cons, after_nil]; rfl
theorem pB_arg4 : after pB V (Proc.devRef .tc main_arg4) = (V (Proc.devRef .tc main_arg4)) := by
  simp only [after_cons, after_nil]; rfl
theorem pB_arg5 : after pB V (Proc.devRef .tc main_arg5) = (V (Proc.devRef .tc main_arg5)) := by
  simp only [after_cons, after_nil]; rfl
theorem pB_arg6 : after pB V (Proc.devRef .tc main_arg6) = (V (Proc.devRef .tc main_arg6)) := by
  simp only [after_cons, after_nil]; rfl
theorem pB_arg7 : after pB V (Proc.devRef .tc main_arg7) = (V (Proc.devRef .tc main_arg7)) := by
  simp only [after_cons, after_nil]; rfl

end Cert.ReferenceIdeal.HandRun

end
-- ==== Proof.RefReadCD.lean ====
/-
  The third and fourth pieces of the host program's operation list, from arbitrary contents `V`: the second layer.
-/
import proofs.«137336_j25134148616642_1_alg».proof.Proof.RefOps

set_option maxRecDepth 16384

noncomputable section

namespace Cert.ReferenceIdeal.HandRun

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F] [Cert.ReferenceIdeal.Facts]
variable (V : Valuation τ sig (Elt F))

-- the gathers, scatters and reductions are never opened here: only which buffer each operation writes matters
attribute [local irreducible] Host.gather Host.scatterAdd Host.reduce

/-! ## The second layer -/

set_option maxHeartbeats 1000000 in
theorem pCD_v86 : after pD (after pC V) (Proc.devRef .tc main_v86) = Cert.Gcn.layer16 (V (Proc.devRef .tc main_v1)) (V (Proc.devRef .tc main_v3)) (V (Proc.devRef .tc main_v10)) (Cert.Gcn.mm2 (V (Proc.devRef .tc main_v48)) (V (Proc.devRef .tc main_arg4))) (V (Proc.devRef .tc main_arg5)) := by
  simp only [after_cons, after_nil]; rfl
theorem pCD_v1 : after pD (after pC V) (Proc.devRef .tc main_v1) = (V (Proc.devRef .tc main_v1)) := by
  simp only [after_cons, after_nil]; rfl
theorem pCD_v3 : after pD (after pC V) (Proc.devRef .tc main_v3) = (V (Proc.devRef .tc main_v3)) := by
  simp only [after_cons, after_nil]; rfl
theorem pCD_v10 : after pD (after pC V) (Proc.devRef .tc main_v10) = (V (Proc.devRef .tc main_v10)) := by
  simp only [after_cons, after_nil]; rfl
theorem pCD_arg0 : after pD (after pC V) (Proc.devRef .tc main_arg0) = (V (Proc.devRef .tc main_arg0)) := by
  simp only [after_cons, after_nil]; rfl
theorem pCD_arg1 : after pD (after pC V) (Proc.devRef .tc main_arg1) = (V (Proc.devRef .tc main_arg1)) := by
  simp only [after_cons, after_nil]; rfl
theorem pCD_arg2 : after pD (after pC V) (Proc.devRef .tc main_arg2) = (V (Proc.devRef .tc main_arg2)) := by
  simp only [after_cons, after_nil]; rfl
theorem pCD_arg3 : after pD (after pC V) (Proc.devRef .tc main_arg3) = (V (Proc.devRef .tc main_arg3)) := by
  simp only [after_cons, after_nil]; rfl
theorem pCD_arg4 : after pD (after pC V) (Proc.devRef .tc main_arg4) = (V (Proc.devRef .tc main_arg4)) := by
  simp only [after_cons, after_nil]; rfl
theorem pCD_arg5 : after pD (after pC V) (Proc.devRef .tc main_arg5) = (V (Proc.devRef .tc main_arg5)) := by
  simp only [after_cons, after_nil]; rfl
theorem pCD_arg6 : after pD (after pC V) (Proc.devRef .tc main_arg6) = (V (Proc.devRef .tc main_arg6)) := by
  simp only [after_cons, after_nil]; rfl
theorem pCD_arg7 : after pD (after pC V) (Proc.devRef .tc main_arg7) = (V (Proc.devRef .tc main_arg7)) := by
  simp only [after_cons, after_nil]; rfl

end Cert.ReferenceIdeal.HandRun

end
-- ==== Proof.RefReadEG.lean ====
/-
  The last two pieces of the host program's operation list, from arbitrary contents `V`: the last layer and the log-softmax. The last piece is cut once more — up to the sum plus bias, the elu, the log-softmax — so that each cut is read on its own.
-/
import proofs.«137336_j25134148616642_1_alg».proof.Proof.RefOps

set_option maxRecDepth 16384

noncomputable section

namespace Cert.ReferenceIdeal.HandRun

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F] [Cert.ReferenceIdeal.Facts]
variable (V : Valuation τ sig (Elt F))

-- the gathers, scatters, products and reductions are never opened here: only which buffer each operation writes matters
attribute [local irreducible] Host.gather Host.scatterAdd Host.reduce
attribute [local irreducible] Host.reduceAdd

/-! ## The last layer and the log-softmax -/

/-- The last piece up to the neighbour sum plus self-loop term plus bias. -/
abbrev pG1 : List (HloOp τ sig (Elt F)) :=
  [ StableHlo.ternary main_v96 main_v98 main_v3 main_v99 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v99 main_v100 (broadcastInDim S3200000x1 ![0] bcast_S3200000_S3200000x1_0 : (⟨S3200000, .i32⟩ : BufTy).Contents (Elt F) → (⟨S3200000x1, .i32⟩ : BufTy).Contents (Elt F)),
    StableHlo.binary main_v10 main_v100 main_v101 ((fun x i => Host.gather gather_S100000_S3200000x1_S3200000_n_0_n_n_0_1_1 x i) : (⟨S100000, .f32⟩ : BufTy).Contents (Elt F) → (⟨S3200000x1, .i32⟩ : BufTy).Contents (Elt F) → (⟨S3200000, .f32⟩ : BufTy).Contents (Elt F)),
    StableHlo.binary main_v94 main_v101 main_v102 (mulf : (⟨S3200000, .f32⟩ : BufTy).Contents (Elt F) → (⟨S3200000, .f32⟩ : BufTy).Contents (Elt F) → (⟨S3200000, .f32⟩ : BufTy).Contents (Elt F)),
    StableHlo.nullary main_c_19 (constantI S_ 32 0#32),
    StableHlo.unary main_c_19 main_v103 (broadcastInDim S3200000 ![] bcast_S_S3200000 : (⟨S_, .i32⟩ : BufTy).Contents (Elt F) → (⟨S3200000, .i32⟩ : BufTy).Contents (Elt F)),
    StableHlo.binary main_v1 main_v103 main_v104 (cmpi .slt : (⟨S3200000, .i32⟩ : BufTy).Contents (Elt F) → (⟨S3200000, .i32⟩ : BufTy).Contents (Elt F) → (⟨S3200000, .i1⟩ : BufTy).Contents (Elt F)),
    StableHlo.nullary main_c_20 (constantI S_ 32 100000#32),
    StableHlo.unary main_c_20 main_v105 (broadcastInDim S3200000 ![] bcast_S_S3200000 : (⟨S_, .i32⟩ : BufTy).Contents (Elt F) → (⟨S3200000, .i32⟩ : BufTy).Contents (Elt F)),
    StableHlo.binary main_v1 main_v105 main_v106 (addi : (⟨S3200000, .i32⟩ : BufTy).Contents (Elt F) → (⟨S3200000, .i32⟩ : BufTy).Contents (Elt F) → (⟨S3200000, .i32⟩ : BufTy).Contents (Elt F)),
    StableHlo.ternary main_v104 main_v106 main_v1 main_v107 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v107 main_v108 (broadcastInDim S3200000x1 ![0] bcast_S3200000_S3200000x1_0 : (⟨S3200000, .i32⟩ : BufTy).Contents (Elt F) → (⟨S3200000x1, .i32⟩ : BufTy).Contents (Elt F)),
    StableHlo.binary main_v87 main_v108 main_v109 ((fun x i => Host.gather gather_S100000x32_S3200000x1_S3200000x32_1_0_n_n_0_1_132 x i) : (⟨S100000x32, .f32⟩ : BufTy).Contents (Elt F) → (⟨S3200000x1, .i32⟩ : BufTy).Contents (Elt F) → (⟨S3200000x32, .f32⟩ : BufTy).Contents (Elt F)),
    StableHlo.unary main_v102 main_v110 (broadcastInDim S3200000x1 ![0] bcast_S3200000_S3200000x1_0 : (⟨S3200000, .f32⟩ : BufTy).Contents (Elt F) → (⟨S3200000x1, .f32⟩ : BufTy).Contents (Elt F)),
    StableHlo.unary main_v110 main_v111 (broadcastInDim S3200000x32 ![0, 1] bcast_S3200000x1_S3200000x32_0_1 : (⟨S3200000x1, .f32⟩ : BufTy).Contents (Elt F) → (⟨S3200000x32, .f32⟩ : BufTy).Contents (Elt F)),
    StableHlo.binary main_v109 main_v111 main_v112 (mulf : (⟨S3200000x32, .f32⟩ : BufTy).Contents (Elt F) → (⟨S3200000x32, .f32⟩ : BufTy).Contents (Elt F) → (⟨S3200000x32, .f32⟩ : BufTy).Contents (Elt F)),
    StableHlo.nullary main_cst_21 (constant S_ .f32 0x00000000#32),
    StableHlo.unary main_cst_21 main_v113 (broadcastInDim S100000x32 ![] bcast_S_S100000x32 : (⟨S_, .f32⟩ : BufTy).Contents (Elt F) → (⟨S100000x32, .f32⟩ : BufTy).Contents (Elt F)),
    StableHlo.unary main_v3 main_v114 (broadcastInDim S3200000x1 ![0] bcast_S3200000_S3200000x1_0 : (⟨S3200000, .i32⟩ : BufTy).Contents (Elt F) → (⟨S3200000x1, .i32⟩ : BufTy).Contents (Elt F)),
    StableHlo.ternary main_v113 main_v114 main_v112 main_v115 ((fun x i u => Host.scatterAdd scatter_S100000x32_S3200000x1_S3200000x32_1_0_0_1 x i u) : (⟨S100000x32, .f32⟩ : BufTy).Contents (Elt F) → (⟨S3200000x1, .i32⟩ : BufTy).Contents (Elt F) → (⟨S3200000x32, .f32⟩ : BufTy).Contents (Elt F) → (⟨S100000x32, .f32⟩ : BufTy).Contents (Elt F)),
    StableHlo.binary main_v10 main_v10 main_v116 (mulf : (⟨S100000, .f32⟩ : BufTy).Contents (Elt F) → (⟨S100000, .f32⟩ : BufTy).Contents (Elt F) → (⟨S100000, .f32⟩ : BufTy).Contents (Elt F)),
    StableHlo.unary main_v116 main_v117 (broadcastInDim S100000x1 ![0] bcast_S100000_S100000x1_0 : (⟨S100000, .f32⟩ : BufTy).Contents (Elt F) → (⟨S100000x1, .f32⟩ : BufTy).Contents (Elt F)),
    StableHlo.unary main_v117 main_v118 (broadcastInDim S100000x32 ![0, 1] bcast_S100000x1_S100000x32_0_1 : (⟨S100000x1, .f32⟩ : BufTy).Contents (Elt F) → (⟨S100000x32, .f32⟩ : BufTy).Contents (Elt F)),
    StableHlo.binary main_v118 main_v87 main_v119 (mulf : (⟨S100000x32, .f32⟩ : BufTy).Contents (Elt F) → (⟨S100000x32, .f32⟩ : BufTy).Contents (Elt F) → (⟨S100000x32, .f32⟩ : BufTy).Contents (Elt F)),
    StableHlo.binary main_v115 main_v119 main_v120 (addf : (⟨S100000x32, .f32⟩ : BufTy).Contents (Elt F) → (⟨S100000x32, .f32⟩ : BufTy).Contents (Elt F) → (⟨S100000x32, .f32⟩ : BufTy).Contents (Elt F)),
    StableHlo.unary main_arg7 main_v121 (broadcastInDim S1x32 ![1] bcast_S32_S1x32_1 : (⟨S32, .f32⟩ : BufTy).Contents (Elt F) → (⟨S1x32, .f32⟩ : BufTy).Contents (Elt F)),
    StableHlo.unary main_v121 main_v122 (broadcastInDim S100000x32 ![0, 1] bcast_S1x32_S100000x32_0_1 : (⟨S1x32, .f32⟩ : BufTy).Contents (Elt F) → (⟨S100000x32, .f32⟩ : BufTy).Contents (Elt F)),
    StableHlo.binary main_v120 main_v122 main_v123 (addf : (⟨S100000x32, .f32⟩ : BufTy).Contents (Elt F) → (⟨S100000x32, .f32⟩ : BufTy).Contents (Elt F) → (⟨S100000x32, .f32⟩ : BufTy).Contents (Elt F)) ]

/-- The elu's operations. -/
abbrev pG2 : List (HloOp τ sig (Elt F)) :=
  [ StableHlo.TRef.nullary main_call2.cst (constant S_ .f32 0x00000000#32),
    StableHlo.TRef.unary main_call2.cst main_call2.v0 (broadcastInDim S100000x32 ![] bcast_S_S100000x32),
    StableHlo.TRef.binary (StableHlo.TRef.of main_v123 : StableHlo.TRef sig ⟨S100000x32, .f32⟩) main_call2.v0 main_call2.v1 (cmpf .ogt),
    StableHlo.TRef.nullary main_call2.cst_0 (constant S_ .f32 0x00000000#32),
    StableHlo.TRef.unary main_call2.cst_0 main_call2.v2 (broadcastInDim S100000x32 ![] bcast_S_S100000x32),
    StableHlo.TRef.binary (StableHlo.TRef.of main_v123 : StableHlo.TRef sig ⟨S100000x32, .f32⟩) main_call2.v2 main_call2.v3 (cmpf .ogt),
    StableHlo.TRef.nullary main_call2.cst_1 (constant S_ .f32 0x00000000#32),
    StableHlo.TRef.unary main_call2.cst_1 main_call2.call0.v0 id,
    StableHlo.TRef.unary main_call2.call0.v0 main_call2.call0.v1 (broadcastInDim S100000x32 ![] bcast_S_S100000x32),
    StableHlo.TRef.ternary main_call2.v3 main_call2.call0.v1 (StableHlo.TRef.of main_v123 : StableHlo.TRef sig ⟨S100000x32, .f32⟩) main_call2.call0.v2 select,
    StableHlo.TRef.unary main_call2.call0.v2 main_call2.v5 Host.expm1,
    StableHlo.TRef.nullary main_call2.cst_2 (constant S_ .f32 0x3F800000#32),
    StableHlo.TRef.unary main_call2.cst_2 main_call2.v6 (broadcastInDim S100000x32 ![] bcast_S_S100000x32),
    StableHlo.TRef.binary main_call2.v6 main_call2.v5 main_call2.v7 mulf,
    StableHlo.TRef.ternary main_call2.v1 (StableHlo.TRef.of main_v123 : StableHlo.TRef sig ⟨S100000x32, .f32⟩) main_call2.v7 main_call2.call1.v0 select ]

/-- The log-softmax's operations. -/
abbrev pG3 : List (HloOp τ sig (Elt F)) :=
  [ StableHlo.TRef.nullary main_call3.cst (constant S_ .f32 0xFF800000#32),
    StableHlo.TRef.binary (StableHlo.TRef.of main_v124 : StableHlo.TRef sig ⟨S100000x32, .f32⟩) main_call3.cst main_call3.v0 (fun x v => Host.reduce FloatOps.maximumf x v reducesTo_S100000x32_S100000_d1 h_S_),
    StableHlo.TRef.nullary main_call3.cst_0 (constant S_ .f32 0xFF800000#32),
    StableHlo.TRef.unary main_call3.cst_0 main_call3.v1 (broadcastInDim S100000 ![] bcast_S_S100000),
    StableHlo.TRef.binary main_call3.v1 main_call3.v0 main_call3.v2 maximumf,
    StableHlo.TRef.unary main_call3.v2 main_call3.v3 (broadcastInDim S100000x1 ![0] bcast_S100000_S100000x1_0),
    StableHlo.TRef.unary main_call3.v3 main_call3.v4 (broadcastInDim S100000x32 ![0, 1] bcast_S100000x1_S100000x32_0_1),
    StableHlo.TRef.binary (StableHlo.TRef.of main_v124 : StableHlo.TRef sig ⟨S100000x32, .f32⟩) main_call3.v4 main_call3.v5 subf,
    StableHlo.TRef.unary main_call3.v5 main_call3.v6 Host.exp,
    StableHlo.TRef.nullary main_call3.cst_1 (constant S_ .f32 0x00000000#32),
    StableHlo.TRef.binary main_call3.v6 main_call3.cst_1 main_call3.v7 (fun x v => Host.reduceAdd x v reducesTo_S100000x32_S100000_d1 h_S_),
    StableHlo.TRef.unary main_call3.v7 main_call3.v8 (broadcastInDim S100000x1 ![0] bcast_S100000_S100000x1_0),
    StableHlo.TRef.unary main_call3.v8 main_call3.v9 Host.log,
    StableHlo.TRef.unary main_call3.v9 main_call3.v10 (broadcastInDim S100000x32 ![0, 1] bcast_S100000x1_S100000x32_0_1),
    StableHlo.TRef.binary main_call3.v5 main_call3.v10 main_call3.v11 subf ]

theorem pG_split : (pG : List (HloOp τ sig (Elt F))) = pG1 ++ (pG2 ++ pG3) := rfl

variable (W : Valuation τ sig (Elt F))

theorem pEG1_v123 : after pG1 (after pE V) (Proc.devRef .tc main_v123) = Cert.Gcn.pre32 (Cert.Gcn.agg32 (V (Proc.devRef .tc main_v1)) (V (Proc.devRef .tc main_v3)) (V (Proc.devRef .tc main_v10)) (Cert.Gcn.mm3 (V (Proc.devRef .tc main_v86)) (V (Proc.devRef .tc main_arg6)))) (mulf (V (Proc.devRef .tc main_v10)) (V (Proc.devRef .tc main_v10))) (Cert.Gcn.mm3 (V (Proc.devRef .tc main_v86)) (V (Proc.devRef .tc main_arg6))) (V (Proc.devRef .tc main_arg7)) := by
  simp only [after_cons, after_nil]; rfl
theorem pG2_v124 : after pG2 W (Proc.devRef .tc main_v124) = Cert.Gcn.elu32 (W (Proc.devRef .tc main_v123)) := by
  simp only [after_cons, after_nil]; rfl
/-- A typed reference's two transports are inverse. -/
theorem ofBuf_toBuf' {T : BufTy} (x : StableHlo.TRef sig T) (v : T.Contents (Elt F)) : x.ofBuf (x.toBuf v) = v := by
  obtain ⟨r, h, h2, h3⟩ := x
  subst h
  rfl

theorem pG3_v125 : after pG3 W (Proc.devRef .tc main_v125) = Cert.Gcn.lsm (W (Proc.devRef .tc main_v124)) := by
  unfold Cert.Gcn.lsm
  after_results
  simp only [ofBuf_toBuf']
  rfl

theorem pEG_v125 : after pG (after pE V) (Proc.devRef .tc main_v125) = Cert.Gcn.layer32 (V (Proc.devRef .tc main_v1)) (V (Proc.devRef .tc main_v3)) (V (Proc.devRef .tc main_v10)) (Cert.Gcn.mm3 (V (Proc.devRef .tc main_v86)) (V (Proc.devRef .tc main_arg6))) (V (Proc.devRef .tc main_arg7)) := by
  rw [pG_split, StableHlo.after_append, StableHlo.after_append, pG3_v125, pG2_v124, pEG1_v123]
  rfl
theorem pEG_arg0 : after pG (after pE V) (Proc.devRef .tc main_arg0) = (V (Proc.devRef .tc main_arg0)) := by
  simp only [after_cons, after_nil]; rfl
theorem pEG_arg1 : after pG (after pE V) (Proc.devRef .tc main_arg1) = (V (Proc.devRef .tc main_arg1)) := by
  simp only [after_cons, after_nil]; rfl
theorem pEG_arg2 : after pG (after pE V) (Proc.devRef .tc main_arg2) = (V (Proc.devRef .tc main_arg2)) := by
  simp only [after_cons, after_nil]; rfl
theorem pEG_arg3 : after pG (after pE V) (Proc.devRef .tc main_arg3) = (V (Proc.devRef .tc main_arg3)) := by
  simp only [after_cons, after_nil]; rfl
theorem pEG_arg4 : after pG (after pE V) (Proc.devRef .tc main_arg4) = (V (Proc.devRef .tc main_arg4)) := by
  simp only [after_cons, after_nil]; rfl
theorem pEG_arg5 : after pG (after pE V) (Proc.devRef .tc main_arg5) = (V (Proc.devRef .tc main_arg5)) := by
  simp only [after_cons, after_nil]; rfl
theorem pEG_arg6 : after pG (after pE V) (Proc.devRef .tc main_arg6) = (V (Proc.devRef .tc main_arg6)) := by
  simp only [after_cons, after_nil]; rfl
theorem pEG_arg7 : after pG (after pE V) (Proc.devRef .tc main_arg7) = (V (Proc.devRef .tc main_arg7)) := by
  simp only [after_cons, after_nil]; rfl

end Cert.ReferenceIdeal.HandRun

end
-- ==== Proof.RefRead.lean ====
/-
  The host program's run: the pieces composed. The result buffer after all the operations holds the network of Spec.lean at the argument arrays, no argument is touched, and every weakly fair execution terminates there.
-/
import proofs.«137336_j25134148616642_1_alg».proof.Proof.RefReadA
import proofs.«137336_j25134148616642_1_alg».proof.Proof.RefReadB
import proofs.«137336_j25134148616642_1_alg».proof.Proof.RefReadCD
import proofs.«137336_j25134148616642_1_alg».proof.Proof.RefReadEG

set_option maxRecDepth 16384

noncomputable section

namespace Cert.ReferenceIdeal.HandRun

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F] [Cert.ReferenceIdeal.Facts]
variable (V : Valuation τ sig (Elt F))

-- the gathers, scatters and reductions are never opened here: only which buffer each operation writes matters
attribute [local irreducible] Host.gather Host.scatterAdd Host.reduce

/-! ## The whole list -/

theorem ops_arg (b : Ref sig .tc) (hb : b ∈ [main_arg0, main_arg1, main_arg2, main_arg3, main_arg4, main_arg5, main_arg6, main_arg7]) :
    after ops V (Proc.devRef .tc b) = V (Proc.devRef .tc b) := by
  simp only [ops, StableHlo.after_append]
  simp only [List.mem_cons, List.not_mem_nil, or_false] at hb
  rcases hb with rfl | rfl | rfl | rfl | rfl | rfl | rfl | rfl
  · rw [pEG_arg0, pCD_arg0, pB_arg0, pA_arg0]
  · rw [pEG_arg1, pCD_arg1, pB_arg1, pA_arg1]
  · rw [pEG_arg2, pCD_arg2, pB_arg2, pA_arg2]
  · rw [pEG_arg3, pCD_arg3, pB_arg3, pA_arg3]
  · rw [pEG_arg4, pCD_arg4, pB_arg4, pA_arg4]
  · rw [pEG_arg5, pCD_arg5, pB_arg5, pA_arg5]
  · rw [pEG_arg6, pCD_arg6, pB_arg6, pA_arg6]
  · rw [pEG_arg7, pCD_arg7, pB_arg7, pA_arg7]

/-- The result buffer after all the operations: the network at the argument arrays. -/
theorem ops_out : after ops V (Proc.devRef .tc main_v125)
    = Cert.Gcn.net (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  simp only [ops, StableHlo.after_append]
  rw [pEG_v125, pCD_v1, pCD_v3, pCD_v10, pCD_v86, pCD_arg6, pCD_arg7, pB_v1, pB_v3, pB_v10, pB_v48, pB_arg4, pB_arg5, pB_arg6, pB_arg7,
    pA_v1, pA_v3, pA_v10, pA_arg0, pA_arg2, pA_arg3, pA_arg4, pA_arg5, pA_arg6, pA_arg7]
  rfl

theorem pA_fresh : (pA : List (HloOp τ sig (Elt F))).Forall fun op => op.fresh = ∅ := by simp only [List.Forall]; repeat' constructor
theorem pB_fresh : (pB : List (HloOp τ sig (Elt F))).Forall fun op => op.fresh = ∅ := by simp only [List.Forall]; repeat' constructor
theorem pC_fresh : (pC : List (HloOp τ sig (Elt F))).Forall fun op => op.fresh = ∅ := by simp only [List.Forall]; rfl
theorem pD_fresh : (pD : List (HloOp τ sig (Elt F))).Forall fun op => op.fresh = ∅ := by simp only [List.Forall]; repeat' constructor
theorem pE_fresh : (pE : List (HloOp τ sig (Elt F))).Forall fun op => op.fresh = ∅ := by simp only [List.Forall]; repeat' constructor
theorem pG_fresh : (pG : List (HloOp τ sig (Elt F))).Forall fun op => op.fresh = ∅ := by simp only [List.Forall]; repeat' constructor
/-- No operation allocates a buffer: each determines its result. -/
theorem ops_fresh : ∀ op ∈ (ops : List (HloOp τ sig (Elt F))), op.fresh = ∅ := by
  have h : (ops : List (HloOp τ sig (Elt F))).Forall fun op => op.fresh = ∅ := by
    simp only [ops, List.forall_append]
    exact ⟨pA_fresh, pB_fresh, pC_fresh, pD_fresh, pE_fresh, pG_fresh⟩
  exact List.forall_iff_forall_mem.mp h

/-- Every weakly fair execution of the host program terminates with the result buffer at the network of the argument
    arrays, the argument arrays unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v125) = Cert.Gcn.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v125).trans (ops_out (launchContents m c)),
      (h c main_arg0).trans (ops_arg (launchContents m c) main_arg0 (by simp)),
      (h c main_arg1).trans (ops_arg (launchContents m c) main_arg1 (by simp)),
      (h c main_arg2).trans (ops_arg (launchContents m c) main_arg2 (by simp)),
      (h c main_arg3).trans (ops_arg (launchContents m c) main_arg3 (by simp)),
      (h c main_arg4).trans (ops_arg (launchContents m c) main_arg4 (by simp)),
      (h c main_arg5).trans (ops_arg (launchContents m c) main_arg5 (by simp)),
      (h c main_arg6).trans (ops_arg (launchContents m c) main_arg6 (by simp)),
      (h c main_arg7).trans (ops_arg (launchContents m c) main_arg7 (by simp))⟩)
    (run_seq scopedRefs_eq scopedSems_eq defs main (fun _ => ops) main_eq (fun _ => ops_sub) m ρ (fun _ => ops_fresh))

end Cert.ReferenceIdeal.HandRun

end
-- ==== Proof.KRun.lean ====
/-
  The idealized kernel's run with its result named: every weakly fair execution of @main ends with the result buffer
  at the contents the last region's write-backs leave (the fold `Gen.W10` through the host stretches and the six
  regions), and the argument arrays as launched.
-/
import proofs.«137336_j25134148616642_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main over its ten segments, the last thread state read against the final memory: the result buffer
    holds the fold's contents, each argument its launch contents. -/
theorem run_value : θ_run defs (onTc (τ := τ) (main (F := F))) ⟨m, fun _ => 0, ρ⟩ (fun r => ∀ c : Dev nD,
      r.2.mem ((c.tc : Thread nD τ).loc main_v105) = W10 m ρ c (Proc.devRef .tc main_v105)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v105 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c)⟩)

end Cert.KernelIdeal.KRun

end
-- ==== Proof.KHost.lean ====
/-
  What each stretch of host operations of the idealized kernel's @main leaves, from arbitrary contents `W`, in the
  buffers the regions and later stretches read: the edge rows, deg^(-1/2) and its square as a column after the first
  stretch; a layer's neighbour sum and its bias as one row after each later stretch — the same operations the host
  program applies (Spec.lean) — and every other buffer needed later untouched.
-/
import proofs.«137336_j25134148616642_1_alg».proof.Proof.Gen.KernelIdeal.Launch
import proofs.«137336_j25134148616642_1_alg».proof.Proof.Gen.ReferenceIdeal
import proofs.«137336_j25134148616642_1_alg».proof.Proof.Spec
import Idealize.ShloMosaic.Lib.StableHlo.Run

set_option maxRecDepth 16384

noncomputable section

namespace Cert.KernelIdeal.KHost

open Cert.KernelIdeal Cert.KernelIdeal.Gen Cert.KernelIdeal.Facts₀ Cert.KernelIdeal.Facts Idealize.ShloMosaic Idealize.ShloMosaic.TcCoe Idealize.SL.Sem Idealize.ShloMosaic.StableHlo

variable {F : FTy → Type} [FloatOps F]
variable (W : Valuation τ sig (Elt F))

-- the gathers and scatters are never opened here: only which buffer each operation writes matters
attribute [local irreducible] Host.gather Host.scatterAdd

/-! ## `hostOps0` -/

theorem h0_v1 : after hostOps0 W (Proc.devRef .tc main_v1) = Cert.Gcn.src (W (Proc.devRef .tc main_arg1)) := by
  simp only [after_cons, after_nil]; rfl
theorem h0_v3 : after hostOps0 W (Proc.devRef .tc main_v3) = Cert.Gcn.dst (W (Proc.devRef .tc main_arg1)) := by
  simp only [after_cons, after_nil]; rfl
theorem h0_v10 : after hostOps0 W (Proc.devRef .tc main_v10) = Cert.Gcn.dis (Cert.Gcn.dst (W (Proc.devRef .tc main_arg1))) := by
  simp only [after_cons, after_nil]; rfl
theorem h0_v12 : after hostOps0 W (Proc.devRef .tc main_v12) = shapeCast S100000x1 (mulf (Cert.Gcn.dis (Cert.Gcn.dst (W (Proc.devRef .tc main_arg1)))) (Cert.Gcn.dis (Cert.Gcn.dst (W (Proc.devRef .tc main_arg1))))) Facts₀.shapeCasts_S100000_S100000x1 := by
  simp only [after_cons, after_nil]; rfl
theorem h0_arg0 : after hostOps0 W (Proc.devRef .tc main_arg0) = (W (Proc.devRef .tc main_arg0)) := by
  simp only [after_cons, after_nil]; rfl
theorem h0_arg2 : after hostOps0 W (Proc.devRef .tc main_arg2) = (W (Proc.devRef .tc main_arg2)) := by
  simp only [after_cons, after_nil]; rfl
theorem h0_arg3 : after hostOps0 W (Proc.devRef .tc main_arg3) = (W (Proc.devRef .tc main_arg3)) := by
  simp only [after_cons, after_nil]; rfl
theorem h0_arg4 : after hostOps0 W (Proc.devRef .tc main_arg4) = (W (Proc.devRef .tc main_arg4)) := by
  simp only [after_cons, after_nil]; rfl
theorem h0_arg5 : after hostOps0 W (Proc.devRef .tc main_arg5) = (W (Proc.devRef .tc main_arg5)) := by
  simp only [after_cons, after_nil]; rfl
theorem h0_arg6 : after hostOps0 W (Proc.devRef .tc main_arg6) = (W (Proc.devRef .tc main_arg6)) := by
  simp only [after_cons, after_nil]; rfl
theorem h0_arg7 : after hostOps0 W (Proc.devRef .tc main_arg7) = (W (Proc.devRef .tc main_arg7)) := by
  simp only [after_cons, after_nil]; rfl

/-! ## `hostOps1` -/

theorem h1_v41 : after hostOps1 W (Proc.devRef .tc main_v41) = Cert.Gcn.agg16 (W (Proc.devRef .tc main_v1)) (W (Proc.devRef .tc main_v3)) (W (Proc.devRef .tc main_v10)) (W (Proc.devRef .tc main_v13)) := by
  simp only [after_cons, after_nil]; rfl
theorem h1_v42 : after hostOps1 W (Proc.devRef .tc main_v42) = shapeCast S1x16 (W (Proc.devRef .tc main_arg3)) Facts₀.shapeCasts_S16_S1x16 := by
  simp only [after_cons, after_nil]; rfl
theorem h1_v1 : after hostOps1 W (Proc.devRef .tc main_v1) = (W (Proc.devRef .tc main_v1)) := by
  simp only [after_cons, after_nil]; rfl
theorem h1_v3 : after hostOps1 W (Proc.devRef .tc main_v3) = (W (Proc.devRef .tc main_v3)) := by
  simp only [after_cons, after_nil]; rfl
theorem h1_v10 : after hostOps1 W (Proc.devRef .tc main_v10) = (W (Proc.devRef .tc main_v10)) := by
  simp only [after_cons, after_nil]; rfl
theorem h1_v12 : after hostOps1 W (Proc.devRef .tc main_v12) = (W (Proc.devRef .tc main_v12)) := by
  simp only [after_cons, after_nil]; rfl
theorem h1_v13 : after hostOps1 W (Proc.devRef .tc main_v13) = (W (Proc.devRef .tc main_v13)) := by
  simp only [after_cons, after_nil]; rfl
theorem h1_arg4 : after hostOps1 W (Proc.devRef .tc main_arg4) = (W (Proc.devRef .tc main_arg4)) := by
  simp only [after_cons, after_nil]; rfl
theorem h1_arg5 : after hostOps1 W (Proc.devRef .tc main_arg5) = (W (Proc.devRef .tc main_arg5)) := by
  simp only [after_cons, after_nil]; rfl
theorem h1_arg6 : after hostOps1 W (Proc.devRef .tc main_arg6) = (W (Proc.devRef .tc main_arg6)) := by
  simp only [after_cons, after_nil]; rfl
theorem h1_arg7 : after hostOps1 W (Proc.devRef .tc main_arg7) = (W (Proc.devRef .tc main_arg7)) := by
  simp only [after_cons, after_nil]; rfl

/-! ## `hostOps3` -/

theorem h3_v72 : after hostOps3 W (Proc.devRef .tc main_v72) = Cert.Gcn.agg16 (W (Proc.devRef .tc main_v1)) (W (Proc.devRef .tc main_v3)) (W (Proc.devRef .tc main_v10)) (W (Proc.devRef .tc main_v44)) := by
  simp only [after_cons, after_nil]; rfl
theorem h3_v73 : after hostOps3 W (Proc.devRef .tc main_v73) = shapeCast S1x16 (W (Proc.devRef .tc main_arg5)) Facts₀.shapeCasts_S16_S1x16 := by
  simp only [after_cons, after_nil]; rfl
theorem h3_v1 : after hostOps3 W (Proc.devRef .tc main_v1) = (W (Proc.devRef .tc main_v1)) := by
  simp only [after_cons, after_nil]; rfl
theorem h3_v3 : after hostOps3 W (Proc.devRef .tc main_v3) = (W (Proc.devRef .tc main_v3)) := by
  simp only [after_cons, after_nil]; rfl
theorem h3_v10 : after hostOps3 W (Proc.devRef .tc main_v10) = (W (Proc.devRef .tc main_v10)) := by
  simp only [after_cons, after_nil]; rfl
theorem h3_v12 : after hostOps3 W (Proc.devRef .tc main_v12) = (W (Proc.devRef .tc main_v12)) := by
  simp only [after_cons, after_nil]; rfl
theorem h3_v44 : after hostOps3 W (Proc.devRef .tc main_v44) = (W (Proc.devRef .tc main_v44)) := by
  simp only [after_cons, after_nil]; rfl
theorem h3_arg6 : after hostOps3 W (Proc.devRef .tc main_arg6) = (W (Proc.devRef .tc main_arg6)) := by
  simp only [after_cons, after_nil]; rfl
theorem h3_arg7 : after hostOps3 W (Proc.devRef .tc main_arg7) = (W (Proc.devRef .tc main_arg7)) := by
  simp only [after_cons, after_nil]; rfl

/-! ## `hostOps5` -/

theorem h5_v103 : after hostOps5 W (Proc.devRef .tc main_v103) = Cert.Gcn.agg32 (W (Proc.devRef .tc main_v1)) (W (Proc.devRef .tc main_v3)) (W (Proc.devRef .tc main_v10)) (W (Proc.devRef .tc main_v75)) := by
  simp only [after_cons, after_nil]; rfl
theorem h5_v104 : after hostOps5 W (Proc.devRef .tc main_v104) = shapeCast S1x32 (W (Proc.devRef .tc main_arg7)) Facts₀.shapeCasts_S32_S1x32 := by
  simp only [after_cons, after_nil]; rfl
theorem h5_v12 : after hostOps5 W (Proc.devRef .tc main_v12) = (W (Proc.devRef .tc main_v12)) := by
  simp only [after_cons, after_nil]; rfl
theorem h5_v75 : after hostOps5 W (Proc.devRef .tc main_v75) = (W (Proc.devRef .tc main_v75)) := by
  simp only [after_cons, after_nil]; rfl

end Cert.KernelIdeal.KHost

end
-- ==== Proof.LibPlainDot.lean ====
/-
  A plain matrix product read at an index.

  For the dimension numbers of an [M, K] by [K, N] product with no batch axis (`DotDims.plain`), the contraction index
  is one coordinate `k : Fin K`, the left operand is read at (r, k) and the right one at (k, q). So at the exact
  (extended-real) values both the matrix unit's product into a zero accumulator and the host's `dot_general` are, at
  output index (r, q), the plain sum over `k` of `lhs (r, k) * rhs (k, q)`.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable {φ₁ φ₂ : FTy}

/-- The contraction shape of a plain product has one axis … -/
theorem contr_rank (M K N : Nat) : (DotDims.plain M K N).contr.rank = 1 := rfl
/-- … of extent `K`. -/
theorem contr_size (M K N : Nat) : (DotDims.plain M K N).contr.size ⟨0, by rw [contr_rank]; exact Nat.one_pos⟩ = K := rfl

/-- The contraction index of a plain product as its one coordinate. -/
abbrev kEquiv (M K N : Nat) : (DotDims.plain M K N).contr.Idx ≃ Fin K :=
  contrEquiv1 (DotDims.plain M K N) K (contr_rank M K N) (contr_size M K N)

/-- The left operand's index at output (r, q) and contraction coordinate k is (r, k). -/
theorem lhsIdx_eq {M K N : Nat} (r : Fin M) (q : Fin N) (k : Fin K) :
    (DotDims.plain M K N).lhsIdx (ix2 r q) ((kEquiv M K N).symm k) = ix2 r k := by
  have hk := contrEquiv1_symm_val (DotDims.plain M K N) K (contr_rank M K N) (contr_size M K N) k
  funext a
  refine Fin.ext ?_
  match a with
  | ⟨0, _⟩ => rfl
  | ⟨1, _⟩ => exact ((DotDims.plain M K N).lhsIdx_val_of_single rfl (ix2 r q) _).trans hk

/-- The right operand's index at output (r, q) and contraction coordinate k is (k, q). -/
theorem rhsIdx_eq {M K N : Nat} (r : Fin M) (q : Fin N) (k : Fin K) :
    (DotDims.plain M K N).rhsIdx (ix2 r q) ((kEquiv M K N).symm k) = ix2 k q := by
  have hk := contrEquiv1_symm_val (DotDims.plain M K N) K (contr_rank M K N) (contr_size M K N) k
  funext a
  refine Fin.ext ?_
  match a with
  | ⟨0, _⟩ => exact ((DotDims.plain M K N).rhsIdx_val_of_single rfl (ix2 r q) _).trans hk
  | ⟨1, _⟩ => rfl

/-- The matrix unit's product into a zero accumulator, at (r, q): the sum over k of lhs (r, k) * rhs (k, q). -/
theorem matmul_zero_apply {M K N : Nat} (prec : Option ContractPrecision)
    (lhs : FVec Ideal ⟨2, ![M, K]⟩ φ₁) (rhs : FVec Ideal ⟨2, ![K, N]⟩ φ₂) (r : Fin M) (q : Fin N) :
    FloatOps.matmul (DotDims.plain M K N) prec lhs rhs (constant ⟨2, ![M, N]⟩ .f32 0x00000000#32) (ix2 r q)
      = ∑ k : Fin K, lhs (ix2 r k) * rhs (ix2 k q) := by
  rw [Ideal.matmul_constant_zero_apply, ← Equiv.sum_comp (kEquiv M K N).symm]
  exact Finset.sum_congr rfl fun k _ => by rw [lhsIdx_eq, rhsIdx_eq]

/-- The host's `dot_general` of the same dimension numbers, at (r, q): the same sum. -/
theorem dotGeneral_apply {M K N : Nat} (prec : Option ContractPrecision) (sched : HostSchedule)
    (lhs : FVec Ideal ⟨2, ![M, K]⟩ φ₁) (rhs : FVec Ideal ⟨2, ![K, N]⟩ φ₂) (r : Fin M) (q : Fin N) :
    FloatOps.dotGeneral (DotDims.plain M K N) prec sched lhs rhs (ix2 r q)
      = ∑ k : Fin K, lhs (ix2 r k) * rhs (ix2 k q) := by
  rw [Ideal.dotGeneral_apply, ← Equiv.sum_comp (kEquiv M K N).symm]
  exact Finset.sum_congr rfl fun k _ => by rw [lhsIdx_eq, rhsIdx_eq]

end Idealize.ShloMosaic.PlainDot

end
-- ==== Proof.RegionDot0.lean ====
/-
  Region 0: the product of the node features with the first weight matrix, tile by tile.

  The region runs over 20 row tiles of 5000 rows. At tile t the body reads rows 5000 t … 5000 t + 4999 of the left
  array and the whole right array, and stores their matrix product into rows 5000 t … 5000 t + 4999 of the output.
  At the exact values the roundings of the operands are the identity and the product into a zero accumulator is, at
  (r, q), the plain sum over k of x (r, k) * w (k, q). The whole-array product is the same sum at every index, and the
  20 tiles cover the output, so the output array ends holding the whole-array product.
-/
import proofs.«137336_j25134148616642_1_alg».proof.Proof.Gen.KernelIdeal.Frame
import proofs.«137336_j25134148616642_1_alg».proof.Proof.Gen.KernelIdeal.Points
import proofs.«137336_j25134148616642_1_alg».proof.Proof.Gen.ReferenceIdeal
import proofs.«137336_j25134148616642_1_alg».proof.Proof.Spec
import proofs.«137336_j25134148616642_1_alg».proof.Proof.LibPlainDot
import Idealize.ShloMosaic.Lib.Pipeline.Value
import Idealize.ShloMosaic.Lib.ValueIdx

noncomputable section
namespace Cert.KernelIdeal.Regions
open Cert.KernelIdeal Idealize.ShloMosaic Idealize.ShloMosaic.TcCoe Idealize.SL.Sem Cert.KernelIdeal.Facts₀ Cert.KernelIdeal.Facts
open Idealize.ShloMosaic.Pipeline (Dat)
open Idealize.ShloMosaic.ValueIdx

/-- The zero offset of a whole-buffer access. -/
theorem hz0 : (![0, 0] : Fin 2 → Nat) = fun _ => 0 := funext fun a => by fin_cases a <;> rfl

/-- The printed dimension numbers of the block product and of the whole-array product are the plain [M, K] by [K, N] ones. -/
theorem dims0_k : dot_S5000x256_S256x16_S5000x16_1_0_0_1_n_n = DotDims.plain 5000 256 16 := rfl
theorem dims0_h : Cert.ReferenceIdeal.dot_S100000x256_S256x16_S100000x16_1_0_0_1_n_n = DotDims.plain 100000 256 16 := rfl

/-- The body's payload at (r, q): the plain sum over k of x0 (r, k) * x1 (k, q) (the roundings to bf16 are the identity
    at the exact values, the accumulator is zero). -/
theorem pay0_apply (x0 : Vec Ideal S5000x256 .f32) (x1 : Vec Ideal S256x16 .f32) (r : Fin 5000) (q : Fin 16) :
    Gen.k0_pay1 (F := Ideal) x0 x1 (ix2 r q) = ∑ k : Fin 256, x0 (ix2 r k) * x1 (ix2 k q) := by
  unfold Gen.k0_pay1
  rw [dims0_k]
  exact PlainDot.matmul_zero_apply none _ _ r q

/-- The whole-array product at (r, q): the same sum. -/
theorem mm1_apply (x : FVec Ideal S100000x256 .f32) (w : FVec Ideal S256x16 .f32) (r : Fin 100000) (q : Fin 16) :
    Cert.Gcn.mm1 (F := Ideal) x w (ix2 r q) = ∑ k : Fin 256, x (ix2 r k) * w (ix2 k q) := by
  unfold Cert.Gcn.mm1
  rw [dims0_h]
  exact PlainDot.dotGeneral_apply none _ _ _ r q

/-- The printed index maps over the grid: the row-tiled windows are at block (t, 0), the weight window at block (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

section
variable (V : (c : Dev nD) → (b : Ref sig .tc) → Buf (Elt Ideal) ((c : Thread nD τ).loc b)) (c : Dev nD) (t : Fin cfg0.N)

/-- The left window's block at point t is rows 5000 t … 5000 t + 4999 of its array. -/
theorem iblk0_0_apply (r : Fin 5000) (k : Fin 256) (R : Fin 100000) (hR : R.val = 5000 * t.val + r.val) :
    (Gen.iblk0 (F := Ideal) V c 0 t : Vec Ideal S5000x256 .f32) (ix2 r k) = (V c main_arg0 : S100000x256.Idx → Elt Ideal .f32) (ix2 R k) := by
  obtain ⟨e0, e1, e2, e3, e4, e5⟩ := idx_facts0 t
  unfold Gen.iblk0
  rw [View.read_apply]
  show V c main_arg0 _ = V c main_arg0 _
  congr 1
  funext a
  apply Fin.ext
  match a with
  | ⟨0, _⟩ => show win0_0.index t (0 : Fin 2) * 5000 + 1 * r.val = R.val; rw [e0, hR]; omega
  | ⟨1, _⟩ => show win0_0.index t (1 : Fin 2) * 256 + 1 * k.val = k.val; rw [e1]; omega

/-- The right window's block at every point is its whole array. -/
theorem iblk0_1_apply (k : Fin 256) (q : Fin 16) :
    (Gen.iblk0 (F := Ideal) V c 1 t : Vec Ideal S256x16 .f32) (ix2 k q) = (V c main_arg2 : S256x16.Idx → Elt Ideal .f32) (ix2 k q) := by
  obtain ⟨e0, e1, e2, e3, e4, e5⟩ := idx_facts0 t
  unfold Gen.iblk0
  rw [View.read_apply]
  show V c main_arg2 _ = V c main_arg2 _
  congr 1
  funext a
  apply Fin.ext
  match a with
  | ⟨0, _⟩ => show win0_1.index t (0 : Fin 2) * 256 + 1 * k.val = k.val; rw [e2]; omega
  | ⟨1, _⟩ => show win0_1.index t (1 : Fin 2) * 16 + 1 * q.val = q.val; rw [e3]; omega

/-- Element (r, q) of the output window's block at point t is element (5000 t + r, q) of its array. -/
theorem emb0_2 (r : Fin 5000) (q : Fin 16) (R : Fin 100000) (hR : R.val = 5000 * t.val + r.val) :
    ((cfg0.win 2).blk t).view.emb (ix2 r q) = (ix2 R q : S100000x16.Idx) := by
  obtain ⟨e0, e1, e2, e3, e4, e5⟩ := idx_facts0 t
  funext a
  apply Fin.ext
  match a with
  | ⟨0, _⟩ => show win0_2.index t (0 : Fin 2) * 5000 + 1 * r.val = R.val; rw [e4, hR]; omega
  | ⟨1, _⟩ => show win0_2.index t (1 : Fin 2) * 16 + 1 * q.val = q.val; rw [e5]; omega

/-- WHAT POINT t WRITES BACK is block t of the whole-array product of the arrays the region finds. -/
theorem flushed0_eq :
    (Gen.dat0 (F := Ideal) V c).flushed 2 t = ((cfg0.win 2).blk t).view.read (Elt Ideal) (Cert.Gcn.mm1 (F := Ideal) (V c main_arg0) (V c main_arg2)) := by
  show (cfg0.win 2).cut (grid0.coords t) ((Gen.dat0 (F := Ideal) V c).after 2 t) = _
  rw [Gen.after0_2]
  unfold Gen.out0_2
  rw [View.canon_unit_zero hz0]
  simp only [View.ld_unit_zero (S := S5000x256) hz0, View.ld_unit_zero (S := S256x16) hz0]
  funext j
  obtain ⟨r, q, rfl⟩ : ∃ (r : Fin 5000) (q : Fin 16), j = ix2 r q := ⟨j 0, j 1, eq_ix2 (n0 := 5000) (n1 := 16) j⟩
  have ht : t.val < 20 := lt_of_lt_of_eq t.isLt Gen.N_0
  have hr : r.val < 5000 := r.isLt
  show Gen.k0_pay1 (F := Ideal) (Gen.iblk0 V c 0 t) (Gen.iblk0 V c 1 t) (ix2 r q)
    = Cert.Gcn.mm1 (F := Ideal) (V c main_arg0) (V c main_arg2) (((cfg0.win 2).blk t).view.emb (ix2 r q))
  rw [emb0_2 t r q ⟨5000 * t.val + r.val, by omega⟩ rfl, mm1_apply, pay0_apply]
  refine Finset.sum_congr rfl fun k _ => ?_
  rw [iblk0_0_apply V c t r k ⟨5000 * t.val + r.val, by omega⟩ rfl, iblk0_1_apply V c t k q]

end

/-- Every row of the output array is in the block of the point its tile belongs to. -/
theorem cover0 (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  have hN : cfg0.N = 20 := Gen.N_0
  obtain ⟨t, ht⟩ : ∃ t : Fin cfg0.N, t.val = (i 0).val / 5000 := ⟨⟨(i 0).val / 5000, by rw [hN]; omega⟩, rfl⟩
  obtain ⟨e0, e1, e2, e3, e4, e5⟩ := idx_facts0 t
  refine ⟨t, Gen.flush0_2 t, ?_⟩
  show i ∈ ((View.whole main_v13).slice (win0_2.rect t)).set
  rw [View.set_slice_whole, Rect.mem_set_unit]
  intro a
  match a with
  | ⟨0, _⟩ => show win0_2.index t (0 : Fin 2) * 5000 ≤ (i 0).val ∧ (i 0).val < win0_2.index t (0 : Fin 2) * 5000 + 5000; rw [e4, ht]; omega
  | ⟨1, _⟩ => show win0_2.index t (1 : Fin 2) * 16 ≤ (i 1).val ∧ (i 1).val < win0_2.index t (1 : Fin 2) * 16 + 16; rw [e5]; omega

/-- THE OUTPUT ARRAY after region 0: the product of the node features with the first weight matrix. -/
theorem dot0 (V : (c : Dev nD) → (b : Ref sig .tc) → Buf (Elt Ideal) ((c : Thread nD τ).loc b)) (c : Dev nD) :
    (Gen.dat0 (F := Ideal) V c).arrAt 2 cfg0.N = Cert.Gcn.mm1 (F := Ideal) (V c main_arg0) (V c main_arg2) :=
  (Gen.dat0 (F := Ideal) V c).arrAt_eq_of_cover 2 (Cert.Gcn.mm1 (F := Ideal) (V c main_arg0) (V c main_arg2))
    (fun t _ => flushed0_eq V c t) cover0

end Cert.KernelIdeal.Regions
end
-- ==== Proof.RegionDot2.lean ====
/-
  Region 2: the product of the first layer's output with the second weight matrix, tile by tile.

  The region runs over 20 row tiles of 5000 rows. At tile t the body reads rows 5000 t … 5000 t + 4999 of the left
  array and the whole right array, and stores their matrix product into rows 5000 t … 5000 t + 4999 of the output.
  At the exact values the roundings of the operands are the identity and the product into a zero accumulator is, at
  (r, q), the plain sum over k of x (r, k) * w (k, q). The whole-array product is the same sum at every index, and the
  20 tiles cover the output, so the output array ends holding the whole-array product.
-/
import proofs.«137336_j25134148616642_1_alg».proof.Proof.Gen.KernelIdeal.Frame
import proofs.«137336_j25134148616642_1_alg».proof.Proof.Gen.KernelIdeal.Points
import proofs.«137336_j25134148616642_1_alg».proof.Proof.Gen.ReferenceIdeal
import proofs.«137336_j25134148616642_1_alg».proof.Proof.Spec
import proofs.«137336_j25134148616642_1_alg».proof.Proof.LibPlainDot
import Idealize.ShloMosaic.Lib.Pipeline.Value
import Idealize.ShloMosaic.Lib.ValueIdx

noncomputable section
namespace Cert.KernelIdeal.Regions
open Cert.KernelIdeal Idealize.ShloMosaic Idealize.ShloMosaic.TcCoe Idealize.SL.Sem Cert.KernelIdeal.Facts₀ Cert.KernelIdeal.Facts
open Idealize.ShloMosaic.Pipeline (Dat)
open Idealize.ShloMosaic.ValueIdx

/-- The zero offset of a whole-buffer access. -/
theorem hz2 : (![0, 0] : Fin 2 → Nat) = fun _ => 0 := funext fun a => by fin_cases a <;> rfl

/-- The printed dimension numbers of the block product and of the whole-array product are the plain [M, K] by [K, N] ones. -/
theorem dims2_k : dot_S5000x16_S16x16_S5000x16_1_0_0_1_n_n = DotDims.plain 5000 16 16 := rfl
theorem dims2_h : Cert.ReferenceIdeal.dot_S100000x16_S16x16_S100000x16_1_0_0_1_n_n = DotDims.plain 100000 16 16 := rfl

/-- The body's payload at (r, q): the plain sum over k of x0 (r, k) * x1 (k, q) (the cast to the same shape and the roundings to bf16 are
    the identity at the exact values, the accumulator is zero). -/
theorem pay2_apply (x0 : Vec Ideal S5000x16 .f32) (x1 : Vec Ideal S16x16 .f32) (r : Fin 5000) (q : Fin 16) :
    Gen.k2_pay1 (F := Ideal) x0 x1 (ix2 r q) = ∑ k : Fin 16, x0 (ix2 r k) * x1 (ix2 k q) := by
  unfold Gen.k2_pay1
  rw [dims2_k, shapeCast_self]
  exact PlainDot.matmul_zero_apply none _ _ r q

/-- The whole-array product at (r, q): the same sum. -/
theorem mm2_apply (x : FVec Ideal S100000x16 .f32) (w : FVec Ideal S16x16 .f32) (r : Fin 100000) (q : Fin 16) :
    Cert.Gcn.mm2 (F := Ideal) x w (ix2 r q) = ∑ k : Fin 16, x (ix2 r k) * w (ix2 k q) := by
  unfold Cert.Gcn.mm2
  rw [dims2_h]
  exact PlainDot.dotGeneral_apply none _ _ _ r q

/-- The printed index maps over the grid: the row-tiled windows are at block (t, 0), the weight window at block (0, 0). -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

section
variable (V : (c : Dev nD) → (b : Ref sig .tc) → Buf (Elt Ideal) ((c : Thread nD τ).loc b)) (c : Dev nD) (t : Fin cfg2.N)

/-- The left window's block at point t is rows 5000 t … 5000 t + 4999 of its array. -/
theorem iblk2_0_apply (r : Fin 5000) (k : Fin 16) (R : Fin 100000) (hR : R.val = 5000 * t.val + r.val) :
    (Gen.iblk2 (F := Ideal) V c 0 t : Vec Ideal S5000x16 .f32) (ix2 r k) = (V c main_v43 : S100000x16.Idx → Elt Ideal .f32) (ix2 R k) := by
  obtain ⟨e0, e1, e2, e3, e4, e5⟩ := idx_facts2 t
  unfold Gen.iblk2
  rw [View.read_apply]
  show V c main_v43 _ = V c main_v43 _
  congr 1
  funext a
  apply Fin.ext
  match a with
  | ⟨0, _⟩ => show win2_0.index t (0 : Fin 2) * 5000 + 1 * r.val = R.val; rw [e0, hR]; omega
  | ⟨1, _⟩ => show win2_0.index t (1 : Fin 2) * 16 + 1 * k.val = k.val; rw [e1]; omega

/-- The right window's block at every point is its whole array. -/
theorem iblk2_1_apply (k : Fin 16) (q : Fin 16) :
    (Gen.iblk2 (F := Ideal) V c 1 t : Vec Ideal S16x16 .f32) (ix2 k q) = (V c main_arg4 : S16x16.Idx → Elt Ideal .f32) (ix2 k q) := by
  obtain ⟨e0, e1, e2, e3, e4, e5⟩ := idx_facts2 t
  unfold Gen.iblk2
  rw [View.read_apply]
  show V c main_arg4 _ = V c main_arg4 _
  congr 1
  funext a
  apply Fin.ext
  match a with
  | ⟨0, _⟩ => show win2_1.index t (0 : Fin 2) * 16 + 1 * k.val = k.val; rw [e2]; omega
  | ⟨1, _⟩ => show win2_1.index t (1 : Fin 2) * 16 + 1 * q.val = q.val; rw [e3]; omega

/-- Element (r, q) of the output window's block at point t is element (5000 t + r, q) of its array. -/
theorem emb2_2 (r : Fin 5000) (q : Fin 16) (R : Fin 100000) (hR : R.val = 5000 * t.val + r.val) :
    ((cfg2.win 2).blk t).view.emb (ix2 r q) = (ix2 R q : S100000x16.Idx) := by
  obtain ⟨e0, e1, e2, e3, e4, e5⟩ := idx_facts2 t
  funext a
  apply Fin.ext
  match a with
  | ⟨0, _⟩ => show win2_2.index t (0 : Fin 2) * 5000 + 1 * r.val = R.val; rw [e4, hR]; omega
  | ⟨1, _⟩ => show win2_2.index t (1 : Fin 2) * 16 + 1 * q.val = q.val; rw [e5]; omega

/-- WHAT POINT t WRITES BACK is block t of the whole-array product of the arrays the region finds. -/
theorem flushed2_eq :
    (Gen.dat2 (F := Ideal) V c).flushed 2 t = ((cfg2.win 2).blk t).view.read (Elt Ideal) (Cert.Gcn.mm2 (F := Ideal) (V c main_v43) (V c main_arg4)) := by
  show (cfg2.win 2).cut (grid2.coords t) ((Gen.dat2 (F := Ideal) V c).after 2 t) = _
  rw [Gen.after2_2]
  unfold Gen.out2_2
  rw [View.canon_unit_zero hz2]
  simp only [View.ld_unit_zero (S := S5000x16) hz2, View.ld_unit_zero (S := S16x16) hz2]
  funext j
  obtain ⟨r, q, rfl⟩ : ∃ (r : Fin 5000) (q : Fin 16), j = ix2 r q := ⟨j 0, j 1, eq_ix2 (n0 := 5000) (n1 := 16) j⟩
  have ht : t.val < 20 := lt_of_lt_of_eq t.isLt Gen.N_2
  have hr : r.val < 5000 := r.isLt
  show Gen.k2_pay1 (F := Ideal) (Gen.iblk2 V c 0 t) (Gen.iblk2 V c 1 t) (ix2 r q)
    = Cert.Gcn.mm2 (F := Ideal) (V c main_v43) (V c main_arg4) (((cfg2.win 2).blk t).view.emb (ix2 r q))
  rw [emb2_2 t r q ⟨5000 * t.val + r.val, by omega⟩ rfl, mm2_apply, pay2_apply]
  refine Finset.sum_congr rfl fun k _ => ?_
  rw [iblk2_0_apply V c t r k ⟨5000 * t.val + r.val, by omega⟩ rfl, iblk2_1_apply V c t k q]

end

/-- Every row of the output array is in the block of the point its tile belongs to. -/
theorem cover2 (i : S100000x16.Idx) :
    ∃ t : Fin cfg2.N, (cfg2.win 2).flush t = true ∧ i ∈ ((cfg2.win 2).blk t).view.set := by
  have hi0 : (i 0).val < 100000 := (i 0).isLt
  have hi1 : (i 1).val < 16 := (i 1).isLt
  have hN : cfg2.N = 20 := Gen.N_2
  obtain ⟨t, ht⟩ : ∃ t : Fin cfg2.N, t.val = (i 0).val / 5000 := ⟨⟨(i 0).val / 5000, by rw [hN]; omega⟩, rfl⟩
  obtain ⟨e0, e1, e2, e3, e4, e5⟩ := idx_facts2 t
  refine ⟨t, Gen.flush2_2 t, ?_⟩
  show i ∈ ((View.whole main_v44).slice (win2_2.rect t)).set
  rw [View.set_slice_whole, Rect.mem_set_unit]
  intro a
  match a with
  | ⟨0, _⟩ => show win2_2.index t (0 : Fin 2) * 5000 ≤ (i 0).val ∧ (i 0).val < win2_2.index t (0 : Fin 2) * 5000 + 5000; rw [e4, ht]; omega
  | ⟨1, _⟩ => show win2_2.index t (1 : Fin 2) * 16 ≤ (i 1).val ∧ (i 1).val < win2_2.index t (1 : Fin 2) * 16 + 16; rw [e5]; omega

/-- THE OUTPUT ARRAY after region 2: the product of the first layer's output with the second weight matrix. -/
theorem dot2 (V : (c : Dev nD) → (b : Ref sig .tc) → Buf (Elt Ideal) ((c : Thread nD τ).loc b)) (c : Dev nD) :
    (Gen.dat2 (F := Ideal) V c).arrAt 2 cfg2.N = Cert.Gcn.mm2 (F := Ideal) (V c main_v43) (V c main_arg4) :=
  (Gen.dat2 (F := Ideal) V c).arrAt_eq_of_cover 2 (Cert.Gcn.mm2 (F := Ideal) (V c main_v43) (V c main_arg4))
    (fun t _ => flushed2_eq V c t) cover2

end Cert.KernelIdeal.Regions
end
-- ==== Proof.RegionDot4.lean ====
/-
  Region 4: the product of the second layer's output with the third weight matrix, tile by tile.

  The region runs over 20 row tiles of 5000 rows. At tile t the body reads rows 5000 t … 5000 t + 4999 of the left
  array and the whole right array, and stores their matrix product into rows 5000 t … 5000 t + 4999 of the output.
  At the exact values the roundings of the operands are the identity and the product into a zero accumulator is, at
  (r, q), the plain sum over k of x (r, k) * w (k, q). The whole-array product is the same sum at every index, and the
  20 tiles cover the output, so the output array ends holding the whole-array product.
-/
import proofs.«137336_j25134148616642_1_alg».proof.Proof.Gen.KernelIdeal.Frame
import proofs.«137336_j25134148616642_1_alg».proof.Proof.Gen.KernelIdeal.Points
import proofs.«137336_j25134148616642_1_alg».proof.Proof.Gen.ReferenceIdeal
import proofs.«137336_j25134148616642_1_alg».proof.Proof.Spec
import proofs.«137336_j25134148616642_1_alg».proof.Proof.LibPlainDot
import Idealize.ShloMosaic.Lib.Pipeline.Value
import Idealize.ShloMosaic.Lib.ValueIdx

noncomputable section
namespace Cert.KernelIdeal.Regions
open Cert.KernelIdeal Idealize.ShloMosaic Idealize.ShloMosaic.TcCoe Idealize.SL.Sem Cert.KernelIdeal.Facts₀ Cert.KernelIdeal.Facts
open Idealize.ShloMosaic.Pipeline (Dat)
open Idealize.ShloMosaic.ValueIdx

/-- The zero offset of a whole-buffer access. -/
theorem hz4 : (![0, 0] : Fin 2 → Nat) = fun _ => 0 := funext fun a => by fin_cases a <;> rfl

/-- The printed dimension numbers of the block product and of the whole-array product are the plain [M, K] by [K, N] ones. -/
theorem dims4_k : dot_S5000x16_S16x32_S5000x32_1_0_0_1_n_n = DotDims.plain 5000 16 32 := rfl
theorem dims4_h : Cert.ReferenceIdeal.dot_S100000x16_S16x32_S100000x32_1_0_0_1_n_n = DotDims.plain 100000 16 32 := rfl

/-- The body's payload at (r, q): the plain sum over k of x0 (r, k) * x1 (k, q) (the cast to the same shape and the roundings to bf16 are
    the identity at the exact values, the accumulator is zero). -/
theorem pay4_apply (x0 : Vec Ideal S5000x16 .f32) (x1 : Vec Ideal S16x32 .f32) (r : Fin 5000) (q : Fin 32) :
    Gen.k4_pay1 (F := Ideal) x0 x1 (ix2 r q) = ∑ k : Fin 16, x0 (ix2 r k) * x1 (ix2 k q) := by
  unfold Gen.k4_pay1
  rw [dims4_k, shapeCast_self]
  exact PlainDot.matmul_zero_apply none _ _ r q

/-- The whole-array product at (r, q): the same sum. -/
theorem mm3_apply (x : FVec Ideal S100000x16 .f32) (w : FVec Ideal S16x32 .f32) (r : Fin 100000) (q : Fin 32) :
    Cert.Gcn.mm3 (F := Ideal) x w (ix2 r q) = ∑ k : Fin 16, x (ix2 r k) * w (ix2 k q) := by
  unfold Cert.Gcn.mm3
  rw [dims4_h]
  exact PlainDot.dotGeneral_apply none _ _ _ r q

/-- The printed index maps over the grid: the row-tiled windows are at block (t, 0), the weight window at block (0, 0). -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

section
variable (V : (c : Dev nD) → (b : Ref sig .tc) → Buf (Elt Ideal) ((c : Thread nD τ).loc b)) (c : Dev nD) (t : Fin cfg4.N)

/-- The left window's block at point t is rows 5000 t … 5000 t + 4999 of its array. -/
theorem iblk4_0_apply (r : Fin 5000) (k : Fin 16) (R : Fin 100000) (hR : R.val = 5000 * t.val + r.val) :
    (Gen.iblk4 (F := Ideal) V c 0 t : Vec Ideal S5000x16 .f32) (ix2 r k) = (V c main_v74 : S100000x16.Idx → Elt Ideal .f32) (ix2 R k) := by
  obtain ⟨e0, e1, e2, e3, e4, e5⟩ := idx_facts4 t
  unfold Gen.iblk4
  rw [View.read_apply]
  show V c main_v74 _ = V c main_v74 _
  congr 1
  funext a
  apply Fin.ext
  match a with
  | ⟨0, _⟩ => show win4_0.index t (0 : Fin 2) * 5000 + 1 * r.val = R.val; rw [e0, hR]; omega
  | ⟨1, _⟩ => show win4_0.index t (1 : Fin 2) * 16 + 1 * k.val = k.val; rw [e1]; omega

/-- The right window's block at every point is its whole array. -/
theorem iblk4_1_apply (k : Fin 16) (q : Fin 32) :
    (Gen.iblk4 (F := Ideal) V c 1 t : Vec Ideal S16x32 .f32) (ix2 k q) = (V c main_arg6 : S16x32.Idx → Elt Ideal .f32) (ix2 k q) := by
  obtain ⟨e0, e1, e2, e3, e4, e5⟩ := idx_facts4 t
  unfold Gen.iblk4
  rw [View.read_apply]
  show V c main_arg6 _ = V c main_arg6 _
  congr 1
  funext a
  apply Fin.ext
  match a with
  | ⟨0, _⟩ => show win4_1.index t (0 : Fin 2) * 16 + 1 * k.val = k.val; rw [e2]; omega
  | ⟨1, _⟩ => show win4_1.index t (1 : Fin 2) * 32 + 1 * q.val = q.val; rw [e3]; omega

/-- Element (r, q) of the output window's block at point t is element (5000 t + r, q) of its array. -/
theorem emb4_2 (r : Fin 5000) (q : Fin 32) (R : Fin 100000) (hR : R.val = 5000 * t.val + r.val) :
    ((cfg4.win 2).blk t).view.emb (ix2 r q) = (ix2 R q : S100000x32.Idx) := by
  obtain ⟨e0, e1, e2, e3, e4, e5⟩ := idx_facts4 t
  funext a
  apply Fin.ext
  match a with
  | ⟨0, _⟩ => show win4_2.index t (0 : Fin 2) * 5000 + 1 * r.val = R.val; rw [e4, hR]; omega
  | ⟨1, _⟩ => show win4_2.index t (1 : Fin 2) * 32 + 1 * q.val = q.val; rw [e5]; omega

/-- WHAT POINT t WRITES BACK is block t of the whole-array product of the arrays the region finds. -/
theorem flushed4_eq :
    (Gen.dat4 (F := Ideal) V c).flushed 2 t = ((cfg4.win 2).blk t).view.read (Elt Ideal) (Cert.Gcn.mm3 (F := Ideal) (V c main_v74) (V c main_arg6)) := by
  show (cfg4.win 2).cut (grid4.coords t) ((Gen.dat4 (F := Ideal) V c).after 2 t) = _
  rw [Gen.after4_2]
  unfold Gen.out4_2
  rw [View.canon_unit_zero hz4]
  simp only [View.ld_unit_zero (S := S5000x16) hz4, View.ld_unit_zero (S := S16x32) hz4]
  funext j
  obtain ⟨r, q, rfl⟩ : ∃ (r : Fin 5000) (q : Fin 32), j = ix2 r q := ⟨j 0, j 1, eq_ix2 (n0 := 5000) (n1 := 32) j⟩
  have ht : t.val < 20 := lt_of_lt_of_eq t.isLt Gen.N_4
  have hr : r.val < 5000 := r.isLt
  show Gen.k4_pay1 (F := Ideal) (Gen.iblk4 V c 0 t) (Gen.iblk4 V c 1 t) (ix2 r q)
    = Cert.Gcn.mm3 (F := Ideal) (V c main_v74) (V c main_arg6) (((cfg4.win 2).blk t).view.emb (ix2 r q))
  rw [emb4_2 t r q ⟨5000 * t.val + r.val, by omega⟩ rfl, mm3_apply, pay4_apply]
  refine Finset.sum_congr rfl fun k _ => ?_
  rw [iblk4_0_apply V c t r k ⟨5000 * t.val + r.val, by omega⟩ rfl, iblk4_1_apply V c t k q]

end

/-- Every row of the output array is in the block of the point its tile belongs to. -/
theorem cover4 (i : S100000x32.Idx) :
    ∃ t : Fin cfg4.N, (cfg4.win 2).flush t = true ∧ i ∈ ((cfg4.win 2).blk t).view.set := by
  have hi0 : (i 0).val < 100000 := (i 0).isLt
  have hi1 : (i 1).val < 32 := (i 1).isLt
  have hN : cfg4.N = 20 := Gen.N_4
  obtain ⟨t, ht⟩ : ∃ t : Fin cfg4.N, t.val = (i 0).val / 5000 := ⟨⟨(i 0).val / 5000, by rw [hN]; omega⟩, rfl⟩
  obtain ⟨e0, e1, e2, e3, e4, e5⟩ := idx_facts4 t
  refine ⟨t, Gen.flush4_2 t, ?_⟩
  show i ∈ ((View.whole main_v75).slice (win4_2.rect t)).set
  rw [View.set_slice_whole, Rect.mem_set_unit]
  intro a
  match a with
  | ⟨0, _⟩ => show win4_2.index t (0 : Fin 2) * 5000 ≤ (i 0).val ∧ (i 0).val < win4_2.index t (0 : Fin 2) * 5000 + 5000; rw [e4, ht]; omega
  | ⟨1, _⟩ => show win4_2.index t (1 : Fin 2) * 32 ≤ (i 1).val ∧ (i 1).val < win4_2.index t (1 : Fin 2) * 32 + 32; rw [e5]; omega

/-- THE OUTPUT ARRAY after region 4: the product of the second layer's output with the third weight matrix. -/
theorem dot4 (V : (c : Dev nD) → (b : Ref sig .tc) → Buf (Elt Ideal) ((c : Thread nD τ).loc b)) (c : Dev nD) :
    (Gen.dat4 (F := Ideal) V c).arrAt 2 cfg4.N = Cert.Gcn.mm3 (F := Ideal) (V c main_v74) (V c main_arg6) :=
  (Gen.dat4 (F := Ideal) V c).arrAt_eq_of_cover 2 (Cert.Gcn.mm3 (F := Ideal) (V c main_v74) (V c main_arg6))
    (fun t _ => flushed4_eq V c t) cover4

end Cert.KernelIdeal.Regions
end
-- ==== Proof.LibBiasRows.lean ====
/-
  A bias vector laid along every row of a matrix, in its two spellings.

  A host program broadcasts the vector [n] to one row [1, n] (along axis 1) and that row down m rows. A kernel receives
  the vector already cast to one row [1, n], casts it to the same shape once more, and broadcasts it down m rows. Both
  read, at (r, q), the vector at q; so the two m × n arrays are equal.
-/
import Idealize.ShloMosaic.Lib.ValueLayout
import Idealize.ShloMosaic.Lib.KernelVsHost

namespace Idealize.ShloMosaic.BiasRows

open Idealize.ShloMosaic Idealize.ShloMosaic.ValueIdx

variable {α : Type}

/-- The host's spelling at (r, q): the vector at q. -/
theorem hostRows_apply {m n : Nat} (b : (⟨1, ![n]⟩ : Shape).Idx → α)
    (h1 : (⟨1, ![n]⟩ : Shape).BroadcastsInDim ⟨2, ![1, n]⟩ ![1])
    (h2 : (⟨2, ![1, n]⟩ : Shape).BroadcastsInDim ⟨2, ![m, n]⟩ ![0, 1]) (r : Fin m) (q : Fin n) :
    broadcastInDim ⟨2, ![m, n]⟩ ![0, 1] h2 (broadcastInDim ⟨2, ![1, n]⟩ ![1] h1 b) (ix2 r q) = b (ix1 q) := by
  rw [broadcastInDim_oneRow_apply]
  refine broadcastInDim_apply ![1] h1 b (ix2 (0 : Fin 1) q) (ix1 q) ?_
  intro a
  match a with
  | ⟨0, _⟩ =>
    show q.val = if n = 1 then 0 else q.val
    split
    · have := q.isLt; omega
    · rfl

/-- The kernel's spelling at (r, q): the vector at q. -/
theorem kernelRows_apply {m n : Nat} (b : (⟨1, ![n]⟩ : Shape).Idx → α)
    (h0 : (⟨1, ![n]⟩ : Shape).ShapeCasts ⟨2, ![1, n]⟩) (h1 : (⟨2, ![1, n]⟩ : Shape).ShapeCasts ⟨2, ![1, n]⟩)
    (hb : (⟨2, ![1, n]⟩ : Shape).Broadcasts ⟨2, ![m, n]⟩) (r : Fin m) (q : Fin n) :
    broadcastTo ⟨2, ![m, n]⟩ (shapeCast ⟨2, ![1, n]⟩ (shapeCast ⟨2, ![1, n]⟩ b h0) h1) hb (ix2 r q) = b (ix1 q) := by
  rw [broadcastTo_1b_ab_apply, shapeCast_self, shapeCast_a_1a_apply]

/-- The two spellings are one m × n array. -/
theorem kernelRows_eq_hostRows {m n : Nat} (b : (⟨1, ![n]⟩ : Shape).Idx → α)
    (h0 : (⟨1, ![n]⟩ : Shape).ShapeCasts ⟨2, ![1, n]⟩) (h1 : (⟨2, ![1, n]⟩ : Shape).ShapeCasts ⟨2, ![1, n]⟩)
    (hb : (⟨2, ![1, n]⟩ : Shape).Broadcasts ⟨2, ![m, n]⟩)
    (g1 : (⟨1, ![n]⟩ : Shape).BroadcastsInDim ⟨2, ![1, n]⟩ ![1])
    (g2 : (⟨2, ![1, n]⟩ : Shape).BroadcastsInDim ⟨2, ![m, n]⟩ ![0, 1]) :
    broadcastTo ⟨2, ![m, n]⟩ (shapeCast ⟨2, ![1, n]⟩ (shapeCast ⟨2, ![1, n]⟩ b h0) h1) hb
      = broadcastInDim ⟨2, ![m, n]⟩ ![0, 1] g2 (broadcastInDim ⟨2, ![1, n]⟩ ![1] g1 b) := by
  funext j
  obtain ⟨r, q, rfl⟩ : ∃ (r : Fin m) (q : Fin n), j = ix2 r q := ⟨j 0, j 1, eq_ix2 j⟩
  rw [kernelRows_apply, hostRows_apply]

end Idealize.ShloMosaic.BiasRows
-- ==== Proof.RegionCombineLib.lean ====
/-
  One element of a graph-convolution layer's combine step, and the layout operations that bring a per-row
  coefficient and a per-column bias to an m × n array, read at an index.

  At row r and column q the combine step is e(agg(r,q) + d(r) · h(r,q) + b(q)) with e(z) = z where z > 0 and
  exp z − 1 elsewhere. A kernel receives d as a column [m, 1] and b as a row [1, n] and broadcasts each; a host
  program broadcasts the vector d to a column and the column along the rows, the vector b to a row and the row
  down the rows, and spells e(z) as "z where z > 0, else 1 · expm1(z′)" with z′ = 0 where z > 0 and z elsewhere.
  Where z > 0 is false z′ is z, expm1 z is exp z − 1 on the extended reals, and 1 · y = y: the two spellings are
  one function.
-/
import proofs.«137336_j25134148616642_1_alg».proof.Proof.Gen.ReferenceIdeal
import proofs.«137336_j25134148616642_1_alg».proof.Proof.Spec
import proofs.«137336_j25134148616642_1_alg».proof.Proof.LibBiasRows
import Idealize.ShloMosaic.Lib.ValueLayout
import Idealize.ShloMosaic.Lib.KernelVsHost
import Idealize.ShloMosaic.Lib.IdealHost

noncomputable section

namespace Idealize.ShloMosaic.CombineRows

open Idealize.ShloMosaic Idealize.ShloMosaic.ValueIdx

/-! ## A column: a vector cast or broadcast to [a, 1], and a column broadcast along the rows -/

section Columns
variable {α : Type}

/-- An [a] array cast to [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array broadcast to [a, b] reads, at (p, c), the operand's one column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector [a] broadcast along axis 0 to a column [a, 1] reads, at (i, u), the vector at i. -/
theorem broadcastInDim_col_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply ![0] h x (ix2 i u) (ix1 i) ?_
  intro ax
  match ax with
  | ⟨0, _⟩ =>
    show i.val = if a = 1 then 0 else i.val
    split
    · have := i.isLt; omega
    · rfl

/-- A column [a, 1] broadcast along the rows to [a, b] reads, at (p, c), the column at (p, 0). -/
theorem broadcastInDim_a1_ab_apply {a b : ℕ} (h : (⟨2, ![a, 1]⟩ : Shape).BroadcastsInDim ⟨2, ![a, b]⟩ ![0, 1])
    (y : (⟨2, ![a, 1]⟩ : Shape).Idx → α) (p : Fin a) (c : Fin b) :
    broadcastInDim ⟨2, ![a, b]⟩ ![0, 1] h y (ix2 p c) = y (ix2 p (0 : Fin 1)) := by
  refine broadcastInDim_apply ![0, 1] h y (ix2 p c) (ix2 p (0 : Fin 1)) ?_
  intro ax
  match ax with
  | ⟨0, _⟩ =>
    show p.val = if a = 1 then 0 else p.val
    split
    · have := p.isLt; omega
    · rfl
  | ⟨1, _⟩ => rfl

end Columns

/-! ## One element of the combine step -/

/-- e(a + d · x + bb), e(z) = z where z > 0 and exp z − 1 elsewhere, on the extended reals. -/
def combineAt (a d x bb : EReal) : EReal :=
  Scalar.select (Ideal.cmp .ogt ((a + d * x) + bb) (Ideal.ofBits .f32 0x00000000#32)) ((a + d * x) + bb)
    (Ideal.exp ((a + d * x) + bb) - Ideal.ofBits .f32 0x3F800000#32)

/-- The host's spelling of e at one element: where z > 0 is false the inner choice is z, expm1 z is exp z − 1 and
    1 · y = y. -/
theorem hostElu_eq (z : EReal) :
    Scalar.select (Ideal.cmp .ogt z (Ideal.ofBits .f32 0x00000000#32)) z
        (Ideal.ofBits .f32 0x3F800000#32
          * (Ideal.exp (Scalar.select (Ideal.cmp .ogt z (Ideal.ofBits .f32 0x00000000#32)) (Ideal.ofBits .f32 0x00000000#32) z) - 1))
      = Scalar.select (Ideal.cmp .ogt z (Ideal.ofBits .f32 0x00000000#32)) z (Ideal.exp z - Ideal.ofBits .f32 0x3F800000#32) := by
  unfold Scalar.select
  by_cases hc : Ideal.cmp .ogt z (Ideal.ofBits .f32 0x00000000#32) = 1
  · rw [if_pos hc, if_pos hc]
  · rw [if_neg hc, if_neg hc, if_neg hc, Ideal.ofBits_one_f32, one_mul]

end Idealize.ShloMosaic.CombineRows

/-! ## The reference's two stages at an index -/

namespace Cert.Gcn

open Idealize.ShloMosaic Idealize.ShloMosaic.ValueIdx Idealize.ShloMosaic.CombineRows
open Cert.ReferenceIdeal Cert.ReferenceIdeal.Facts₀ Cert.ReferenceIdeal.Facts

/-- Neighbour sum plus self-loop term plus bias at (r, q). -/
theorem pre16_apply (agg : FVec Ideal S100000x16 .f32) (dd : FVec Ideal S100000 .f32) (h : FVec Ideal S100000x16 .f32)
    (b : FVec Ideal S16 .f32) (r : Fin 100000) (q : Fin 16) :
    pre16 (F := Ideal) agg dd h b (ix2 r q) = (agg (ix2 r q) + dd (ix1 r) * h (ix2 r q)) + b (ix1 q) := by
  unfold pre16
  rw [addf_apply, addf_apply, mulf_apply, broadcastInDim_a1_ab_apply, broadcastInDim_col_apply, BiasRows.hostRows_apply]

/-- The layer's output at (r, q), from the four arrays it reads. -/
theorem elu16_pre16_apply (agg : FVec Ideal S100000x16 .f32) (dd : FVec Ideal S100000 .f32) (h : FVec Ideal S100000x16 .f32)
    (b : FVec Ideal S16 .f32) (r : Fin 100000) (q : Fin 16) :
    elu16 (F := Ideal) (pre16 (F := Ideal) agg dd h b) (ix2 r q)
      = combineAt (agg (ix2 r q)) (dd (ix1 r)) (h (ix2 r q)) (b (ix1 q)) := by
  have hz := pre16_apply agg dd h b r q
  generalize pre16 (F := Ideal) agg dd h b = z at hz ⊢
  unfold elu16 combineAt
  rw [← hz]
  exact hostElu_eq (z (ix2 r q))

/-- The layer's output array as ONE function of the four arrays a combine step reads — the neighbour sums, the
    products h, the coefficients as a column [m, 1] and the bias as a row [1, n]: at (r, q),
    e(agg(r,q) + coef(r,0) · h(r,q) + brow(0,q)). -/
def combineArr (agg h : FVec Ideal S100000x16 .f32) (coef : FVec Ideal S100000x1 .f32) (brow : FVec Ideal S1x16 .f32) :
    FVec Ideal S100000x16 .f32 := fun i =>
  combineAt (agg i) (coef (ix2 (⟨(i 0).val, idx2_lt0 i⟩ : Fin 100000) (0 : Fin 1))) (h i)
    (brow (ix2 (0 : Fin 1) (⟨(i 1).val, idx2_lt1 i⟩ : Fin 16)))

/-- With the column the cast of the vector dd and the row the cast of the vector b, that function is the reference's
    layer output. -/
theorem combineArr_eq (agg h : FVec Ideal S100000x16 .f32) (coef : FVec Ideal S100000x1 .f32) (brow : FVec Ideal S1x16 .f32)
    (dd : FVec Ideal S100000 .f32) (b : FVec Ideal S16 .f32)
    (h1 : S100000.ShapeCasts S100000x1) (h2 : S16.ShapeCasts S1x16)
    (hc : coef = shapeCast S100000x1 dd h1) (hb : brow = shapeCast S1x16 b h2) :
    combineArr agg h coef brow = elu16 (F := Ideal) (pre16 (F := Ideal) agg dd h b) := by
  funext i
  obtain ⟨r, q, rfl⟩ : ∃ (r : Fin 100000) (q : Fin 16), i = ix2 r q := ⟨i 0, i 1, eq_ix2 i⟩
  rw [elu16_pre16_apply]
  unfold combineArr
  rw [hc, hb]
  show combineAt (agg (ix2 r q)) (shapeCast S100000x1 dd h1 (ix2 r (0 : Fin 1))) (h (ix2 r q))
      (shapeCast S1x16 b h2 (ix2 (0 : Fin 1) q)) = _
  rw [shapeCast_a_a1_apply, shapeCast_a_1a_apply]

end Cert.Gcn

end
-- ==== Proof.RegionCombine1.lean ====
/-
  Combine region 1 of the kernel program: what its twenty row tiles leave in the output array.

  The region's grid has twenty points. At point t the row-tiled windows (the products h, the neighbour sums, the
  coefficient column, the output) hold rows 5000 t … 5000 t + 4999 of their arrays, and the bias window holds the whole
  [1, 16] row. The body stores, at (p, q) of its block, e(agg + coef · h + bias) of the blocks' elements at (p, q), (p, 0)
  and (0, q); so block t of the output is block t of ONE whole-array function of the four arrays, the twenty blocks cover
  the array, and the array ends holding that function — which, with the column the cast of the vector dd and the row the
  cast of the vector b, is the reference's layer output.
-/
import proofs.«137336_j25134148616642_1_alg».proof.Proof.Gen.KernelIdeal.Frame
import proofs.«137336_j25134148616642_1_alg».proof.Proof.Gen.ReferenceIdeal
import proofs.«137336_j25134148616642_1_alg».proof.Proof.Spec
import proofs.«137336_j25134148616642_1_alg».proof.Proof.LibBiasRows
import proofs.«137336_j25134148616642_1_alg».proof.Proof.RegionCombineLib
import Idealize.ShloMosaic.Lib.Pipeline.Value
import Idealize.ShloMosaic.Lib.ValueLayout

set_option maxRecDepth 16384

noncomputable section

namespace Cert.KernelIdeal.Regions

open Cert.KernelIdeal Idealize.ShloMosaic Idealize.ShloMosaic.TcCoe Idealize.SL.Sem Cert.KernelIdeal.Facts₀ Cert.KernelIdeal.Facts
open Idealize.ShloMosaic.ValueIdx Idealize.ShloMosaic.CombineRows
open Idealize.ShloMosaic.Pipeline (Dat)

/-- Both block offsets of a whole-buffer access are zero. -/
theorem zeroOffsets1 : (![0, 0] : Fin 2 → Nat) = fun _ => 0 := funext fun a => by fin_cases a <;> rfl

/-- The body's payload at (p, q) of its block: e(agg + coef · h + bias) of the loaded blocks' elements at (p, q), at
    (p, 0) of the coefficient column and at (0, q) of the bias row. -/
theorem payload1_apply (x0 x1 : Vec Ideal S5000x16 .f32) (x2 : Vec Ideal S5000x1 .f32) (x3 : Vec Ideal S1x16 .f32)
    (p : Fin 5000) (q : Fin 16) :
    Gen.k1_pay1 (F := Ideal) x0 x1 x2 x3 (ix2 p q)
      = combineAt (x1 (ix2 p q)) (x2 (ix2 p (0 : Fin 1))) (x0 (ix2 p q)) (x3 (ix2 (0 : Fin 1) q)) := by
  unfold Gen.k1_pay1
  simp only [shapeCast_self]
  show combineAt (x1 (ix2 p q)) (broadcastTo S5000x16 x2 broadcasts_S5000x1_S5000x16 (ix2 p q)) (x0 (ix2 p q))
      (broadcastTo S5000x16 x3 broadcasts_S1x16_S5000x16 (ix2 p q)) = _
  rw [broadcastTo_a1_ab_apply, broadcastTo_1b_ab_apply]

/-- The printed index maps over the grid: every row-tiled window is at block (t, 0), the bias window at block (0, 0). -/
theorem blockIndex1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- One element of the body's payload against the whole-array function: with the blocks' elements the arrays'
    elements at row 5000 T + p (the bias at row 0), the payload at (p, q) is the function at (5000 T + p, q). -/
theorem payload1_eq_combineArr (x0 x1 : Vec Ideal S5000x16 .f32) (x2 : Vec Ideal S5000x1 .f32) (x3 : Vec Ideal S1x16 .f32)
    (agg h : FVec Ideal S100000x16 .f32) (coef : FVec Ideal S100000x1 .f32) (brow : FVec Ideal S1x16 .f32)
    (j : S5000x16.Idx) (i : S100000x16.Idx)
    (e0 : x0 j = h i) (e1 : x1 j = agg i)
    (e2 : x2 (ix2 (⟨(j 0).val, idx2_lt0 j⟩ : Fin 5000) (0 : Fin 1)) = coef (ix2 (⟨(i 0).val, idx2_lt0 i⟩ : Fin 100000) (0 : Fin 1)))
    (e3 : x3 (ix2 (0 : Fin 1) (⟨(j 1).val, idx2_lt1 j⟩ : Fin 16)) = brow (ix2 (0 : Fin 1) (⟨(i 1).val, idx2_lt1 i⟩ : Fin 16))) :
    Gen.k1_pay1 (F := Ideal) x0 x1 x2 x3 j = Cert.Gcn.combineArr agg h coef brow i := by
  obtain ⟨p, q, rfl⟩ : ∃ (p : Fin 5000) (q : Fin 16), j = ix2 p q := ⟨j 0, j 1, eq_ix2 j⟩
  rw [payload1_apply]
  unfold Cert.Gcn.combineArr
  rw [← e0, ← e1, ← e2, ← e3]

/-- WHAT POINT t WRITES BACK is block t of the whole-array function of the four arrays as the region finds them. -/
theorem flushed1_eq (V : (c : Dev nD) → (b : Ref sig .tc) → Buf (Elt Ideal) ((c : Thread nD τ).loc b)) (c : Dev nD)
    (t : Fin cfg1.N) :
    (Gen.dat1 (F := Ideal) V c).flushed 4 t
      = ((cfg1.win 4).blk t).view.read (Elt Ideal)
          (Cert.Gcn.combineArr (V c main_v41) (V c main_v13) (V c main_v12) (V c main_v42)) := by
  show (cfg1.win 4).cut (grid1.coords t) ((Gen.dat1 (F := Ideal) V c).after 4 t) = _
  rw [Gen.after1_4]
  unfold Gen.out1_4
  rw [View.canon_unit_zero zeroOffsets1]
  simp only [View.ld_unit_zero (S := S5000x16) zeroOffsets1, View.ld_unit_zero (S := S5000x1) zeroOffsets1,
    View.ld_unit_zero (S := S1x16) zeroOffsets1]
  obtain ⟨a0, a1, b0, b1, c0, c1, d0, d1, o0, o1⟩ := blockIndex1 t
  funext j
  have hj0 : (j 0).val < 5000 := (j 0).isLt
  have hj1 : (j 1).val < 16 := (j 1).isLt
  show Gen.k1_pay1 (F := Ideal) (Gen.iblk1 V c 0 t) (Gen.iblk1 V c 1 t) (Gen.iblk1 V c 2 t) (Gen.iblk1 V c 3 t) j
      = Cert.Gcn.combineArr (V c main_v41) (V c main_v13) (V c main_v12) (V c main_v42) (((cfg1.win 4).blk t).view.emb j)
  refine payload1_eq_combineArr _ _ _ _ _ _ _ _ j _ ?_ ?_ ?_ ?_
  · show V c main_v13 (((cfg1.win 0).blk t).view.emb j) = V c main_v13 (((cfg1.win 4).blk t).view.emb j)
    refine congrArg _ (funext fun a => Fin.ext ?_)
    match a with
    | ⟨0, _⟩ => show win1_0.index t (0 : Fin 2) * 5000 + 1 * (j 0).val = win1_4.index t (0 : Fin 2) * 5000 + 1 * (j 0).val; omega
    | ⟨1, _⟩ => show win1_0.index t (1 : Fin 2) * 16 + 1 * (j 1).val = win1_4.index t (1 : Fin 2) * 16 + 1 * (j 1).val; omega
  · show V c main_v41 (((cfg1.win 1).blk t).view.emb j) = V c main_v41 (((cfg1.win 4).blk t).view.emb j)
    refine congrArg _ (funext fun a => Fin.ext ?_)
    match a with
    | ⟨0, _⟩ => show win1_1.index t (0 : Fin 2) * 5000 + 1 * (j 0).val = win1_4.index t (0 : Fin 2) * 5000 + 1 * (j 0).val; omega
    | ⟨1, _⟩ => show win1_1.index t (1 : Fin 2) * 16 + 1 * (j 1).val = win1_4.index t (1 : Fin 2) * 16 + 1 * (j 1).val; omega
  · show V c main_v12 (((cfg1.win 2).blk t).view.emb (ix2 (⟨(j 0).val, idx2_lt0 j⟩ : Fin 5000) (0 : Fin 1))) = V c main_v12 _
    refine congrArg _ (funext fun a => Fin.ext ?_)
    match a with
    | ⟨0, _⟩ => show win1_2.index t (0 : Fin 2) * 5000 + 1 * (j 0).val = win1_4.index t (0 : Fin 2) * 5000 + 1 * (j 0).val; omega
    | ⟨1, _⟩ => show win1_2.index t (1 : Fin 2) * 1 + 1 * 0 = 0; omega
  · show V c main_v42 (((cfg1.win 3).blk t).view.emb (ix2 (0 : Fin 1) (⟨(j 1).val, idx2_lt1 j⟩ : Fin 16))) = V c main_v42 _
    refine congrArg _ (funext fun a => Fin.ext ?_)
    match a with
    | ⟨0, _⟩ => show win1_3.index t (0 : Fin 2) * 1 + 1 * 0 = 0; omega
    | ⟨1, _⟩ => show win1_3.index t (1 : Fin 2) * 16 + 1 * (j 1).val = win1_4.index t (1 : Fin 2) * 16 + 1 * (j 1).val; omega

/-- An index of the output array is in point t's block iff each coordinate is in the block's range on its axis. -/
theorem mem_block1 (t : Fin cfg1.N) (i : S100000x16.Idx) :
    i ∈ ((cfg1.win 4).blk t).view.set
      ↔ ∀ a : Fin 2, win1_4.index t a * S5000x16.size a ≤ (i a).val ∧ (i a).val < win1_4.index t a * S5000x16.size a + S5000x16.size a := by
  show i ∈ ((View.whole main_v43).slice (win1_4.rect t)).set ↔ _
  rw [View.set_slice_whole, Rect.mem_set_unit]
  exact Iff.rfl

/-- Row r of the output array is in the block of point r / 5000: the twenty blocks cover the array. -/
theorem cover1 (i : S100000x16.Idx) :
    ∃ t : Fin cfg1.N, (cfg1.win 4).flush t = true ∧ i ∈ ((cfg1.win 4).blk t).view.set := by
  have hi0 : (i 0).val < 100000 := (i 0).isLt
  have hi1 : (i 1).val < 16 := (i 1).isLt
  have hN : (i 0).val / 5000 < cfg1.N := by show (i 0).val / 5000 < 20; omega
  refine ⟨⟨(i 0).val / 5000, hN⟩, Gen.flush1_4 _, ?_⟩
  rw [mem_block1]
  obtain ⟨a0, a1, b0, b1, c0, c1, d0, d1, o0, o1⟩ := blockIndex1 ⟨(i 0).val / 5000, hN⟩
  have o0' : win1_4.index ⟨(i 0).val / 5000, hN⟩ (0 : Fin 2) = (i 0).val / 5000 := o0
  intro a
  match a with
  | ⟨0, _⟩ =>
    show win1_4.index ⟨(i 0).val / 5000, hN⟩ (0 : Fin 2) * 5000 ≤ (i 0).val
      ∧ (i 0).val < win1_4.index ⟨(i 0).val / 5000, hN⟩ (0 : Fin 2) * 5000 + 5000
    omega
  | ⟨1, _⟩ =>
    show win1_4.index ⟨(i 0).val / 5000, hN⟩ (1 : Fin 2) * 16 ≤ (i 1).val
      ∧ (i 1).val < win1_4.index ⟨(i 0).val / 5000, hN⟩ (1 : Fin 2) * 16 + 16
    omega

/-- THE OUTPUT ARRAY after the region: the reference's layer output of the arrays the region reads. -/
theorem combine1 (V : (c : Dev nD) → (b : Ref sig .tc) → Buf (Elt Ideal) ((c : Thread nD τ).loc b)) (c : Dev nD)
    (dd : FVec Ideal S100000 .f32) (b : FVec Ideal S16 .f32)
    (hc : V c main_v12 = shapeCast S100000x1 dd shapeCasts_S100000_S100000x1)
    (hb : V c main_v42 = shapeCast S1x16 b shapeCasts_S16_S1x16) :
    (Gen.dat1 (F := Ideal) V c).arrAt 4 cfg1.N
      = Cert.Gcn.elu16 (F := Ideal) (Cert.Gcn.pre16 (F := Ideal) (V c main_v41) dd (V c main_v13) b) := by
  rw [← Cert.Gcn.combineArr_eq (V c main_v41) (V c main_v13) (V c main_v12) (V c main_v42) dd b
    shapeCasts_S100000_S100000x1 shapeCasts_S16_S1x16 hc hb]
  exact (Gen.dat1 (F := Ideal) V c).arrAt_eq_of_cover 4 _ (fun t _ => flushed1_eq V c t) cover1

end Cert.KernelIdeal.Regions

end
-- ==== Proof.RegionCombine3.lean ====
/-
  Combine region 3 of the kernel program: what its twenty row tiles leave in the output array.

  The region's grid has twenty points. At point t the row-tiled windows (the products h, the neighbour sums, the
  coefficient column, the output) hold rows 5000 t … 5000 t + 4999 of their arrays, and the bias window holds the whole
  [1, 16] row. The body stores, at (p, q) of its block, e(agg + coef · h + bias) of the blocks' elements at (p, q), (p, 0)
  and (0, q); so block t of the output is block t of ONE whole-array function of the four arrays, the twenty blocks cover
  the array, and the array ends holding that function — which, with the column the cast of the vector dd and the row the
  cast of the vector b, is the reference's layer output.
-/
import proofs.«137336_j25134148616642_1_alg».proof.Proof.Gen.KernelIdeal.Frame
import proofs.«137336_j25134148616642_1_alg».proof.Proof.Gen.ReferenceIdeal
import proofs.«137336_j25134148616642_1_alg».proof.Proof.Spec
import proofs.«137336_j25134148616642_1_alg».proof.Proof.LibBiasRows
import proofs.«137336_j25134148616642_1_alg».proof.Proof.RegionCombineLib
import Idealize.ShloMosaic.Lib.Pipeline.Value
import Idealize.ShloMosaic.Lib.ValueLayout

set_option maxRecDepth 16384

noncomputable section

namespace Cert.KernelIdeal.Regions

open Cert.KernelIdeal Idealize.ShloMosaic Idealize.ShloMosaic.TcCoe Idealize.SL.Sem Cert.KernelIdeal.Facts₀ Cert.KernelIdeal.Facts
open Idealize.ShloMosaic.ValueIdx Idealize.ShloMosaic.CombineRows
open Idealize.ShloMosaic.Pipeline (Dat)

/-- Both block offsets of a whole-buffer access are zero. -/
theorem zeroOffsets3 : (![0, 0] : Fin 2 → Nat) = fun _ => 0 := funext fun a => by fin_cases a <;> rfl

/-- The body's payload at (p, q) of its block: e(agg + coef · h + bias) of the loaded blocks' elements at (p, q), at
    (p, 0) of the coefficient column and at (0, q) of the bias row. -/
theorem payload3_apply (x0 x1 : Vec Ideal S5000x16 .f32) (x2 : Vec Ideal S5000x1 .f32) (x3 : Vec Ideal S1x16 .f32)
    (p : Fin 5000) (q : Fin 16) :
    Gen.k3_pay1 (F := Ideal) x0 x1 x2 x3 (ix2 p q)
      = combineAt (x1 (ix2 p q)) (x2 (ix2 p (0 : Fin 1))) (x0 (ix2 p q)) (x3 (ix2 (0 : Fin 1) q)) := by
  unfold Gen.k3_pay1
  simp only [shapeCast_self]
  show combineAt (x1 (ix2 p q)) (broadcastTo S5000x16 x2 broadcasts_S5000x1_S5000x16 (ix2 p q)) (x0 (ix2 p q))
      (broadcastTo S5000x16 x3 broadcasts_S1x16_S5000x16 (ix2 p q)) = _
  rw [broadcastTo_a1_ab_apply, broadcastTo_1b_ab_apply]

/-- The printed index maps over the grid: every row-tiled window is at block (t, 0), the bias window at block (0, 0). -/
theorem blockIndex3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- One element of the body's payload against the whole-array function: with the blocks' elements the arrays'
    elements at row 5000 T + p (the bias at row 0), the payload at (p, q) is the function at (5000 T + p, q). -/
theorem payload3_eq_combineArr (x0 x1 : Vec Ideal S5000x16 .f32) (x2 : Vec Ideal S5000x1 .f32) (x3 : Vec Ideal S1x16 .f32)
    (agg h : FVec Ideal S100000x16 .f32) (coef : FVec Ideal S100000x1 .f32) (brow : FVec Ideal S1x16 .f32)
    (j : S5000x16.Idx) (i : S100000x16.Idx)
    (e0 : x0 j = h i) (e1 : x1 j = agg i)
    (e2 : x2 (ix2 (⟨(j 0).val, idx2_lt0 j⟩ : Fin 5000) (0 : Fin 1)) = coef (ix2 (⟨(i 0).val, idx2_lt0 i⟩ : Fin 100000) (0 : Fin 1)))
    (e3 : x3 (ix2 (0 : Fin 1) (⟨(j 1).val, idx2_lt1 j⟩ : Fin 16)) = brow (ix2 (0 : Fin 1) (⟨(i 1).val, idx2_lt1 i⟩ : Fin 16))) :
    Gen.k3_pay1 (F := Ideal) x0 x1 x2 x3 j = Cert.Gcn.combineArr agg h coef brow i := by
  obtain ⟨p, q, rfl⟩ : ∃ (p : Fin 5000) (q : Fin 16), j = ix2 p q := ⟨j 0, j 1, eq_ix2 j⟩
  rw [payload3_apply]
  unfold Cert.Gcn.combineArr
  rw [← e0, ← e1, ← e2, ← e3]

/-- WHAT POINT t WRITES BACK is block t of the whole-array function of the four arrays as the region finds them. -/
theorem flushed3_eq (V : (c : Dev nD) → (b : Ref sig .tc) → Buf (Elt Ideal) ((c : Thread nD τ).loc b)) (c : Dev nD)
    (t : Fin cfg3.N) :
    (Gen.dat3 (F := Ideal) V c).flushed 4 t
      = ((cfg3.win 4).blk t).view.read (Elt Ideal)
          (Cert.Gcn.combineArr (V c main_v72) (V c main_v44) (V c main_v12) (V c main_v73)) := by
  show (cfg3.win 4).cut (grid3.coords t) ((Gen.dat3 (F := Ideal) V c).after 4 t) = _
  rw [Gen.after3_4]
  unfold Gen.out3_4
  rw [View.canon_unit_zero zeroOffsets3]
  simp only [View.ld_unit_zero (S := S5000x16) zeroOffsets3, View.ld_unit_zero (S := S5000x1) zeroOffsets3,
    View.ld_unit_zero (S := S1x16) zeroOffsets3]
  obtain ⟨a0, a1, b0, b1, c0, c1, d0, d1, o0, o1⟩ := blockIndex3 t
  funext j
  have hj0 : (j 0).val < 5000 := (j 0).isLt
  have hj1 : (j 1).val < 16 := (j 1).isLt
  show Gen.k3_pay1 (F := Ideal) (Gen.iblk3 V c 0 t) (Gen.iblk3 V c 1 t) (Gen.iblk3 V c 2 t) (Gen.iblk3 V c 3 t) j
      = Cert.Gcn.combineArr (V c main_v72) (V c main_v44) (V c main_v12) (V c main_v73) (((cfg3.win 4).blk t).view.emb j)
  refine payload3_eq_combineArr _ _ _ _ _ _ _ _ j _ ?_ ?_ ?_ ?_
  · show V c main_v44 (((cfg3.win 0).blk t).view.emb j) = V c main_v44 (((cfg3.win 4).blk t).view.emb j)
    refine congrArg _ (funext fun a => Fin.ext ?_)
    match a with
    | ⟨0, _⟩ => show win3_0.index t (0 : Fin 2) * 5000 + 1 * (j 0).val = win3_4.index t (0 : Fin 2) * 5000 + 1 * (j 0).val; omega
    | ⟨1, _⟩ => show win3_0.index t (1 : Fin 2) * 16 + 1 * (j 1).val = win3_4.index t (1 : Fin 2) * 16 + 1 * (j 1).val; omega
  · show V c main_v72 (((cfg3.win 1).blk t).view.emb j) = V c main_v72 (((cfg3.win 4).blk t).view.emb j)
    refine congrArg _ (funext fun a => Fin.ext ?_)
    match a with
    | ⟨0, _⟩ => show win3_1.index t (0 : Fin 2) * 5000 + 1 * (j 0).val = win3_4.index t (0 : Fin 2) * 5000 + 1 * (j 0).val; omega
    | ⟨1, _⟩ => show win3_1.index t (1 : Fin 2) * 16 + 1 * (j 1).val = win3_4.index t (1 : Fin 2) * 16 + 1 * (j 1).val; omega
  · show V c main_v12 (((cfg3.win 2).blk t).view.emb (ix2 (⟨(j 0).val, idx2_lt0 j⟩ : Fin 5000) (0 : Fin 1))) = V c main_v12 _
    refine congrArg _ (funext fun a => Fin.ext ?_)
    match a with
    | ⟨0, _⟩ => show win3_2.index t (0 : Fin 2) * 5000 + 1 * (j 0).val = win3_4.index t (0 : Fin 2) * 5000 + 1 * (j 0).val; omega
    | ⟨1, _⟩ => show win3_2.index t (1 : Fin 2) * 1 + 1 * 0 = 0; omega
  · show V c main_v73 (((cfg3.win 3).blk t).view.emb (ix2 (0 : Fin 1) (⟨(j 1).val, idx2_lt1 j⟩ : Fin 16))) = V c main_v73 _
    refine congrArg _ (funext fun a => Fin.ext ?_)
    match a with
    | ⟨0, _⟩ => show win3_3.index t (0 : Fin 2) * 1 + 1 * 0 = 0; omega
    | ⟨1, _⟩ => show win3_3.index t (1 : Fin 2) * 16 + 1 * (j 1).val = win3_4.index t (1 : Fin 2) * 16 + 1 * (j 1).val; omega

/-- An index of the output array is in point t's block iff each coordinate is in the block's range on its axis. -/
theorem mem_block3 (t : Fin cfg3.N) (i : S100000x16.Idx) :
    i ∈ ((cfg3.win 4).blk t).view.set
      ↔ ∀ a : Fin 2, win3_4.index t a * S5000x16.size a ≤ (i a).val ∧ (i a).val < win3_4.index t a * S5000x16.size a + S5000x16.size a := by
  show i ∈ ((View.whole main_v74).slice (win3_4.rect t)).set ↔ _
  rw [View.set_slice_whole, Rect.mem_set_unit]
  exact Iff.rfl

/-- Row r of the output array is in the block of point r / 5000: the twenty blocks cover the array. -/
theorem cover3 (i : S100000x16.Idx) :
    ∃ t : Fin cfg3.N, (cfg3.win 4).flush t = true ∧ i ∈ ((cfg3.win 4).blk t).view.set := by
  have hi0 : (i 0).val < 100000 := (i 0).isLt
  have hi1 : (i 1).val < 16 := (i 1).isLt
  have hN : (i 0).val / 5000 < cfg3.N := by show (i 0).val / 5000 < 20; omega
  refine ⟨⟨(i 0).val / 5000, hN⟩, Gen.flush3_4 _, ?_⟩
  rw [mem_block3]
  obtain ⟨a0, a1, b0, b1, c0, c1, d0, d1, o0, o1⟩ := blockIndex3 ⟨(i 0).val / 5000, hN⟩
  have o0' : win3_4.index ⟨(i 0).val / 5000, hN⟩ (0 : Fin 2) = (i 0).val / 5000 := o0
  intro a
  match a with
  | ⟨0, _⟩ =>
    show win3_4.index ⟨(i 0).val / 5000, hN⟩ (0 : Fin 2) * 5000 ≤ (i 0).val
      ∧ (i 0).val < win3_4.index ⟨(i 0).val / 5000, hN⟩ (0 : Fin 2) * 5000 + 5000
    omega
  | ⟨1, _⟩ =>
    show win3_4.index ⟨(i 0).val / 5000, hN⟩ (1 : Fin 2) * 16 ≤ (i 1).val
      ∧ (i 1).val < win3_4.index ⟨(i 0).val / 5000, hN⟩ (1 : Fin 2) * 16 + 16
    omega

/-- THE OUTPUT ARRAY after the region: the reference's layer output of the arrays the region reads. -/
theorem combine3 (V : (c : Dev nD) → (b : Ref sig .tc) → Buf (Elt Ideal) ((c : Thread nD τ).loc b)) (c : Dev nD)
    (dd : FVec Ideal S100000 .f32) (b : FVec Ideal S16 .f32)
    (hc : V c main_v12 = shapeCast S100000x1 dd shapeCasts_S100000_S100000x1)
    (hb : V c main_v73 = shapeCast S1x16 b shapeCasts_S16_S1x16) :
    (Gen.dat3 (F := Ideal) V c).arrAt 4 cfg3.N
      = Cert.Gcn.elu16 (F := Ideal) (Cert.Gcn.pre16 (F := Ideal) (V c main_v72) dd (V c main_v44) b) := by
  rw [← Cert.Gcn.combineArr_eq (V c main_v72) (V c main_v44) (V c main_v12) (V c main_v73) dd b
    shapeCasts_S100000_S100000x1 shapeCasts_S16_S1x16 hc hb]
  exact (Gen.dat3 (F := Ideal) V c).arrAt_eq_of_cover 4 _ (fun t _ => flushed3_eq V c t) cover3

end Cert.KernelIdeal.Regions

end
-- ==== Proof.RegionCombine5a.lean ====
/-
  A row-wise log-softmax after an elu of (agg + coef · h + bias), read one entry at a time.

  For one row y of n extended reals, with M the greatest of them (a running maximum started at −∞),
      rowLsm y q = (y q − M) − log Σ_k exp (y k − M).
  A device kernel takes the row maximum and the row sum of a 2-d block by a reduction along axis 1, casts the column of
  results to an [m, 1] array and broadcasts it over the columns; a host program reduces along the same axis, broadcasts
  the result along axis 0 to [m, 1] and then over the columns, and takes the maximum with −∞ once more. At an entry
  (p, q) each of these reads row p's own reduction, so both spellings give rowLsm of row p at q. The elu is z ↦ z for
  z > 0 and exp z − 1 otherwise; the host writes the second branch as 1 · expm1 of z with the positive entries masked
  to 0, which is the same value. The argument of the elu is, at (p, k), agg(p, k) + coef(p) · h(p, k) + bias(k) in both
  programs; the kernel holds coef as an [m, 1] column and bias as a [1, n] row, the host as vectors.
-/
import Idealize.ShloMosaic.PureOps.Ideal.Laws
import Idealize.ShloMosaic.Lib.ValueIdx
import Idealize.ShloMosaic.Lib.ValueLayout
import Idealize.ShloMosaic.Lib.KernelVsHost
import Idealize.ShloMosaic.Lib.IdealHost
import proofs.«137336_j25134148616642_1_alg».proof.Proof.LibBiasRows

noncomputable section

namespace Cert.KernelIdeal.Regions.RowLsm

open Idealize.ShloMosaic Idealize.ShloMosaic.ValueIdx

/-! ## The scalar functions -/

/-- elu on the extended reals: z where 0 < z, else exp z − 1. -/
def eluE (z : EReal) : EReal := Scalar.select (Ideal.cmp .ogt z 0) z (Ideal.exp z - 1)

/-- The greatest entry of a row, from the starting value −∞ (the f32 pattern 0xFF800000). -/
def rowMax {n : ℕ} (y : Fin n → EReal) : EReal := (Finset.univ : Finset (Fin n)).fold max (Ideal.ofBits .f32 0xFF800000#32) y

/-- Log-softmax of a row at entry q. -/
def rowLsm {n : ℕ} (y : Fin n → EReal) (q : Fin n) : EReal :=
  (y q - rowMax y) - Ideal.log (∑ k : Fin n, Ideal.exp (y k - rowMax y))

/-- Taking the maximum with the starting value once more changes nothing. -/
theorem max_rowMax {n : ℕ} (y : Fin n → EReal) : max (Ideal.ofBits .f32 0xFF800000#32) (rowMax y) = rowMax y :=
  max_eq_right ((Finset.le_fold_max _).2 (Or.inl le_rfl))

/-- The host's spelling of elu: the branch for z ≤ 0 is 1 · (exp z' − 1) with z' the entry masked to 0 where z > 0. -/
theorem hostElu_eq (z : EReal) :
    Scalar.select (Ideal.cmp .ogt z 0) z (1 * (Ideal.exp (Scalar.select (Ideal.cmp .ogt z 0) 0 z) - 1)) = eluE z := by
  unfold eluE
  by_cases h : Ideal.cmp .ogt z 0 = 1#1
  · rw [h, select_one, select_one]
  · rw [eq_zero_of_ne_one h, select_zero, select_zero, select_zero, one_mul]

/-! ## Elementwise functions at an index -/

section Pointwise
variable {s : Shape}

theorem exp_apply (x : FVec Ideal s .f32) (i : s.Idx) : exp x i = Ideal.exp (x i) := rfl
theorem log_apply (x : FVec Ideal s .f32) (i : s.Idx) : log x i = Ideal.log (x i) := rfl
theorem hostExp_apply (x : FVec Ideal s .f32) (i : s.Idx) : Host.exp x i = Ideal.exp (x i) := rfl
theorem hostLog_apply (x : FVec Ideal s .f32) (i : s.Idx) : Host.log x i = Ideal.log (x i) := rfl
theorem hostExpm1_apply (x : FVec Ideal s .f32) (i : s.Idx) : Host.expm1 x i = Ideal.exp (x i) - 1 := rfl

end Pointwise

/-! ## A column of per-row values laid over the columns, in both programs' spellings -/

section Layout
variable {α : Type}

/-- An [a] array cast to [a, 1] reads, at (p, u), the operand at p. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An [a, 1] array broadcast to [a, b] reads, at (p, c), the operand's row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's [a] → [a, 1] broadcast along axis 0 reads, at (p, u), the operand at p. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply ![0] h x (ix2 p u) (ix1 p) fun ax => ?_
  match ax with
  | ⟨0, _⟩ =>
    show p.val = if a = 1 then 0 else p.val
    split
    · have := p.isLt; omega
    · rfl

/-- The host's [a, 1] → [a, b] broadcast reads, at (p, c), the operand's row p. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## Reductions along axis 1 of an [m, n] array, read at a row -/

section Rows
variable {m n : ℕ}

/-- The source index over row p with column k inserted is (p, k). -/
theorem lift_row (h : (⟨2, ![m, n]⟩ : Shape).Reduces [1] ⟨1, ![m]⟩) (p : Fin m) (k : Fin n) :
    h.lift (ix1 p) k = ix2 p k := by
  funext c
  apply Fin.ext
  match c with
  | ⟨0, _⟩ => rfl
  | ⟨1, _⟩ => rfl

/-- A device maximum along axis 1 at row p: the running maximum over the row's entries. -/
theorem multiReduction_max_row (e : FVec Ideal ⟨2, ![m, n]⟩ .f32) (h : (⟨2, ![m, n]⟩ : Shape).Reduces [1] ⟨1, ![m]⟩)
    (hφ : FKind.Formats .f32) (hacc : (0xFF800000#32 : BitVec 32) = 0xFF800000#32) (p : Fin m) :
    multiReduction .maximumf [1] ⟨1, ![m]⟩ e 0xFF800000#32 h hφ hacc (ix1 p) = rowMax fun k : Fin n => e (ix2 p k) := by
  refine (Ideal.multiReduction_maximumf_single e _ h hφ hacc (ix1 p)).trans ?_
  unfold rowMax
  refine congrArg (Finset.univ.fold max _) (funext fun k => ?_)
  exact congrArg e (lift_row h p k)

/-- A host maximum along axis 1 at row p: the running maximum over the row's entries, from the initial value. -/
theorem hostReduce_max_row {u : Shape} (z : FVec Ideal ⟨2, ![m, n]⟩ .f32) (init : u.Idx → Ideal .f32)
    (h' : (⟨2, ![m, n]⟩ : Shape).ReducesTo [1] ⟨1, ![m]⟩) (hu : 0 < u.numel) (p : Fin m) :
    Host.reduce FloatOps.maximumf z init h' hu (ix1 p)
      = (Finset.univ : Finset (Fin n)).fold max (init (Shape.Idx.first hu)) fun k : Fin n => z (ix2 p k) := by
  have h : (⟨2, ![m, n]⟩ : Shape).Reduces [1] ⟨1, ![m]⟩ := ⟨h'.1, Nat.one_pos, h'.2⟩
  refine (Host.reduce_eq_fold_single FloatOps.maximumf z init h' h hu (ix1 p)).trans ?_
  refine congrArg (Finset.univ.fold max _) (funext fun k => ?_)
  exact congrArg z (lift_row h p k)

/-- A device sum along axis 1 at row p: the sum of the row's entries. -/
theorem multiReduction_add_row (e : FVec Ideal ⟨2, ![m, n]⟩ .f32) (h : (⟨2, ![m, n]⟩ : Shape).Reduces [1] ⟨1, ![m]⟩)
    (hφ : FKind.Formats .f32) (hacc : (0x00000000#32 : BitVec 32) = 0x00000000#32) (p : Fin m) :
    multiReduction .add [1] ⟨1, ![m]⟩ e 0x00000000#32 h hφ hacc (ix1 p) = ∑ k : Fin n, e (ix2 p k) := by
  refine (Ideal.multiReduction_add_single e _ h hφ hacc (ix1 p)).trans ?_
  exact Finset.sum_congr rfl fun k _ => congrArg e (lift_row h p k)

/-- A host sum along axis 1 at row p: the initial value plus the sum of the row's entries. -/
theorem hostReduceAdd_row {u : Shape} (x : FVec Ideal ⟨2, ![m, n]⟩ .f32) (init : u.Idx → Ideal .f32)
    (h' : (⟨2, ![m, n]⟩ : Shape).ReducesTo [1] ⟨1, ![m]⟩) (hu : 0 < u.numel) (p : Fin m) :
    Host.reduceAdd x init h' hu (ix1 p) = init (Shape.Idx.first hu) + ∑ k : Fin n, x (ix2 p k) := by
  have h : (⟨2, ![m, n]⟩ : Shape).Reduces [1] ⟨1, ![m]⟩ := ⟨h'.1, Nat.one_pos, h'.2⟩
  rw [hostReduceAdd_apply]
  refine (Ideal.hostReduceAdd_single h' h x _ (ix1 p)).trans ?_
  exact congrArg (_ + ·) (Finset.sum_congr rfl fun k _ => congrArg x (lift_row h p k))

end Rows

/-! ## The kernel's spelling on an [m, n] block -/

section Kernel
variable {m n : ℕ}

/-- agg + coef · h + bias, the coefficient an [m, 1] column and the bias a [1, n] row, each cast to its own shape first. -/
def kPre (x0 x1 : FVec Ideal ⟨2, ![m, n]⟩ .f32) (x2 : FVec Ideal ⟨2, ![m, 1]⟩ .f32) (x3 : FVec Ideal ⟨2, ![1, n]⟩ .f32)
    (c0 : (⟨2, ![m, n]⟩ : Shape).ShapeCasts ⟨2, ![m, n]⟩) (c2 : (⟨2, ![m, 1]⟩ : Shape).ShapeCasts ⟨2, ![m, 1]⟩)
    (c3 : (⟨2, ![1, n]⟩ : Shape).ShapeCasts ⟨2, ![1, n]⟩) (b2 : (⟨2, ![m, 1]⟩ : Shape).Broadcasts ⟨2, ![m, n]⟩)
    (b3 : (⟨2, ![1, n]⟩ : Shape).Broadcasts ⟨2, ![m, n]⟩) : FVec Ideal ⟨2, ![m, n]⟩ .f32 :=
  addf (addf (shapeCast ⟨2, ![m, n]⟩ x1 c0) (mulf (broadcastTo ⟨2, ![m, n]⟩ (shapeCast ⟨2, ![m, 1]⟩ x2 c2) b2) (shapeCast ⟨2, ![m, n]⟩ x0 c0)))
    (broadcastTo ⟨2, ![m, n]⟩ (shapeCast ⟨2, ![1, n]⟩ x3 c3) b3)

theorem kPre_apply (x0 x1 : FVec Ideal ⟨2, ![m, n]⟩ .f32) (x2 : FVec Ideal ⟨2, ![m, 1]⟩ .f32) (x3 : FVec Ideal ⟨2, ![1, n]⟩ .f32)
    (c0 : (⟨2, ![m, n]⟩ : Shape).ShapeCasts ⟨2, ![m, n]⟩) (c2 : (⟨2, ![m, 1]⟩ : Shape).ShapeCasts ⟨2, ![m, 1]⟩)
    (c3 : (⟨2, ![1, n]⟩ : Shape).ShapeCasts ⟨2, ![1, n]⟩) (b2 : (⟨2, ![m, 1]⟩ : Shape).Broadcasts ⟨2, ![m, n]⟩)
    (b3 : (⟨2, ![1, n]⟩ : Shape).Broadcasts ⟨2, ![m, n]⟩) (p : Fin m) (q : Fin n) :
    kPre x0 x1 x2 x3 c0 c2 c3 b2 b3 (ix2 p q)
      = (x1 (ix2 p q) + x2 (ix2 p (0 : Fin 1)) * x0 (ix2 p q)) + x3 (ix2 (0 : Fin 1) q) := by
  unfold kPre
  rw [addf_apply, addf_apply, mulf_apply, broadcastTo_a1_ab_apply, broadcastTo_1b_ab_apply, shapeCast_self, shapeCast_self,
    shapeCast_self, shapeCast_self]

/-- The kernel's elu: z where z > 0, else exp z − 1. -/
def kElu {s : Shape} (z : FVec Ideal s .f32) : FVec Ideal s .f32 :=
  select (cmpf .ogt z (broadcast s (Scalar.ofBits .f32 0x00000000#32))) z
    (subf (exp z) (broadcast s (Scalar.ofBits .f32 0x3F800000#32)))

theorem kElu_apply {s : Shape} (z : FVec Ideal s .f32) (i : s.Idx) : kElu z i = eluE (z i) := by
  unfold kElu eluE
  rw [select_apply, cmpf_apply, subf_apply, exp_apply, broadcast_apply, broadcast_apply, Ideal.cmpf_def, Ideal.ofBits_def,
    Ideal.ofBits_def, Ideal.ofBits_zero_f32, Ideal.ofBits_one_f32]

/-- The kernel's row-wise log-softmax of a block. -/
def kLsm (e : FVec Ideal ⟨2, ![m, n]⟩ .f32) (hr : (⟨2, ![m, n]⟩ : Shape).Reduces [1] ⟨1, ![m]⟩) (hφ : FKind.Formats .f32)
    (hmax : (0xFF800000#32 : BitVec 32) = 0xFF800000#32) (hadd : (0x00000000#32 : BitVec 32) = 0x00000000#32)
    (hs : (⟨1, ![m]⟩ : Shape).ShapeCasts ⟨2, ![m, 1]⟩) (hb : (⟨2, ![m, 1]⟩ : Shape).Broadcasts ⟨2, ![m, n]⟩) :
    FVec Ideal ⟨2, ![m, n]⟩ .f32 :=
  subf (subf e (broadcastTo ⟨2, ![m, n]⟩ (shapeCast ⟨2, ![m, 1]⟩ (multiReduction .maximumf [1] ⟨1, ![m]⟩ e 0xFF800000#32 hr hφ hmax) hs) hb))
    (broadcastTo ⟨2, ![m, n]⟩ (log (shapeCast ⟨2, ![m, 1]⟩ (multiReduction .add [1] ⟨1, ![m]⟩
      (exp (subf e (broadcastTo ⟨2, ![m, n]⟩ (shapeCast ⟨2, ![m, 1]⟩ (multiReduction .maximumf [1] ⟨1, ![m]⟩ e 0xFF800000#32 hr hφ hmax) hs) hb)))
      0x00000000#32 hr hφ hadd) hs)) hb)

theorem kLsm_apply (e : FVec Ideal ⟨2, ![m, n]⟩ .f32) (hr : (⟨2, ![m, n]⟩ : Shape).Reduces [1] ⟨1, ![m]⟩) (hφ : FKind.Formats .f32)
    (hmax : (0xFF800000#32 : BitVec 32) = 0xFF800000#32) (hadd : (0x00000000#32 : BitVec 32) = 0x00000000#32)
    (hs : (⟨1, ![m]⟩ : Shape).ShapeCasts ⟨2, ![m, 1]⟩) (hb : (⟨2, ![m, 1]⟩ : Shape).Broadcasts ⟨2, ![m, n]⟩) (p : Fin m) (q : Fin n) :
    kLsm e hr hφ hmax hadd hs hb (ix2 p q) = rowLsm (fun k : Fin n => e (ix2 p k)) q := by
  have hM : ∀ c : Fin n, broadcastTo ⟨2, ![m, n]⟩ (shapeCast ⟨2, ![m, 1]⟩
      (multiReduction .maximumf [1] ⟨1, ![m]⟩ e 0xFF800000#32 hr hφ hmax) hs) hb (ix2 p c) = rowMax fun k : Fin n => e (ix2 p k) := fun c => by
    rw [broadcastTo_a1_ab_apply, shapeCast_a_a1_apply]
    exact multiReduction_max_row e hr hφ hmax p
  unfold kLsm rowLsm
  rw [subf_apply, subf_apply, hM q, broadcastTo_a1_ab_apply, log_apply, shapeCast_a_a1_apply, multiReduction_add_row]
  refine congrArg (fun t => _ - Ideal.log t) (Finset.sum_congr rfl fun k _ => ?_)
  rw [exp_apply, subf_apply, hM k]

end Kernel

/-! ## The host's spelling on an [m, n] array -/

section Host
variable {m n : ℕ}

/-- agg + coef · h + bias, the coefficient and the bias vectors broadcast along axis 0 resp. 1 and then over the array. -/
def hPre (agg : FVec Ideal ⟨2, ![m, n]⟩ .f32) (dd : FVec Ideal ⟨1, ![m]⟩ .f32) (h : FVec Ideal ⟨2, ![m, n]⟩ .f32)
    (b : FVec Ideal ⟨1, ![n]⟩ .f32) (g1 : (⟨1, ![m]⟩ : Shape).BroadcastsInDim ⟨2, ![m, 1]⟩ ![0])
    (g2 : (⟨2, ![m, 1]⟩ : Shape).BroadcastsInDim ⟨2, ![m, n]⟩ ![0, 1]) (g3 : (⟨1, ![n]⟩ : Shape).BroadcastsInDim ⟨2, ![1, n]⟩ ![1])
    (g4 : (⟨2, ![1, n]⟩ : Shape).BroadcastsInDim ⟨2, ![m, n]⟩ ![0, 1]) : FVec Ideal ⟨2, ![m, n]⟩ .f32 :=
  addf (addf agg (mulf (broadcastInDim ⟨2, ![m, n]⟩ ![0, 1] g2 (broadcastInDim ⟨2, ![m, 1]⟩ ![0] g1 dd)) h))
    (broadcastInDim ⟨2, ![m, n]⟩ ![0, 1] g4 (broadcastInDim ⟨2, ![1, n]⟩ ![1] g3 b))

theorem hPre_apply (agg : FVec Ideal ⟨2, ![m, n]⟩ .f32) (dd : FVec Ideal ⟨1, ![m]⟩ .f32) (h : FVec Ideal ⟨2, ![m, n]⟩ .f32)
    (b : FVec Ideal ⟨1, ![n]⟩ .f32) (g1 : (⟨1, ![m]⟩ : Shape).BroadcastsInDim ⟨2, ![m, 1]⟩ ![0])
    (g2 : (⟨2, ![m, 1]⟩ : Shape).BroadcastsInDim ⟨2, ![m, n]⟩ ![0, 1]) (g3 : (⟨1, ![n]⟩ : Shape).BroadcastsInDim ⟨2, ![1, n]⟩ ![1])
    (g4 : (⟨2, ![1, n]⟩ : Shape).BroadcastsInDim ⟨2, ![m, n]⟩ ![0, 1]) (r : Fin m) (q : Fin n) :
    hPre agg dd h b g1 g2 g3 g4 (ix2 r q) = (agg (ix2 r q) + dd (ix1 r) * h (ix2 r q)) + b (ix1 q) := by
  unfold hPre
  rw [addf_apply, addf_apply, mulf_apply, broadcastInDim_a1_ab_apply, broadcastInDim_a_a1_apply, BiasRows.hostRows_apply]

/-- The host's elu: z where z > 0, else 1 · expm1 of z masked to 0 where z > 0. -/
def hElu {s : Shape} (z : FVec Ideal s .f32) (g0 : (⟨0, ![]⟩ : Shape).BroadcastsInDim s ![]) : FVec Ideal s .f32 :=
  select (cmpf .ogt z (broadcastInDim s ![] g0 (constant ⟨0, ![]⟩ .f32 0x00000000#32))) z
    (mulf (broadcastInDim s ![] g0 (constant ⟨0, ![]⟩ .f32 0x3F800000#32))
      (Host.expm1 (select (cmpf .ogt z (broadcastInDim s ![] g0 (constant ⟨0, ![]⟩ .f32 0x00000000#32)))
        (broadcastInDim s ![] g0 (id (constant ⟨0, ![]⟩ .f32 0x00000000#32))) z)))

theorem hElu_apply {s : Shape} (z : FVec Ideal s .f32) (g0 : (⟨0, ![]⟩ : Shape).BroadcastsInDim s ![]) (i : s.Idx) :
    hElu z g0 i = eluE (z i) := by
  unfold hElu
  rw [select_apply, cmpf_apply, mulf_apply, hostExpm1_apply, select_apply, cmpf_apply, id, broadcastInDim_scalar_apply,
    broadcastInDim_scalar_apply, constant_apply, constant_apply, Ideal.cmpf_def, Ideal.ofBits_zero_f32, Ideal.ofBits_one_f32]
  exact hostElu_eq (z i)

/-- The host's row maximum, taken with −∞ once more. -/
def hMax (z : FVec Ideal ⟨2, ![m, n]⟩ .f32) (g0 : (⟨0, ![]⟩ : Shape).BroadcastsInDim ⟨1, ![m]⟩ ![])
    (hr : (⟨2, ![m, n]⟩ : Shape).ReducesTo [1] ⟨1, ![m]⟩) (hu : 0 < (⟨0, ![]⟩ : Shape).numel) : FVec Ideal ⟨1, ![m]⟩ .f32 :=
  maximumf (broadcastInDim ⟨1, ![m]⟩ ![] g0 (constant ⟨0, ![]⟩ .f32 0xFF800000#32))
    (Host.reduce FloatOps.maximumf z (constant ⟨0, ![]⟩ .f32 0xFF800000#32) hr hu)

theorem hMax_apply (z : FVec Ideal ⟨2, ![m, n]⟩ .f32) (g0 : (⟨0, ![]⟩ : Shape).BroadcastsInDim ⟨1, ![m]⟩ ![])
    (hr : (⟨2, ![m, n]⟩ : Shape).ReducesTo [1] ⟨1, ![m]⟩) (hu : 0 < (⟨0, ![]⟩ : Shape).numel) (r : Fin m) :
    hMax z g0 hr hu (ix1 r) = rowMax fun k : Fin n => z (ix2 r k) := by
  unfold hMax
  rw [maximumf_apply, broadcastInDim_scalar_apply, constant_apply, hostReduce_max_row, constant_apply]
  exact max_rowMax _

/-- The host's row-wise log-softmax. -/
def hLsm (z : FVec Ideal ⟨2, ![m, n]⟩ .f32) (g0 : (⟨0, ![]⟩ : Shape).BroadcastsInDim ⟨1, ![m]⟩ ![])
    (g1 : (⟨1, ![m]⟩ : Shape).BroadcastsInDim ⟨2, ![m, 1]⟩ ![0]) (g2 : (⟨2, ![m, 1]⟩ : Shape).BroadcastsInDim ⟨2, ![m, n]⟩ ![0, 1])
    (hr : (⟨2, ![m, n]⟩ : Shape).ReducesTo [1] ⟨1, ![m]⟩) (hu : 0 < (⟨0, ![]⟩ : Shape).numel) : FVec Ideal ⟨2, ![m, n]⟩ .f32 :=
  subf (subf z (broadcastInDim ⟨2, ![m, n]⟩ ![0, 1] g2 (broadcastInDim ⟨2, ![m, 1]⟩ ![0] g1 (hMax z g0 hr hu))))
    (broadcastInDim ⟨2, ![m, n]⟩ ![0, 1] g2 (Host.log (broadcastInDim ⟨2, ![m, 1]⟩ ![0] g1
      (Host.reduceAdd (Host.exp (subf z (broadcastInDim ⟨2, ![m, n]⟩ ![0, 1] g2 (broadcastInDim ⟨2, ![m, 1]⟩ ![0] g1 (hMax z g0 hr hu)))))
        (constant ⟨0, ![]⟩ .f32 0x00000000#32) hr hu))))

theorem hLsm_apply (z : FVec Ideal ⟨2, ![m, n]⟩ .f32) (g0 : (⟨0, ![]⟩ : Shape).BroadcastsInDim ⟨1, ![m]⟩ ![])
    (g1 : (⟨1, ![m]⟩ : Shape).BroadcastsInDim ⟨2, ![m, 1]⟩ ![0]) (g2 : (⟨2, ![m, 1]⟩ : Shape).BroadcastsInDim ⟨2, ![m, n]⟩ ![0, 1])
    (hr : (⟨2, ![m, n]⟩ : Shape).ReducesTo [1] ⟨1, ![m]⟩) (hu : 0 < (⟨0, ![]⟩ : Shape).numel) (r : Fin m) (q : Fin n) :
    hLsm z g0 g1 g2 hr hu (ix2 r q) = rowLsm (fun k : Fin n => z (ix2 r k)) q := by
  have hM : ∀ c : Fin n, broadcastInDim ⟨2, ![m, n]⟩ ![0, 1] g2 (broadcastInDim ⟨2, ![m, 1]⟩ ![0] g1 (hMax z g0 hr hu)) (ix2 r c)
      = rowMax fun k : Fin n => z (ix2 r k) := fun c => by
    rw [broadcastInDim_a1_ab_apply, broadcastInDim_a_a1_apply, hMax_apply]
  unfold hLsm rowLsm
  rw [subf_apply, subf_apply, hM q, broadcastInDim_a1_ab_apply, hostLog_apply, broadcastInDim_a_a1_apply, hostReduceAdd_row,
    constant_apply, Ideal.ofBits_zero_f32, zero_add]
  refine congrArg (fun t => _ - Ideal.log t) (Finset.sum_congr rfl fun k _ => ?_)
  rw [hostExp_apply, subf_apply, hM k]

end Host

end Cert.KernelIdeal.Regions.RowLsm

end
-- ==== Proof.RegionCombine5.lean ====
/-
  The last region: every row tile of the output is the row-wise log-softmax of the elu of agg + coef · h + bias.

  Block t of a row-tiled window holds rows 5000 t … 5000 t + 4999 of its array and all of its columns, so a row's 32
  entries lie in one block and the row reductions of the block are the row reductions of the array; the coefficient
  column's block holds the same rows, and the bias row is its own single block. Entry (p, q) of what point t writes
  back is therefore the reference's value at (5000 t + p, q). The 20 blocks cover the 100000 rows, so the array ends
  holding the reference's function everywhere.
-/
import proofs.«137336_j25134148616642_1_alg».proof.Proof.Gen.KernelIdeal.Frame
import proofs.«137336_j25134148616642_1_alg».proof.Proof.Gen.ReferenceIdeal
import proofs.«137336_j25134148616642_1_alg».proof.Proof.Spec
import proofs.«137336_j25134148616642_1_alg».proof.Proof.LibBiasRows
import proofs.«137336_j25134148616642_1_alg».proof.Proof.RegionCombine5a
import Idealize.ShloMosaic.Lib.Pipeline.Value
import Idealize.ShloMosaic.Lib.ValueIdx
import Idealize.ShloMosaic.Lib.ValueLayout

noncomputable section

namespace Cert.KernelIdeal.Regions

open Cert.KernelIdeal Idealize.ShloMosaic Idealize.ShloMosaic.TcCoe Idealize.SL.Sem Cert.KernelIdeal.Facts₀ Cert.KernelIdeal.Facts
open Idealize.ShloMosaic.ValueIdx Cert.KernelIdeal.Regions.RowLsm
open Idealize.ShloMosaic.Pipeline (Dat)

/-! ## The two programs' entries as the row function -/

/-- The reference's last layer at (r, q): the log-softmax of row r of elu (agg + dd · h + b), at q. -/
theorem ref5_apply (agg : FVec Ideal S100000x32 .f32) (dd : FVec Ideal S100000 .f32) (h : FVec Ideal S100000x32 .f32)
    (b : FVec Ideal S32 .f32) (r : Fin 100000) (q : Fin 32) :
    Cert.Gcn.lsm (F := Ideal) (Cert.Gcn.elu32 (F := Ideal) (Cert.Gcn.pre32 (F := Ideal) agg dd h b)) (ix2 r q)
      = rowLsm (fun k : Fin 32 => eluE ((agg (ix2 r k) + dd (ix1 r) * h (ix2 r k)) + b (ix1 k))) q := by
  have e : Cert.Gcn.lsm (F := Ideal) (Cert.Gcn.elu32 (F := Ideal) (Cert.Gcn.pre32 (F := Ideal) agg dd h b))
      = hLsm (hElu (hPre agg dd h b Cert.ReferenceIdeal.Facts₀.bcast_S100000_S100000x1_0
            Cert.ReferenceIdeal.Facts₀.bcast_S100000x1_S100000x32_0_1 Cert.ReferenceIdeal.Facts₀.bcast_S32_S1x32_1
            Cert.ReferenceIdeal.Facts₀.bcast_S1x32_S100000x32_0_1) Cert.ReferenceIdeal.Facts₀.bcast_S_S100000x32)
          Cert.ReferenceIdeal.Facts₀.bcast_S_S100000 Cert.ReferenceIdeal.Facts₀.bcast_S100000_S100000x1_0
          Cert.ReferenceIdeal.Facts₀.bcast_S100000x1_S100000x32_0_1 Cert.ReferenceIdeal.Facts₀.reducesTo_S100000x32_S100000_d1
          Cert.ReferenceIdeal.Facts₀.h_S_ := rfl
  rw [e, hLsm_apply]
  simp only [hElu_apply, hPre_apply]

/-- The kernel's payload at (p, q) of a block: the log-softmax of row p of elu (x1 + x2 · x0 + x3), at q. -/
theorem pay5_apply (x0 x1 : FVec Ideal S5000x32 .f32) (x2 : FVec Ideal S5000x1 .f32) (x3 : FVec Ideal S1x32 .f32)
    (p : Fin 5000) (q : Fin 32) :
    Gen.k5_pay1 (F := Ideal) x0 x1 x2 x3 (ix2 p q)
      = rowLsm (fun k : Fin 32 => eluE ((x1 (ix2 p k) + x2 (ix2 p (0 : Fin 1)) * x0 (ix2 p k)) + x3 (ix2 (0 : Fin 1) k))) q := by
  have e : Gen.k5_pay1 (F := Ideal) x0 x1 x2 x3
      = kLsm (kElu (kPre x0 x1 x2 x3 shapeCasts_S5000x32_S5000x32 shapeCasts_S5000x1_S5000x1 shapeCasts_S1x32_S1x32
            broadcasts_S5000x1_S5000x32 broadcasts_S1x32_S5000x32))
          reduces_S5000x32_S5000 (.inl rfl) rfl rfl shapeCasts_S5000_S5000x1 broadcasts_S5000x1_S5000x32 := rfl
  rw [e, kLsm_apply]
  simp only [kElu_apply, kPre_apply]

/-! ## Blocks of the arrays -/

theorem hz5 : (![0, 0] : Fin 2 → Nat) = fun _ => 0 := funext fun a => by fin_cases a <;> rfl

/-- The index maps over the grid: the four row-tiled windows sit at block (t, 0), the bias row at block (0, 0). -/
theorem idx_facts5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

section Blocks
variable (V : (c : Dev nD) → (b : Ref sig .tc) → Buf (Elt Ideal) ((c : Thread nD τ).loc b)) (c : Dev nD)

/-- Block t of h is rows 5000 t … of the array. -/
theorem iblk5_0_apply (t : Fin cfg5.N) (x : S5000x32.Idx) (k : S100000x32.Idx)
    (hk0 : (k 0).val = 5000 * t.val + (x 0).val) (hk1 : (k 1).val = (x 1).val) :
    (Gen.iblk5 (F := Ideal) V c 0 t : Vec Ideal S5000x32 .f32) x = (V c main_v75 : S100000x32.Idx → EReal) k := by
  obtain ⟨e0, e1, -⟩ := idx_facts5 t
  unfold Gen.iblk5
  rw [View.read_apply]
  show V c main_v75 _ = V c main_v75 _
  refine congrArg (V c main_v75) (funext fun a => Fin.ext ?_)
  match a with
  | ⟨0, _⟩ => show win5_0.index t (0 : Fin 2) * 5000 + 1 * (x 0).val = (k 0).val; rw [e0, hk0]; omega
  | ⟨1, _⟩ => show win5_0.index t (1 : Fin 2) * 32 + 1 * (x 1).val = (k 1).val; rw [e1, hk1]; omega

/-- Block t of agg is rows 5000 t … of the array. -/
theorem iblk5_1_apply (t : Fin cfg5.N) (x : S5000x32.Idx) (k : S100000x32.Idx)
    (hk0 : (k 0).val = 5000 * t.val + (x 0).val) (hk1 : (k 1).val = (x 1).val) :
    (Gen.iblk5 (F := Ideal) V c 1 t : Vec Ideal S5000x32 .f32) x = (V c main_v103 : S100000x32.Idx → EReal) k := by
  obtain ⟨-, -, e0, e1, -⟩ := idx_facts5 t
  unfold Gen.iblk5
  rw [View.read_apply]
  show V c main_v103 _ = V c main_v103 _
  refine congrArg (V c main_v103) (funext fun a => Fin.ext ?_)
  match a with
  | ⟨0, _⟩ => show win5_1.index t (0 : Fin 2) * 5000 + 1 * (x 0).val = (k 0).val; rw [e0, hk0]; omega
  | ⟨1, _⟩ => show win5_1.index t (1 : Fin 2) * 32 + 1 * (x 1).val = (k 1).val; rw [e1, hk1]; omega

/-- Block t of the coefficient column is rows 5000 t … of the column. -/
theorem iblk5_2_apply (t : Fin cfg5.N) (x : S5000x1.Idx) (k : S100000x1.Idx)
    (hk0 : (k 0).val = 5000 * t.val + (x 0).val) (hk1 : (k 1).val = (x 1).val) :
    (Gen.iblk5 (F := Ideal) V c 2 t : Vec Ideal S5000x1 .f32) x = (V c main_v12 : S100000x1.Idx → EReal) k := by
  obtain ⟨-, -, -, -, e0, e1, -⟩ := idx_facts5 t
  unfold Gen.iblk5
  rw [View.read_apply]
  show V c main_v12 _ = V c main_v12 _
  refine congrArg (V c main_v12) (funext fun a => Fin.ext ?_)
  match a with
  | ⟨0, _⟩ => show win5_2.index t (0 : Fin 2) * 5000 + 1 * (x 0).val = (k 0).val; rw [e0, hk0]; omega
  | ⟨1, _⟩ => show win5_2.index t (1 : Fin 2) * 1 + 1 * (x 1).val = (k 1).val; rw [e1, hk1]; omega

/-- The bias row's one block is the row. -/
theorem iblk5_3_apply (t : Fin cfg5.N) (x : S1x32.Idx) :
    (Gen.iblk5 (F := Ideal) V c 3 t : Vec Ideal S1x32 .f32) x = (V c main_v104 : S1x32.Idx → EReal) x := by
  obtain ⟨-, -, -, -, -, -, e0, e1, -⟩ := idx_facts5 t
  unfold Gen.iblk5
  rw [View.read_apply]
  show V c main_v104 _ = V c main_v104 _
  refine congrArg (V c main_v104) (funext fun a => Fin.ext ?_)
  match a with
  | ⟨0, _⟩ => show win5_3.index t (0 : Fin 2) * 1 + 1 * (x 0).val = (x 0).val; rw [e0]; omega
  | ⟨1, _⟩ => show win5_3.index t (1 : Fin 2) * 32 + 1 * (x 1).val = (x 1).val; rw [e1]; omega

end Blocks

/-! ## What each point writes back, the cover, and the array after the region -/

section Final
variable (V : (c : Dev nD) → (b : Ref sig .tc) → Buf (Elt Ideal) ((c : Thread nD τ).loc b)) (c : Dev nD)
  (dd : FVec Ideal S100000 .f32) (b : FVec Ideal S32 .f32)

/-- Point t writes back block t of the reference's function of the arrays the region finds. -/
theorem flushed5_eq (hc : V c main_v12 = shapeCast S100000x1 dd shapeCasts_S100000_S100000x1)
    (hb : V c main_v104 = shapeCast S1x32 b shapeCasts_S32_S1x32) (t : Fin cfg5.N) :
    (Gen.dat5 (F := Ideal) V c).flushed 4 t = ((cfg5.win 4).blk t).view.read (Elt Ideal)
      (Cert.Gcn.lsm (F := Ideal) (Cert.Gcn.elu32 (F := Ideal) (Cert.Gcn.pre32 (F := Ideal) (V c main_v103) dd (V c main_v75) b))) := by
  show (cfg5.win 4).cut (grid5.coords t) ((Gen.dat5 (F := Ideal) V c).after 4 t) = _
  rw [Gen.after5_4]
  unfold Gen.out5_4
  rw [View.canon_unit_zero hz5]
  simp only [View.ld_unit_zero (S := S5000x32) hz5, View.ld_unit_zero (S := S5000x1) hz5, View.ld_unit_zero (S := S1x32) hz5]
  obtain ⟨-, -, -, -, -, -, -, -, e0, e1⟩ := idx_facts5 t
  funext j
  obtain ⟨p, q, rfl⟩ : ∃ (p : Fin 5000) (q : Fin 32), j = (ix2 p q : S5000x32.Idx) := ⟨j 0, j 1, eq_ix2 (n0 := 5000) (n1 := 32) j⟩
  have hr : 5000 * t.val + p.val < 100000 := by have := t.isLt; have := p.isLt; have hN : cfg5.N = 20 := Gen.N_5; omega
  have hemb : ((cfg5.win 4).blk t).view.emb (ix2 p q : S5000x32.Idx) = (ix2 (⟨5000 * t.val + p.val, hr⟩ : Fin 100000) q : S100000x32.Idx) := by
    funext a; apply Fin.ext
    match a with
    | ⟨0, _⟩ => show win5_4.index t (0 : Fin 2) * 5000 + 1 * p.val = 5000 * t.val + p.val; rw [e0]; omega
    | ⟨1, _⟩ => show win5_4.index t (1 : Fin 2) * 32 + 1 * q.val = q.val; rw [e1]; omega
  show Gen.k5_pay1 (F := Ideal) (Gen.iblk5 V c 0 t) (Gen.iblk5 V c 1 t) (Gen.iblk5 V c 2 t) (Gen.iblk5 V c 3 t) (ix2 p q)
    = Cert.Gcn.lsm (F := Ideal) (Cert.Gcn.elu32 (F := Ideal) (Cert.Gcn.pre32 (F := Ideal) (V c main_v103) dd (V c main_v75) b))
        (((cfg5.win 4).blk t).view.emb (ix2 p q : S5000x32.Idx))
  rw [hemb, ref5_apply]
  refine (pay5_apply _ _ _ _ p q).trans ?_
  refine congrArg (fun y : Fin 32 → EReal => rowLsm y q) (funext fun k => ?_)
  rw [iblk5_0_apply V c t (ix2 p k) (ix2 (⟨5000 * t.val + p.val, hr⟩ : Fin 100000) k) rfl rfl,
    iblk5_1_apply V c t (ix2 p k) (ix2 (⟨5000 * t.val + p.val, hr⟩ : Fin 100000) k) rfl rfl,
    iblk5_2_apply V c t (ix2 p (0 : Fin 1)) (ix2 (⟨5000 * t.val + p.val, hr⟩ : Fin 100000) (0 : Fin 1)) rfl rfl,
    iblk5_3_apply V c t (ix2 (0 : Fin 1) k), hc, hb, shapeCast_a_a1_apply, shapeCast_a_1a_apply]

/-- An index of the output array is in point t's block iff each coordinate is in the block's range on its axis. -/
theorem mem_blk5 (t : Fin cfg5.N) (i : S100000x32.Idx) :
    i ∈ ((cfg5.win 4).blk t).view.set ↔ ∀ a : Fin 2, win5_4.index t a * S5000x32.size a ≤ (i a).val ∧ (i a).val < win5_4.index t a * S5000x32.size a + S5000x32.size a := by
  show i ∈ ((View.whole main_v105).slice (win5_4.rect t)).set ↔ _
  rw [View.set_slice_whole, Rect.mem_set_unit]
  exact Iff.rfl

/-- Every row lies in the block of the point its number divided by 5000 names. -/
theorem cover5 (i : S100000x32.Idx) : ∃ t : Fin cfg5.N, (cfg5.win 4).flush t = true ∧ i ∈ ((cfg5.win 4).blk t).view.set := by
  have hi0 : (i 0).val < 100000 := (i 0).isLt
  have hi1 : (i 1).val < 32 := (i 1).isLt
  have hN : cfg5.N = 20 := Gen.N_5
  refine ⟨⟨(i 0).val / 5000, by omega⟩, Gen.flush5_4 _, ?_⟩
  obtain ⟨-, -, -, -, -, -, -, -, e0, e1⟩ := idx_facts5 ⟨(i 0).val / 5000, by omega⟩
  rw [mem_blk5]
  intro a
  match a with
  | ⟨0, _⟩ =>
    show win5_4.index _ (0 : Fin 2) * 5000 ≤ (i 0).val ∧ (i 0).val < win5_4.index _ (0 : Fin 2) * 5000 + 5000
    rw [e0]; show (i 0).val / 5000 * 5000 ≤ (i 0).val ∧ (i 0).val < (i 0).val / 5000 * 5000 + 5000; omega
  | ⟨1, _⟩ =>
    show win5_4.index _ (1 : Fin 2) * 32 ≤ (i 1).val ∧ (i 1).val < win5_4.index _ (1 : Fin 2) * 32 + 32
    rw [e1]; omega

end Final

/-- The output array after the region is the reference's last layer of the arrays the region finds. -/
theorem combine5 (V : (c : Dev nD) → (b : Ref sig .tc) → Buf (Elt Ideal) ((c : Thread nD τ).loc b)) (c : Dev nD)
    (dd : FVec Ideal S100000 .f32) (b : FVec Ideal S32 .f32)
    (hc : V c main_v12 = shapeCast S100000x1 dd shapeCasts_S100000_S100000x1)
    (hb : V c main_v104 = shapeCast S1x32 b shapeCasts_S32_S1x32) :
    (Gen.dat5 (F := Ideal) V c).arrAt 4 cfg5.N
      = Cert.Gcn.lsm (F := Ideal) (Cert.Gcn.elu32 (F := Ideal) (Cert.Gcn.pre32 (F := Ideal) (V c main_v103) dd (V c main_v75) b)) :=
  (Gen.dat5 (F := Ideal) V c).arrAt_eq_of_cover 4 _ (fun t _ => flushed5_eq V c dd b hc hb t) cover5

end Cert.KernelIdeal.Regions

end
-- ==== Proof.KChain.lean ====
/-
  The contents of the idealized kernel's buffers at every boundary between a host stretch and a region, read back to the
  launch memory: after each stretch and each region, the buffers that matter hold the stages of Spec.lean at the argument
  arrays — a product's region the product, a combine region the layer —, so the result buffer ends at the network.
-/
import proofs.«137336_j25134148616642_1_alg».proof.Proof.Gen.KernelIdeal.Frame
import proofs.«137336_j25134148616642_1_alg».proof.Proof.Gen.ReferenceIdeal
import proofs.«137336_j25134148616642_1_alg».proof.Proof.Spec
import proofs.«137336_j25134148616642_1_alg».proof.Proof.KHost
import proofs.«137336_j25134148616642_1_alg».proof.Proof.RegionDot0
import proofs.«137336_j25134148616642_1_alg».proof.Proof.RegionDot2
import proofs.«137336_j25134148616642_1_alg».proof.Proof.RegionDot4
import proofs.«137336_j25134148616642_1_alg».proof.Proof.RegionCombine1
import proofs.«137336_j25134148616642_1_alg».proof.Proof.RegionCombine3
import proofs.«137336_j25134148616642_1_alg».proof.Proof.RegionCombine5

set_option maxRecDepth 16384

noncomputable section

namespace Cert.KernelIdeal.KChain

open Cert.KernelIdeal Cert.KernelIdeal.Gen Cert.KernelIdeal.Facts₀ Cert.KernelIdeal.Facts
open Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)

/-! ## The stages' values, as functions of the launch memory -/

/-- The edges' sources and destinations, deg^(-1/2) and its square. -/
def eS := Cert.Gcn.src (m ((c : Thread nD τ).loc main_arg1))
def eD := Cert.Gcn.dst (m ((c : Thread nD τ).loc main_arg1))
def eR := Cert.Gcn.dis (F := Ideal) (eD m c)
def eDD := mulf (eR m c) (eR m c)
/-- Each layer's product with its weights and the layer's output. -/
def eH1 := Cert.Gcn.mm1 (F := Ideal) (m ((c : Thread nD τ).loc main_arg0)) (m ((c : Thread nD τ).loc main_arg2))
def eE1 := Cert.Gcn.layer16 (F := Ideal) (eS m c) (eD m c) (eR m c) (eH1 m c) (m ((c : Thread nD τ).loc main_arg3))
def eH2 := Cert.Gcn.mm2 (F := Ideal) (eE1 m c) (m ((c : Thread nD τ).loc main_arg4))
def eE2 := Cert.Gcn.layer16 (F := Ideal) (eS m c) (eD m c) (eR m c) (eH2 m c) (m ((c : Thread nD τ).loc main_arg5))
def eH3 := Cert.Gcn.mm3 (F := Ideal) (eE2 m c) (m ((c : Thread nD τ).loc main_arg6))
def eOut := Cert.Gcn.layer32 (F := Ideal) (eS m c) (eD m c) (eR m c) (eH3 m c) (m ((c : Thread nD τ).loc main_arg7))

/-! ## After the first host stretch -/

theorem W1_v1 : W1 m ρ c (Proc.devRef .tc main_v1) = eS m c := by
  exact KHost.h0_v1 (W0 m ρ c)
theorem W1_v3 : W1 m ρ c (Proc.devRef .tc main_v3) = eD m c := by
  exact KHost.h0_v3 (W0 m ρ c)
theorem W1_v10 : W1 m ρ c (Proc.devRef .tc main_v10) = eR m c := by
  exact KHost.h0_v10 (W0 m ρ c)
theorem W1_v12 : W1 m ρ c (Proc.devRef .tc main_v12) = shapeCast S100000x1 (eDD m c) Facts₀.shapeCasts_S100000_S100000x1 := by
  exact KHost.h0_v12 (W0 m ρ c)
theorem W1_arg0 : W1 m ρ c (Proc.devRef .tc main_arg0) = (m ((c : Thread nD τ).loc main_arg0)) := by
  exact KHost.h0_arg0 (W0 m ρ c)
theorem W1_arg2 : W1 m ρ c (Proc.devRef .tc main_arg2) = (m ((c : Thread nD τ).loc main_arg2)) := by
  exact KHost.h0_arg2 (W0 m ρ c)
theorem W1_arg3 : W1 m ρ c (Proc.devRef .tc main_arg3) = (m ((c : Thread nD τ).loc main_arg3)) := by
  exact KHost.h0_arg3 (W0 m ρ c)
theorem W1_arg4 : W1 m ρ c (Proc.devRef .tc main_arg4) = (m ((c : Thread nD τ).loc main_arg4)) := by
  exact KHost.h0_arg4 (W0 m ρ c)
theorem W1_arg5 : W1 m ρ c (Proc.devRef .tc main_arg5) = (m ((c : Thread nD τ).loc main_arg5)) := by
  exact KHost.h0_arg5 (W0 m ρ c)
theorem W1_arg6 : W1 m ρ c (Proc.devRef .tc main_arg6) = (m ((c : Thread nD τ).loc main_arg6)) := by
  exact KHost.h0_arg6 (W0 m ρ c)
theorem W1_arg7 : W1 m ρ c (Proc.devRef .tc main_arg7) = (m ((c : Thread nD τ).loc main_arg7)) := by
  exact KHost.h0_arg7 (W0 m ρ c)

/-! ## After region 0: the first product -/

theorem W2_v13 : W2 m ρ c (Proc.devRef .tc main_v13) = eH1 m c := by
  refine (W2_arr m ρ c 2).trans ((Regions.dot0 (V1 m ρ) c).trans ?_)
  show Cert.Gcn.mm1 (F := Ideal) (W1 m ρ c (Proc.devRef .tc main_arg0)) (W1 m ρ c (Proc.devRef .tc main_arg2)) = _
  rw [W1_arg0, W1_arg2]; rfl
theorem W2_v1 : W2 m ρ c (Proc.devRef .tc main_v1) = eS m c := by
  exact (W2_of_ne m ρ c main_v1 (by decide)).trans (W1_v1 m ρ c)
theorem W2_v3 : W2 m ρ c (Proc.devRef .tc main_v3) = eD m c := by
  exact (W2_of_ne m ρ c main_v3 (by decide)).trans (W1_v3 m ρ c)
theorem W2_v10 : W2 m ρ c (Proc.devRef .tc main_v10) = eR m c := by
  exact (W2_of_ne m ρ c main_v10 (by decide)).trans (W1_v10 m ρ c)
theorem W2_v12 : W2 m ρ c (Proc.devRef .tc main_v12) = shapeCast S100000x1 (eDD m c) Facts₀.shapeCasts_S100000_S100000x1 := by
  exact (W2_of_ne m ρ c main_v12 (by decide)).trans (W1_v12 m ρ c)
theorem W2_arg3 : W2 m ρ c (Proc.devRef .tc main_arg3) = (m ((c : Thread nD τ).loc main_arg3)) := by
  exact (W2_of_ne m ρ c main_arg3 (by decide)).trans (W1_arg3 m ρ c)
theorem W2_arg4 : W2 m ρ c (Proc.devRef .tc main_arg4) = (m ((c : Thread nD τ).loc main_arg4)) := by
  exact (W2_of_ne m ρ c main_arg4 (by decide)).trans (W1_arg4 m ρ c)
theorem W2_arg5 : W2 m ρ c (Proc.devRef .tc main_arg5) = (m ((c : Thread nD τ).loc main_arg5)) := by
  exact (W2_of_ne m ρ c main_arg5 (by decide)).trans (W1_arg5 m ρ c)
theorem W2_arg6 : W2 m ρ c (Proc.devRef .tc main_arg6) = (m ((c : Thread nD τ).loc main_arg6)) := by
  exact (W2_of_ne m ρ c main_arg6 (by decide)).trans (W1_arg6 m ρ c)
theorem W2_arg7 : W2 m ρ c (Proc.devRef .tc main_arg7) = (m ((c : Thread nD τ).loc main_arg7)) := by
  exact (W2_of_ne m ρ c main_arg7 (by decide)).trans (W1_arg7 m ρ c)

/-! ## After the second host stretch: the first layer's neighbour sum and bias row -/

theorem W3_v41 : W3 m ρ c (Proc.devRef .tc main_v41) = Cert.Gcn.agg16 (F := Ideal) (eS m c) (eD m c) (eR m c) (eH1 m c) := by
  refine (KHost.h1_v41 (W2 m ρ c)).trans ?_
  rw [W2_v1, W2_v3, W2_v10, W2_v13]
theorem W3_v42 : W3 m ρ c (Proc.devRef .tc main_v42) = shapeCast S1x16 (m ((c : Thread nD τ).loc main_arg3)) Facts₀.shapeCasts_S16_S1x16 := by
  refine (KHost.h1_v42 (W2 m ρ c)).trans ?_
  rw [W2_arg3]
theorem W3_v1 : W3 m ρ c (Proc.devRef .tc main_v1) = eS m c := by
  exact (KHost.h1_v1 (W2 m ρ c)).trans (W2_v1 m ρ c)
theorem W3_v3 : W3 m ρ c (Proc.devRef .tc main_v3) = eD m c := by
  exact (KHost.h1_v3 (W2 m ρ c)).trans (W2_v3 m ρ c)
theorem W3_v10 : W3 m ρ c (Proc.devRef .tc main_v10) = eR m c := by
  exact (KHost.h1_v10 (W2 m ρ c)).trans (W2_v10 m ρ c)
theorem W3_v12 : W3 m ρ c (Proc.devRef .tc main_v12) = shapeCast S100000x1 (eDD m c) Facts₀.shapeCasts_S100000_S100000x1 := by
  exact (KHost.h1_v12 (W2 m ρ c)).trans (W2_v12 m ρ c)
theorem W3_v13 : W3 m ρ c (Proc.devRef .tc main_v13) = eH1 m c := by
  exact (KHost.h1_v13 (W2 m ρ c)).trans (W2_v13 m ρ c)
theorem W3_arg4 : W3 m ρ c (Proc.devRef .tc main_arg4) = (m ((c : Thread nD τ).loc main_arg4)) := by
  exact (KHost.h1_arg4 (W2 m ρ c)).trans (W2_arg4 m ρ c)
theorem W3_arg5 : W3 m ρ c (Proc.devRef .tc main_arg5) = (m ((c : Thread nD τ).loc main_arg5)) := by
  exact (KHost.h1_arg5 (W2 m ρ c)).trans (W2_arg5 m ρ c)
theorem W3_arg6 : W3 m ρ c (Proc.devRef .tc main_arg6) = (m ((c : Thread nD τ).loc main_arg6)) := by
  exact (KHost.h1_arg6 (W2 m ρ c)).trans (W2_arg6 m ρ c)
theorem W3_arg7 : W3 m ρ c (Proc.devRef .tc main_arg7) = (m ((c : Thread nD τ).loc main_arg7)) := by
  exact (KHost.h1_arg7 (W2 m ρ c)).trans (W2_arg7 m ρ c)

/-! ## After region 1: the first layer -/

theorem W4_v43 : W4 m ρ c (Proc.devRef .tc main_v43) = eE1 m c := by
  refine (W4_arr m ρ c 4).trans ((Regions.combine1 (V3 m ρ) c (eDD m c) (m ((c : Thread nD τ).loc main_arg3)) (W3_v12 m ρ c) (W3_v42 m ρ c)).trans ?_)
  show Cert.Gcn.elu16 (F := Ideal) (Cert.Gcn.pre16 (F := Ideal) (W3 m ρ c (Proc.devRef .tc main_v41)) (eDD m c) (W3 m ρ c (Proc.devRef .tc main_v13)) (m ((c : Thread nD τ).loc main_arg3))) = _
  rw [W3_v41, W3_v13]; rfl
theorem W4_v1 : W4 m ρ c (Proc.devRef .tc main_v1) = eS m c := by
  exact (W4_of_ne m ρ c main_v1 (by decide)).trans (W3_v1 m ρ c)
theorem W4_v3 : W4 m ρ c (Proc.devRef .tc main_v3) = eD m c := by
  exact (W4_of_ne m ρ c main_v3 (by decide)).trans (W3_v3 m ρ c)
theorem W4_v10 : W4 m ρ c (Proc.devRef .tc main_v10) = eR m c := by
  exact (W4_of_ne m ρ c main_v10 (by decide)).trans (W3_v10 m ρ c)
theorem W4_arg4 : W4 m ρ c (Proc.devRef .tc main_arg4) = (m ((c : Thread nD τ).loc main_arg4)) := by
  exact (W4_of_ne m ρ c main_arg4 (by decide)).trans (W3_arg4 m ρ c)
theorem W4_arg5 : W4 m ρ c (Proc.devRef .tc main_arg5) = (m ((c : Thread nD τ).loc main_arg5)) := by
  exact (W4_of_ne m ρ c main_arg5 (by decide)).trans (W3_arg5 m ρ c)
theorem W4_arg6 : W4 m ρ c (Proc.devRef .tc main_arg6) = (m ((c : Thread nD τ).loc main_arg6)) := by
  exact (W4_of_ne m ρ c main_arg6 (by decide)).trans (W3_arg6 m ρ c)
theorem W4_arg7 : W4 m ρ c (Proc.devRef .tc main_arg7) = (m ((c : Thread nD τ).loc main_arg7)) := by
  exact (W4_of_ne m ρ c main_arg7 (by decide)).trans (W3_arg7 m ρ c)
theorem W4_v12 : W4 m ρ c (Proc.devRef .tc main_v12) = shapeCast S100000x1 (eDD m c) Facts₀.shapeCasts_S100000_S100000x1 := by
  exact ((W4_arr m ρ c 2).trans (((dat1 (V3 m ρ) c).arrAt_in 2 rfl _).trans (A_eq1 (V3 m ρ) c 2))).trans (W3_v12 m ρ c)

/-! ## After region 2: the second product -/

theorem W5_v44 : W5 m ρ c (Proc.devRef .tc main_v44) = eH2 m c := by
  refine (W5_arr m ρ c 2).trans ((Regions.dot2 (V4 m ρ) c).trans ?_)
  show Cert.Gcn.mm2 (F := Ideal) (W4 m ρ c (Proc.devRef .tc main_v43)) (W4 m ρ c (Proc.devRef .tc main_arg4)) = _
  rw [W4_v43, W4_arg4]; rfl
theorem W5_v1 : W5 m ρ c (Proc.devRef .tc main_v1) = eS m c := by
  exact (W5_of_ne m ρ c main_v1 (by decide)).trans (W4_v1 m ρ c)
theorem W5_v3 : W5 m ρ c (Proc.devRef .tc main_v3) = eD m c := by
  exact (W5_of_ne m ρ c main_v3 (by decide)).trans (W4_v3 m ρ c)
theorem W5_v10 : W5 m ρ c (Proc.devRef .tc main_v10) = eR m c := by
  exact (W5_of_ne m ρ c main_v10 (by decide)).trans (W4_v10 m ρ c)
theorem W5_v12 : W5 m ρ c (Proc.devRef .tc main_v12) = shapeCast S100000x1 (eDD m c) Facts₀.shapeCasts_S100000_S100000x1 := by
  exact (W5_of_ne m ρ c main_v12 (by decide)).trans (W4_v12 m ρ c)
theorem W5_arg5 : W5 m ρ c (Proc.devRef .tc main_arg5) = (m ((c : Thread nD τ).loc main_arg5)) := by
  exact (W5_of_ne m ρ c main_arg5 (by decide)).trans (W4_arg5 m ρ c)
theorem W5_arg6 : W5 m ρ c (Proc.devRef .tc main_arg6) = (m ((c : Thread nD τ).loc main_arg6)) := by
  exact (W5_of_ne m ρ c main_arg6 (by decide)).trans (W4_arg6 m ρ c)
theorem W5_arg7 : W5 m ρ c (Proc.devRef .tc main_arg7) = (m ((c : Thread nD τ).loc main_arg7)) := by
  exact (W5_of_ne m ρ c main_arg7 (by decide)).trans (W4_arg7 m ρ c)

/-! ## After the third host stretch -/

theorem W6_v72 : W6 m ρ c (Proc.devRef .tc main_v72) = Cert.Gcn.agg16 (F := Ideal) (eS m c) (eD m c) (eR m c) (eH2 m c) := by
  refine (KHost.h3_v72 (W5 m ρ c)).trans ?_
  rw [W5_v1, W5_v3, W5_v10, W5_v44]
theorem W6_v73 : W6 m ρ c (Proc.devRef .tc main_v73) = shapeCast S1x16 (m ((c : Thread nD τ).loc main_arg5)) Facts₀.shapeCasts_S16_S1x16 := by
  refine (KHost.h3_v73 (W5 m ρ c)).trans ?_
  rw [W5_arg5]
theorem W6_v1 : W6 m ρ c (Proc.devRef .tc main_v1) = eS m c := by
  exact (KHost.h3_v1 (W5 m ρ c)).trans (W5_v1 m ρ c)
theorem W6_v3 : W6 m ρ c (Proc.devRef .tc main_v3) = eD m c := by
  exact (KHost.h3_v3 (W5 m ρ c)).trans (W5_v3 m ρ c)
theorem W6_v10 : W6 m ρ c (Proc.devRef .tc main_v10) = eR m c := by
  exact (KHost.h3_v10 (W5 m ρ c)).trans (W5_v10 m ρ c)
theorem W6_v12 : W6 m ρ c (Proc.devRef .tc main_v12) = shapeCast S100000x1 (eDD m c) Facts₀.shapeCasts_S100000_S100000x1 := by
  exact (KHost.h3_v12 (W5 m ρ c)).trans (W5_v12 m ρ c)
theorem W6_v44 : W6 m ρ c (Proc.devRef .tc main_v44) = eH2 m c := by
  exact (KHost.h3_v44 (W5 m ρ c)).trans (W5_v44 m ρ c)
theorem W6_arg6 : W6 m ρ c (Proc.devRef .tc main_arg6) = (m ((c : Thread nD τ).loc main_arg6)) := by
  exact (KHost.h3_arg6 (W5 m ρ c)).trans (W5_arg6 m ρ c)
theorem W6_arg7 : W6 m ρ c (Proc.devRef .tc main_arg7) = (m ((c : Thread nD τ).loc main_arg7)) := by
  exact (KHost.h3_arg7 (W5 m ρ c)).trans (W5_arg7 m ρ c)

/-! ## After region 3: the second layer -/

theorem W7_v74 : W7 m ρ c (Proc.devRef .tc main_v74) = eE2 m c := by
  refine (W7_arr m ρ c 4).trans ((Regions.combine3 (V6 m ρ) c (eDD m c) (m ((c : Thread nD τ).loc main_arg5)) (W6_v12 m ρ c) (W6_v73 m ρ c)).trans ?_)
  show Cert.Gcn.elu16 (F := Ideal) (Cert.Gcn.pre16 (F := Ideal) (W6 m ρ c (Proc.devRef .tc main_v72)) (eDD m c) (W6 m ρ c (Proc.devRef .tc main_v44)) (m ((c : Thread nD τ).loc main_arg5))) = _
  rw [W6_v72, W6_v44]; rfl
theorem W7_v1 : W7 m ρ c (Proc.devRef .tc main_v1) = eS m c := by
  exact (W7_of_ne m ρ c main_v1 (by decide)).trans (W6_v1 m ρ c)
theorem W7_v3 : W7 m ρ c (Proc.devRef .tc main_v3) = eD m c := by
  exact (W7_of_ne m ρ c main_v3 (by decide)).trans (W6_v3 m ρ c)
theorem W7_v10 : W7 m ρ c (Proc.devRef .tc main_v10) = eR m c := by
  exact (W7_of_ne m ρ c main_v10 (by decide)).trans (W6_v10 m ρ c)
theorem W7_arg6 : W7 m ρ c (Proc.devRef .tc main_arg6) = (m ((c : Thread nD τ).loc main_arg6)) := by
  exact (W7_of_ne m ρ c main_arg6 (by decide)).trans (W6_arg6 m ρ c)
theorem W7_arg7 : W7 m ρ c (Proc.devRef .tc main_arg7) = (m ((c : Thread nD τ).loc main_arg7)) := by
  exact (W7_of_ne m ρ c main_arg7 (by decide)).trans (W6_arg7 m ρ c)
theorem W7_v12 : W7 m ρ c (Proc.devRef .tc main_v12) = shapeCast S100000x1 (eDD m c) Facts₀.shapeCasts_S100000_S100000x1 := by
  exact ((W7_arr m ρ c 2).trans (((dat3 (V6 m ρ) c).arrAt_in 2 rfl _).trans (A_eq3 (V6 m ρ) c 2))).trans (W6_v12 m ρ c)

/-! ## After region 4: the third product -/

theorem W8_v75 : W8 m ρ c (Proc.devRef .tc main_v75) = eH3 m c := by
  refine (W8_arr m ρ c 2).trans ((Regions.dot4 (V7 m ρ) c).trans ?_)
  show Cert.Gcn.mm3 (F := Ideal) (W7 m ρ c (Proc.devRef .tc main_v74)) (W7 m ρ c (Proc.devRef .tc main_arg6)) = _
  rw [W7_v74, W7_arg6]; rfl
theorem W8_v1 : W8 m ρ c (Proc.devRef .tc main_v1) = eS m c := by
  exact (W8_of_ne m ρ c main_v1 (by decide)).trans (W7_v1 m ρ c)
theorem W8_v3 : W8 m ρ c (Proc.devRef .tc main_v3) = eD m c := by
  exact (W8_of_ne m ρ c main_v3 (by decide)).trans (W7_v3 m ρ c)
theorem W8_v10 : W8 m ρ c (Proc.devRef .tc main_v10) = eR m c := by
  exact (W8_of_ne m ρ c main_v10 (by decide)).trans (W7_v10 m ρ c)
theorem W8_v12 : W8 m ρ c (Proc.devRef .tc main_v12) = shapeCast S100000x1 (eDD m c) Facts₀.shapeCasts_S100000_S100000x1 := by
  exact (W8_of_ne m ρ c main_v12 (by decide)).trans (W7_v12 m ρ c)
theorem W8_arg7 : W8 m ρ c (Proc.devRef .tc main_arg7) = (m ((c : Thread nD τ).loc main_arg7)) := by
  exact (W8_of_ne m ρ c main_arg7 (by decide)).trans (W7_arg7 m ρ c)

/-! ## After the last host stretch -/

theorem W9_v103 : W9 m ρ c (Proc.devRef .tc main_v103) = Cert.Gcn.agg32 (F := Ideal) (eS m c) (eD m c) (eR m c) (eH3 m c) := by
  refine (KHost.h5_v103 (W8 m ρ c)).trans ?_
  rw [W8_v1, W8_v3, W8_v10, W8_v75]
theorem W9_v104 : W9 m ρ c (Proc.devRef .tc main_v104) = shapeCast S1x32 (m ((c : Thread nD τ).loc main_arg7)) Facts₀.shapeCasts_S32_S1x32 := by
  refine (KHost.h5_v104 (W8 m ρ c)).trans ?_
  rw [W8_arg7]
theorem W9_v12 : W9 m ρ c (Proc.devRef .tc main_v12) = shapeCast S100000x1 (eDD m c) Facts₀.shapeCasts_S100000_S100000x1 := by
  exact (KHost.h5_v12 (W8 m ρ c)).trans (W8_v12 m ρ c)
theorem W9_v75 : W9 m ρ c (Proc.devRef .tc main_v75) = eH3 m c := by
  exact (KHost.h5_v75 (W8 m ρ c)).trans (W8_v75 m ρ c)

/-! ## After region 5: the result -/

theorem W10_v105 : W10 m ρ c (Proc.devRef .tc main_v105) = eOut m c := by
  refine (W10_arr m ρ c 4).trans ((Regions.combine5 (V9 m ρ) c (eDD m c) (m ((c : Thread nD τ).loc main_arg7)) (W9_v12 m ρ c) (W9_v104 m ρ c)).trans ?_)
  show Cert.Gcn.lsm (F := Ideal) (Cert.Gcn.elu32 (F := Ideal) (Cert.Gcn.pre32 (F := Ideal) (W9 m ρ c (Proc.devRef .tc main_v103)) (eDD m c) (W9 m ρ c (Proc.devRef .tc main_v75)) (m ((c : Thread nD τ).loc main_arg7)))) = _
  rw [W9_v103, W9_v75]; rfl

/-- The result is the network of Spec.lean at the argument arrays. -/
theorem eOut_eq : eOut m c = Cert.Gcn.net (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := rfl

end Cert.KernelIdeal.KChain

end
-- ==== Proof.lean ====
/-
  A three-layer graph convolution (node features [100000, 256], 3200000 edges; widths 16, 16, 32; elu after every
  layer, a row-wise log-softmax at the end). The kernel computes each layer's product with its weights and each layer's
  "neighbour sum + dis² · h + bias, then elu (then log-softmax)" in row-tiled regions of 5000 rows, and leaves the
  edge-indexed gathers and scatter-adds to the host; the reference does everything on the host.

  At the exact (extended-real) values the two agree without any hypothesis on the inputs: rounding to bf16 before the
  matrix unit is the identity, the matrix unit's product into a zero accumulator is the host's dot_general (both the
  plain sum over the contracted axis), the tiling is a cover of the rows by 20 disjoint blocks, the kernel's
  exp z − 1 is the host's 1 · expm1 z where z > 0 fails, and max(−∞, M) = M in the log-softmax. The host stretches of
  the kernel are literally the reference's operations.

  Spec.lean states the network stage by stage; RefOps / RefRead run the reference to it; KRun names the kernel's
  result; KHost reads the kernel's host stretches, the Region* modules its six regions, KChain composes them.
-/
import proofs.«137336_j25134148616642_1_alg».proof.Defs
import proofs.«137336_j25134148616642_1_alg».proof.Proof.Gen.Kernel
import proofs.«137336_j25134148616642_1_alg».proof.Proof.Gen.Kernel.Frame
import proofs.«137336_j25134148616642_1_alg».proof.Proof.Gen.KernelIdeal
import proofs.«137336_j25134148616642_1_alg».proof.Proof.Gen.KernelIdeal.Frame
import proofs.«137336_j25134148616642_1_alg».proof.Proof.Gen.ReferenceIdeal
import proofs.«137336_j25134148616642_1_alg».proof.Proof.Gen.Pre_finite_inputs
import proofs.«137336_j25134148616642_1_alg».proof.Proof.RefRead
import proofs.«137336_j25134148616642_1_alg».proof.Proof.KRun
import proofs.«137336_j25134148616642_1_alg».proof.Proof.KChain
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.ReferenceIdeal.HandRun.run (F := Ideal) m ρ)

/-- Both idealized programs end with the network of the (agreeing) argument arrays in their result buffers. -/
theorem algebraic : Cert.algebraic_KernelIdeal_ReferenceIdeal := by
  intro m ρ m' ρ' _ hagree
  refine ⟨fun c => Cert.KernelIdeal.KChain.eOut m c, ?_, ?_⟩
  · exact (θ_run Cert.KernelIdeal.defs _ _).mono
      (fun r h c => ⟨(h c).1.trans (Cert.KernelIdeal.KChain.W10_v105 m ρ c), (h c).2⟩)
      (Cert.KernelIdeal.KRun.run_value (F := Ideal) m ρ)
  · refine (θ_run Cert.ReferenceIdeal.defs _ _).mono (fun _ h c => ⟨(h c).1.trans ?_, (h c).2⟩)
      (Cert.ReferenceIdeal.HandRun.run (F := Ideal) m' ρ')
    obtain ⟨h0, h1, h2, h3, h4, h5, h6, h7⟩ := hagree c
    rw [h0, h1, h2, h3, h4, h5, h6, h7]
    exact (Cert.KernelIdeal.KChain.eOut_eq m c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
